-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v186)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v186) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v224) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part7 {F : FTy → Type} [FloatOps F] (main_arg16 : FVec F S128 .f32) (main_arg20 : FVec F S128 .f32) (main_v117 : IVec S_ 1) (main_v118 : FVec F S128 .f32) : IVec S_ 1 :=
  let main_v119 : IVec S128 1 := cmpf .oge main_arg16 main_v118
  let main_c_47 : IVec S_ 1 := constantI S_ 1 1#1
  let main_v120 : IVec S_ 1 := (fun x v => Host.reduce IntOp.andi x v reducesTo_S128_S_d0 h_S_) main_v119 main_c_47
  let main_v121 : IVec S_ 1 := andi main_v117 main_v120
  let main_cst_48 : FVec F S_ .f32 := constant S_ .f32 0x00000000#32
  let main_v122 : FVec F S128 .f32 := broadcastInDim S128 ![] bcast_S_S128 main_cst_48
  let main_v123 : IVec S128 1 := cmpf .oge main_arg20 main_v122
  let main_c_49 : IVec S_ 1 := constantI S_ 1 1#1
  let main_v124 : IVec S_ 1 := (fun x v => Host.reduce IntOp.andi x v reducesTo_S128_S_d0 h_S_) main_v123 main_c_49
  let main_v125 : IVec S_ 1 := andi main_v121 main_v124
  main_v125

def fn_part6 {F : FTy → Type} [FloatOps F] (main_arg12 : FVec F S128 .f32) (main_arg16 : FVec F S128 .f32) (main_arg20 : FVec F S128 .f32) (main_arg23 : FVec F S128x64 .f32) (main_arg24 : FVec F S64 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S128x64 .f32 := Host.absf main_arg23
  let main_cst_40 : FVec F S_ .f32 := constant S_ .f32 0x7F800000#32
  let main_v105 : FVec F S128x64 .f32 := broadcastInDim S128x64 ![] bcast_S_S128x64 main_cst_40
  let main_v106 : IVec S128x64 1 := cmpf .olt main_v104 main_v105
  let main_c_41 : IVec S_ 1 := constantI S_ 1 1#1
  let main_v107 : IVec S_ 1 := (fun x v => Host.reduce IntOp.andi x v reducesTo_S128x64_S_d0_1 h_S_) main_v106 main_c_41
  let main_v108 : IVec S_ 1 := andi main_v103 main_v107
  let main_v109 : FVec F S64 .f32 := Host.absf main_arg24
  let main_cst_42 : FVec F S_ .f32 := constant S_ .f32 0x7F800000#32
  let main_v110 : FVec F S64 .f32 := broadcastInDim S64 ![] bcast_S_S64 main_cst_42
  let main_v111 : IVec S64 1 := cmpf .olt main_v109 main_v110
  let main_c_43 : IVec S_ 1 := constantI S_ 1 1#1
  let main_v112 : IVec S_ 1 := (fun x v => Host.reduce IntOp.andi x v reducesTo_S64_S_d0 h_S_) main_v111 main_c_43
  let main_v113 : IVec S_ 1 := andi main_v108 main_v112
  let main_cst_44 : FVec F S_ .f32 := constant S_ .f32 0x00000000#32
  let main_v114 : FVec F S128 .f32 := broadcastInDim S128 ![] bcast_S_S128 main_cst_44
  let main_v115 : IVec S128 1 := cmpf .oge main_arg12 main_v114
  let main_c_45 : IVec S_ 1 := constantI S_ 1 1#1
  let main_v116 : IVec S_ 1 := (fun x v => Host.reduce IntOp.andi x v reducesTo_S128_S_d0 h_S_) main_v115 main_c_45
  let main_v117 : IVec S_ 1 := andi main_v113 main_v116
  let main_cst_46 : FVec F S_ .f32 := constant S_ .f32 0x00000000#32
  let main_v118 : FVec F S128 .f32 := broadcastInDim S128 ![] bcast_S_S128 main_cst_46
  fn_part7 (F := F) main_arg16 main_arg20 main_v117 main_v118

def fn_part5 {F : FTy → Type} [FloatOps F] (main_arg12 : FVec F S128 .f32) (main_arg16 : FVec F S128 .f32) (main_arg20 : FVec F S128 .f32) (main_arg21 : FVec F S128x128 .f32) (main_arg22 : FVec F S128 .f32) (main_arg23 : FVec F S128x64 .f32) (main_arg24 : FVec F S64 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128 .f32 := Host.absf main_arg20
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128x128 .f32 := Host.absf main_arg21
  let main_cst_36 : FVec F S_ .f32 := constant S_ .f32 0x7F800000#32
  let main_v95 : FVec F S128x128 .f32 := broadcastInDim S128x128 ![] bcast_S_S128x128 main_cst_36
  let main_v96 : IVec S128x128 1 := cmpf .olt main_v94 main_v95
  let main_c_37 : IVec S_ 1 := constantI S_ 1 1#1
  let main_v97 : IVec S_ 1 := (fun x v => Host.reduce IntOp.andi x v reducesTo_S128x128_S_d0_1 h_S_) main_v96 main_c_37
  let main_v98 : IVec S_ 1 := andi main_v93 main_v97
  let main_v99 : FVec F S128 .f32 := Host.absf main_arg22
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg12 main_arg16 main_arg20 main_arg23 main_arg24 main_v98 main_v101 main_c_39

def fn_part4 {F : FTy → Type} [FloatOps F] (main_arg12 : FVec F S128 .f32) (main_arg16 : FVec F S128 .f32) (main_arg17 : FVec F S128 .f32) (main_arg18 : FVec F S128 .f32) (main_arg19 : FVec F S128 .f32) (main_arg20 : FVec F S128 .f32) (main_arg21 : FVec F S128x128 .f32) (main_arg22 : FVec F S128 .f32) (main_arg23 : FVec F S128x64 .f32) (main_arg24 : FVec F S64 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg18
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg19
  let main_cst_32 : FVec F S_ .f32 := constant S_ .f32 0x7F800000#32
  fn_part5 (F := F) main_arg12 main_arg16 main_arg20 main_arg21 main_arg22 main_arg23 main_arg24 main_v83 main_v84 main_cst_32

def fn_part3 {F : FTy → Type} [FloatOps F] (main_arg12 : FVec F S128 .f32) (main_arg13 : FVec F S128 .f32) (main_arg14 : FVec F S128 .f32) (main_arg15 : FVec F S128 .f32) (main_arg16 : FVec F S128 .f32) (main_arg17 : FVec F S128 .f32) (main_arg18 : FVec F S128 .f32) (main_arg19 : FVec F S128 .f32) (main_arg20 : FVec F S128 .f32) (main_arg21 : FVec F S128x128 .f32) (main_arg22 : FVec F S128 .f32) (main_arg23 : FVec F S128x64 .f32) (main_arg24 : FVec F S64 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg12 main_arg16 main_arg17 main_arg18 main_arg19 main_arg20 main_arg21 main_arg22 main_arg23 main_arg24 main_v63 main_v67

def fn_part2 {F : FTy → Type} [FloatOps F] (main_arg9 : FVec F S128 .f32) (main_arg10 : FVec F S128 .f32) (main_arg11 : FVec F S128 .f32) (main_arg12 : FVec F S128 .f32) (main_arg13 : FVec F S128 .f32) (main_arg14 : FVec F S128 .f32) (main_arg15 : FVec F S128 .f32) (main_arg16 : FVec F S128 .f32) (main_arg17 : FVec F S128 .f32) (main_arg18 : FVec F S128 .f32) (main_arg19 : FVec F S128 .f32) (main_arg20 : FVec F S128 .f32) (main_arg21 : FVec F S128x128 .f32) (main_arg22 : FVec F S128 .f32) (main_arg23 : FVec F S128x64 .f32) (main_arg24 : FVec F S64 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_arg16 main_arg17 main_arg18 main_arg19 main_arg20 main_arg21 main_arg22 main_arg23 main_arg24 main_v48 main_v49 main_v50

def fn_part1 {F : FTy → Type} [FloatOps F] (main_arg6 : FVec F S128 .f32) (main_arg7 : FVec F S128x128 .f32) (main_arg8 : FVec F S128 .f32) (main_arg9 : FVec F S128 .f32) (main_arg10 : FVec F S128 .f32) (main_arg11 : FVec F S128 .f32) (main_arg12 : FVec F S128 .f32) (main_arg13 : FVec F S128 .f32) (main_arg14 : FVec F S128 .f32) (main_arg15 : FVec F S128 .f32) (main_arg16 : FVec F S128 .f32) (main_arg17 : FVec F S128 .f32) (main_arg18 : FVec F S128 .f32) (main_arg19 : FVec F S128 .f32) (main_arg20 : FVec F S128 .f32) (main_arg21 : FVec F S128x128 .f32) (main_arg22 : FVec F S128 .f32) (main_arg23 : FVec F S128x64 .f32) (main_arg24 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128 .f32) (main_arg10 : FVec F S128 .f32) (main_arg11 : FVec F S128 .f32) (main_arg12 : FVec F S128 .f32) (main_arg13 : FVec F S128 .f32) (main_arg14 : FVec F S128 .f32) (main_arg15 : FVec F S128 .f32) (main_arg16 : FVec F S128 .f32) (main_arg17 : FVec F S128 .f32) (main_arg18 : FVec F S128 .f32) (main_arg19 : FVec F S128 .f32) (main_arg20 : FVec F S128 .f32) (main_arg21 : FVec F S128x128 .f32) (main_arg22 : FVec F S128 .f32) (main_arg23 : FVec F S128x64 .f32) (main_arg24 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S10000x128 : Shape := ⟨2, ![10000, 128]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S5000x128 : Shape := ⟨2, ![5000, 128]⟩
abbrev S100000x1 : Shape := ⟨2, ![100000, 1]⟩
abbrev S64x128 : Shape := ⟨2, ![64, 128]⟩
abbrev S64x1 : Shape := ⟨2, ![64, 1]⟩
abbrev S64x64 : Shape := ⟨2, ![64, 64]⟩
abbrev S1x64 : Shape := ⟨2, ![1, 64]⟩

abbrev nBuf : Space → Nat
  | .hbm => 265
  | .vmem => 37
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128, .f32⟩
  | 10 => ⟨S128, .f32⟩
  | 11 => ⟨S128, .f32⟩
  | 12 => ⟨S128, .f32⟩
  | 13 => ⟨S128, .f32⟩
  | 14 => ⟨S128, .f32⟩
  | 15 => ⟨S128, .f32⟩
  | 16 => ⟨S128, .f32⟩
  | 17 => ⟨S128, .f32⟩
  | 18 => ⟨S128, .f32⟩
  | 19 => ⟨S128, .f32⟩
  | 20 => ⟨S128, .f32⟩
  | 21 => ⟨S128x128, .f32⟩
  | 22 => ⟨S128, .f32⟩
  | 23 => ⟨S128x64, .f32⟩
  | 24 => ⟨S64, .f32⟩
  | 25 => ⟨S1x1600000, .i32⟩
  | 26 => ⟨S1600000, .i32⟩
  | 27 => ⟨S1x1600000, .i32⟩
  | 28 => ⟨S1600000, .i32⟩
  | 29 => ⟨S100000x128, .f32⟩
  | 30 => ⟨S100000, .i32⟩
  | 31 => ⟨S1700000, .i32⟩
  | 32 => ⟨S1700000, .i32⟩
  | 33 => ⟨S_, .f32⟩
  | 34 => ⟨S1700000, .f32⟩
  | 35 => ⟨S_, .f32⟩
  | 36 => ⟨S100000, .f32⟩
  | 37 => ⟨S1700000x1, .i32⟩
  | 38 => ⟨S100000, .f32⟩
  | 39 => ⟨S_, .f32⟩
  | 40 => ⟨S100000, .f32⟩
  | 41 => ⟨S100000, .i1⟩
  | 42 => ⟨S100000, .f32⟩
  | 43 => ⟨S_, .f32⟩
  | 44 => ⟨S_, .f32⟩
  | 45 => ⟨S100000, .f32⟩
  | 46 => ⟨S100000, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000, .f32⟩
  | 56 => ⟨S_, .i32⟩
  | 57 => ⟨S1700000, .i32⟩
  | 58 => ⟨S1700000, .i1⟩
  | 59 => ⟨S_, .i32⟩
  | 60 => ⟨S1700000, .i32⟩
  | 61 => ⟨S1700000, .i32⟩
  | 62 => ⟨S1700000, .i32⟩
  | 63 => ⟨S1700000x1, .i32⟩
  | 64 => ⟨S1700000, .f32⟩
  | 65 => ⟨S1700000, .f32⟩
  | 66 => ⟨S_, .i32⟩
  | 67 => ⟨S1700000, .i32⟩
  | 68 => ⟨S1700000, .i1⟩
  | 69 => ⟨S_, .i32⟩
  | 70 => ⟨S1700000, .i32⟩
  | 71 => ⟨S1700000, .i32⟩
  | 72 => ⟨S1700000, .i32⟩
  | 73 => ⟨S1700000x1, .i32⟩
  | 74 => ⟨S1700000x128, .f32⟩
  | 75 => ⟨S1700000x1, .f32⟩
  | 76 => ⟨S1700000x128, .f32⟩
  | 77 => ⟨S1700000x128, .f32⟩
  | 78 => ⟨S_, .f32⟩
  | 79 => ⟨S100000x128, .f32⟩
  | 80 => ⟨S1700000x1, .i32⟩
  | 81 => ⟨S100000x128, .f32⟩
  | 82 => ⟨S_, .f32⟩
  | 83 => ⟨S128, .f32⟩
  | 84 => ⟨S128, .f32⟩
  | 85 => ⟨S128, .f32⟩
  | 86 => ⟨S128, .f32⟩
  | 87 => ⟨S128, .f32⟩
  | 88 => ⟨S128, .f32⟩
  | 89 => ⟨S128, .f32⟩
  | 90 => ⟨S128, .f32⟩
  | 91 => ⟨S1x128, .f32⟩
  | 92 => ⟨S1x128, .f32⟩
  | 93 => ⟨S100000x128, .f32⟩
  | 94 => ⟨S100000x128, .f32⟩
  | 95 => ⟨S100000, .i32⟩
  | 96 => ⟨S1700000, .i32⟩
  | 97 => ⟨S1700000, .i32⟩
  | 98 => ⟨S_, .f32⟩
  | 99 => ⟨S1700000, .f32⟩
  | 100 => ⟨S_, .f32⟩
  | 101 => ⟨S100000, .f32⟩
  | 102 => ⟨S1700000x1, .i32⟩
  | 103 => ⟨S100000, .f32⟩
  | 104 => ⟨S_, .f32⟩
  | 105 => ⟨S100000, .f32⟩
  | 106 => ⟨S100000, .i1⟩
  | 107 => ⟨S100000, .f32⟩
  | 108 => ⟨S_, .f32⟩
  | 109 => ⟨S_, .f32⟩
  | 110 => ⟨S100000, .f32⟩
  | 111 => ⟨S100000, .f32⟩
  | 112 => ⟨S_, .i32⟩
  | 113 => ⟨S1700000, .i32⟩
  | 114 => ⟨S1700000, .i1⟩
  | 115 => ⟨S_, .i32⟩
  | 116 => ⟨S1700000, .i32⟩
  | 117 => ⟨S1700000, .i32⟩
  | 118 => ⟨S1700000, .i32⟩
  | 119 => ⟨S1700000x1, .i32⟩
  | 120 => ⟨S1700000, .f32⟩
  | 121 => ⟨S_, .i32⟩
  | 122 => ⟨S1700000, .i32⟩
  | 123 => ⟨S1700000, .i1⟩
  | 124 => ⟨S_, .i32⟩
  | 125 => ⟨S1700000, .i32⟩
  | 126 => ⟨S1700000, .i32⟩
  | 127 => ⟨S1700000, .i32⟩
  | _ => ⟨S100000x128, .f32⟩

abbrev hbmTy0_1 (i : Nat) : BufTy := match i % 128 with
  | 0 => ⟨S1700000x1, .i32⟩
  | 1 => ⟨S1700000, .f32⟩
  | 2 => ⟨S1700000, .f32⟩
  | 3 => ⟨S_, .i32⟩
  | 4 => ⟨S1700000, .i32⟩
  | 5 => ⟨S1700000, .i1⟩
  | 6 => ⟨S_, .i32⟩
  | 7 => ⟨S1700000, .i32⟩
  | 8 => ⟨S1700000, .i32⟩
  | 9 => ⟨S1700000, .i32⟩
  | 10 => ⟨S1700000x1, .i32⟩
  | 11 => ⟨S1700000x128, .f32⟩
  | 12 => ⟨S1700000x1, .f32⟩
  | 13 => ⟨S1700000x128, .f32⟩
  | 14 => ⟨S1700000x128, .f32⟩
  | 15 => ⟨S_, .f32⟩
  | 16 => ⟨S100000x128, .f32⟩
  | 17 => ⟨S1700000x1, .i32⟩
  | 18 => ⟨S100000x128, .f32⟩
  | 19 => ⟨S_, .f32⟩
  | 20 => ⟨S128, .f32⟩
  | 21 => ⟨S128, .f32⟩
  | 22 => ⟨S128, .f32⟩
  | 23 => ⟨S128, .f32⟩
  | 24 => ⟨S128, .f32⟩
  | 25 => ⟨S128, .f32⟩
  | 26 => ⟨S128, .f32⟩
  | 27 => ⟨S128, .f32⟩
  | 28 => ⟨S1x128, .f32⟩
  | 29 => ⟨S1x128, .f32⟩
  | 30 => ⟨S100000x128, .f32⟩
  | 31 => ⟨S100000x128, .f32⟩
  | 32 => ⟨S100000, .i32⟩
  | 33 => ⟨S1700000, .i32⟩
  | 34 => ⟨S1700000, .i32⟩
  | 35 => ⟨S_, .f32⟩
  | 36 => ⟨S1700000, .f32⟩
  | 37 => ⟨S_, .f32⟩
  | 38 => ⟨S100000, .f32⟩
  | 39 => ⟨S1700000x1, .i32⟩
  | 40 => ⟨S100000, .f32⟩
  | 41 => ⟨S_, .f32⟩
  | 42 => ⟨S100000, .f32⟩
  | 43 => ⟨S100000, .i1⟩
  | 44 => ⟨S100000, .f32⟩
  | 45 => ⟨S_, .f32⟩
  | 46 => ⟨S_, .f32⟩
  | 47 => ⟨S100000, .f32⟩
  | 48 => ⟨S100000, .f32⟩
  | 49 => ⟨S_, .i32⟩
  | 50 => ⟨S1700000, .i32⟩
  | 51 => ⟨S1700000, .i1⟩
  | 52 => ⟨S_, .i32⟩
  | 53 => ⟨S1700000, .i32⟩
  | 54 => ⟨S1700000, .i32⟩
  | 55 => ⟨S1700000, .i32⟩
  | 56 => ⟨S1700000x1, .i32⟩
  | 57 => ⟨S1700000, .f32⟩
  | 58 => ⟨S_, .i32⟩
  | 59 => ⟨S1700000, .i32⟩
  | 60 => ⟨S1700000, .i1⟩
  | 61 => ⟨S_, .i32⟩
  | 62 => ⟨S1700000, .i32⟩
  | 63 => ⟨S1700000, .i32⟩
  | 64 => ⟨S1700000, .i32⟩
  | 65 => ⟨S1700000x1, .i32⟩
  | 66 => ⟨S1700000, .f32⟩
  | 67 => ⟨S1700000, .f32⟩
  | 68 => ⟨S_, .i32⟩
  | 69 => ⟨S1700000, .i32⟩
  | 70 => ⟨S1700000, .i1⟩
  | 71 => ⟨S_, .i32⟩
  | 72 => ⟨S1700000, .i32⟩
  | 73 => ⟨S1700000, .i32⟩
  | 74 => ⟨S1700000, .i32⟩
  | 75 => ⟨S1700000x1, .i32⟩
  | 76 => ⟨S1700000x128, .f32⟩
  | 77 => ⟨S1700000x1, .f32⟩
  | 78 => ⟨S1700000x128, .f32⟩
  | 79 => ⟨S1700000x128, .f32⟩
  | 80 => ⟨S_, .f32⟩
  | 81 => ⟨S100000x128, .f32⟩
  | 82 => ⟨S1700000x1, .i32⟩
  | 83 => ⟨S100000x128, .f32⟩
  | 84 => ⟨S_, .f32⟩
  | 85 => ⟨S128, .f32⟩
  | 86 => ⟨S128, .f32⟩
  | 87 => ⟨S128, .f32⟩
  | 88 => ⟨S128, .f32⟩
  | 89 => ⟨S128, .f32⟩
  | 90 => ⟨S128, .f32⟩
  | 91 => ⟨S128, .f32⟩
  | 92 => ⟨S128, .f32⟩
  | 93 => ⟨S1x128, .f32⟩
  | 94 => ⟨S1x128, .f32⟩
  | 95 => ⟨S100000x128, .f32⟩
  | 96 => ⟨S_, .f32⟩
  | 97 => ⟨S100000, .f32⟩
  | 98 => ⟨S_, .f32⟩
  | 99 => ⟨S64, .f32⟩
  | 100 => ⟨S100000x1, .i32⟩
  | 101 => ⟨S64, .f32⟩
  | 102 => ⟨S_, .f32⟩
  | 103 => ⟨S64x128, .f32⟩
  | 104 => ⟨S100000x1, .i32⟩
  | 105 => ⟨S64x128, .f32⟩
  | 106 => ⟨S_, .f32⟩
  | 107 => ⟨S64, .f32⟩
  | 108 => ⟨S64, .f32⟩
  | 109 => ⟨S64x1, .f32⟩
  | 110 => ⟨S64x128, .f32⟩
  | 111 => ⟨S64x128, .f32⟩
  | 112 => ⟨S64x128, .f32⟩
  | 113 => ⟨S1x128, .f32⟩
  | 114 => ⟨S64x128, .f32⟩
  | 115 => ⟨S64x128, .f32⟩
  | 116 => ⟨S_, .f32⟩
  | 117 => ⟨S64x128, .f32⟩
  | 118 => ⟨S64x128, .i1⟩
  | 119 => ⟨S_, .f32⟩
  | 120 => ⟨S64x128, .f32⟩
  | 121 => ⟨S64x128, .f32⟩
  | 122 => ⟨S64x128, .f32⟩
  | 123 => ⟨S64x64, .f32⟩
  | 124 => ⟨S1x64, .f32⟩
  | 125 => ⟨S64x64, .f32⟩
  | 126 => ⟨S64x64, .f32⟩
  | 127 => ⟨S64x64, .f32⟩
  | _ => ⟨S100000x128, .f32⟩

abbrev hbmTy0_2 (i : Nat) : BufTy := match i % 128 with
  | 0 => ⟨S_, .f32⟩
  | 1 => ⟨S64, .f32⟩
  | 2 => ⟨S64x1, .f32⟩
  | 3 => ⟨S64x1, .f32⟩
  | 4 => ⟨S_, .f32⟩
  | 5 => ⟨S64x1, .f32⟩
  | 6 => ⟨S64x1, .f32⟩
  | 7 => ⟨S64x64, .f32⟩
  | 8 => ⟨S64x64, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S10000x128, .f32⟩
  | .local _ .vmem, ⟨12, _⟩ => ⟨S10000x128, .f32⟩
  | .local _ .vmem, ⟨13, _⟩ => ⟨S128x128, .f32⟩
  | .local _ .vmem, ⟨14, _⟩ => ⟨S10000x128, .f32⟩
  | .local _ .vmem, ⟨15, _⟩ => ⟨S10000x128, .f32⟩
  | .local _ .vmem, ⟨16, _⟩ => ⟨S5000x128, .f32⟩
  | .local _ .vmem, ⟨17, _⟩ => ⟨S5000x128, .f32⟩
  | .local _ .vmem, ⟨18, _⟩ => ⟨S1x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S10000x128, .f32⟩
  | .local _ .vmem, ⟨25, _⟩ => ⟨S10000x128, .f32⟩
  | .local _ .vmem, ⟨26, _⟩ => ⟨S128x128, .f32⟩
  | .local _ .vmem, ⟨27, _⟩ => ⟨S10000x128, .f32⟩
  | .local _ .vmem, ⟨28, _⟩ => ⟨S10000x128, .f32⟩
  | .local _ .vmem, ⟨29, _⟩ => ⟨S5000x128, .f32⟩
  | .local _ .vmem, ⟨30, _⟩ => ⟨S5000x128, .f32⟩
  | .local _ .vmem, ⟨31, _⟩ => ⟨S1x128, .f32⟩
  | .local _ .vmem, ⟨32, _⟩ => ⟨S1x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_cst : Ref sig .tc := ⟨.hbm, 33, rfl⟩
abbrev main_v8 : Ref sig .tc := ⟨.hbm, 34, rfl⟩
abbrev main_cst_0 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_cst_1 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_cst_2 : Ref sig .tc := ⟨.hbm, 43, rfl⟩
abbrev main_call0_v0 : Ref sig .tc := ⟨.hbm, 44, rfl⟩
abbrev main_call0_v1 : Ref sig .tc := ⟨.hbm, 45, rfl⟩
abbrev main_v15 : Ref sig .tc := ⟨.hbm, 46, rfl⟩
abbrev main_c : Ref sig .tc := ⟨.hbm, 47, rfl⟩
abbrev main_v16 : Ref sig .tc := ⟨.hbm, 48, rfl⟩
abbrev main_v17 : Ref sig .tc := ⟨.hbm, 49, rfl⟩
abbrev main_c_3 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_c_4 : Ref sig .tc := ⟨.hbm, 56, rfl⟩
abbrev main_v23 : Ref sig .tc := ⟨.hbm, 57, rfl⟩
abbrev main_v24 : Ref sig .tc := ⟨.hbm, 58, rfl⟩
abbrev main_c_5 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_c_6 : Ref sig .tc := ⟨.hbm, 66, rfl⟩
abbrev main_v31 : Ref sig .tc := ⟨.hbm, 67, rfl⟩
abbrev main_v32 : Ref sig .tc := ⟨.hbm, 68, rfl⟩
abbrev main_c_7 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_cst_8 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_cst_9 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_cst_10 : Ref sig .tc := ⟨.hbm, 98, rfl⟩
abbrev main_v59 : Ref sig .tc := ⟨.hbm, 99, rfl⟩
abbrev main_cst_11 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_cst_12 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_cst_13 : Ref sig .tc := ⟨.hbm, 108, rfl⟩
abbrev main_call1_v0 : Ref sig .tc := ⟨.hbm, 109, rfl⟩
abbrev main_call1_v1 : Ref sig .tc := ⟨.hbm, 110, rfl⟩
abbrev main_v66 : Ref sig .tc := ⟨.hbm, 111, rfl⟩
abbrev main_c_14 : Ref sig .tc := ⟨.hbm, 112, rfl⟩
abbrev main_v67 : Ref sig .tc := ⟨.hbm, 113, rfl⟩
abbrev main_v68 : Ref sig .tc := ⟨.hbm, 114, rfl⟩
abbrev main_c_15 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_c_16 : Ref sig .tc := ⟨.hbm, 121, rfl⟩
abbrev main_v74 : Ref sig .tc := ⟨.hbm, 122, rfl⟩
abbrev main_v75 : Ref sig .tc := ⟨.hbm, 123, rfl⟩
abbrev main_c_17 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_c_18 : Ref sig .tc := ⟨.hbm, 131, rfl⟩
abbrev main_v82 : Ref sig .tc := ⟨.hbm, 132, rfl⟩
abbrev main_v83 : Ref sig .tc := ⟨.hbm, 133, rfl⟩
abbrev main_c_19 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_cst_20 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_cst_21 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_cst_22 : Ref sig .tc := ⟨.hbm, 163, rfl⟩
abbrev main_v110 : Ref sig .tc := ⟨.hbm, 164, rfl⟩
abbrev main_cst_23 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_cst_24 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_cst_25 : Ref sig .tc := ⟨.hbm, 173, rfl⟩
abbrev main_call2_v0 : Ref sig .tc := ⟨.hbm, 174, rfl⟩
abbrev main_call2_v1 : Ref sig .tc := ⟨.hbm, 175, rfl⟩
abbrev main_v117 : Ref sig .tc := ⟨.hbm, 176, rfl⟩
abbrev main_c_26 : Ref sig .tc := ⟨.hbm, 177, rfl⟩
abbrev main_v118 : Ref sig .tc := ⟨.hbm, 178, rfl⟩
abbrev main_v119 : Ref sig .tc := ⟨.hbm, 179, rfl⟩
abbrev main_c_27 : Ref sig .tc := ⟨.hbm, 180, rfl⟩
abbrev main_v120 : Ref sig .tc := ⟨.hbm, 181, rfl⟩
abbrev main_v121 : Ref sig .tc := ⟨.hbm, 182, rfl⟩
abbrev main_v122 : Ref sig .tc := ⟨.hbm, 183, rfl⟩
abbrev main_v123 : Ref sig .tc := ⟨.hbm, 184, rfl⟩
abbrev main_v124 : Ref sig .tc := ⟨.hbm, 185, rfl⟩
abbrev main_c_28 : Ref sig .tc := ⟨.hbm, 186, rfl⟩
abbrev main_v125 : Ref sig .tc := ⟨.hbm, 187, rfl⟩
abbrev main_v126 : Ref sig .tc := ⟨.hbm, 188, rfl⟩
abbrev main_c_29 : Ref sig .tc := ⟨.hbm, 189, rfl⟩
abbrev main_v127 : Ref sig .tc := ⟨.hbm, 190, rfl⟩
abbrev main_v128 : Ref sig .tc := ⟨.hbm, 191, rfl⟩
abbrev main_v129 : Ref sig .tc := ⟨.hbm, 192, rfl⟩
abbrev main_v130 : Ref sig .tc := ⟨.hbm, 193, rfl⟩
abbrev main_v131 : Ref sig .tc := ⟨.hbm, 194, rfl⟩
abbrev main_v132 : Ref sig .tc := ⟨.hbm, 195, rfl⟩
abbrev main_c_30 : Ref sig .tc := ⟨.hbm, 196, rfl⟩
abbrev main_v133 : Ref sig .tc := ⟨.hbm, 197, rfl⟩
abbrev main_v134 : Ref sig .tc := ⟨.hbm, 198, rfl⟩
abbrev main_c_31 : Ref sig .tc := ⟨.hbm, 199, rfl⟩
abbrev main_v135 : Ref sig .tc := ⟨.hbm, 200, rfl⟩
abbrev main_v136 : Ref sig .tc := ⟨.hbm, 201, rfl⟩
abbrev main_v137 : Ref sig .tc := ⟨.hbm, 202, rfl⟩
abbrev main_v138 : Ref sig .tc := ⟨.hbm, 203, rfl⟩
abbrev main_v139 : Ref sig .tc := ⟨.hbm, 204, rfl⟩
abbrev main_v140 : Ref sig .tc := ⟨.hbm, 205, rfl⟩
abbrev main_v141 : Ref sig .tc := ⟨.hbm, 206, rfl⟩
abbrev main_v142 : Ref sig .tc := ⟨.hbm, 207, rfl⟩
abbrev main_cst_32 : Ref sig .tc := ⟨.hbm, 208, rfl⟩
abbrev main_v143 : Ref sig .tc := ⟨.hbm, 209, rfl⟩
abbrev main_v144 : Ref sig .tc := ⟨.hbm, 210, rfl⟩
abbrev main_v145 : Ref sig .tc := ⟨.hbm, 211, rfl⟩
abbrev main_cst_33 : Ref sig .tc := ⟨.hbm, 212, rfl⟩
abbrev main_v146 : Ref sig .tc := ⟨.hbm, 213, rfl⟩
abbrev main_v147 : Ref sig .tc := ⟨.hbm, 214, rfl⟩
abbrev main_v148 : Ref sig .tc := ⟨.hbm, 215, rfl⟩
abbrev main_v149 : Ref sig .tc := ⟨.hbm, 216, rfl⟩
abbrev main_v150 : Ref sig .tc := ⟨.hbm, 217, rfl⟩
abbrev main_v151 : Ref sig .tc := ⟨.hbm, 218, rfl⟩
abbrev main_v152 : Ref sig .tc := ⟨.hbm, 219, rfl⟩
abbrev main_v153 : Ref sig .tc := ⟨.hbm, 220, rfl⟩
abbrev main_v154 : Ref sig .tc := ⟨.hbm, 221, rfl⟩
abbrev main_v155 : Ref sig .tc := ⟨.hbm, 222, rfl⟩
abbrev main_v156 : Ref sig .tc := ⟨.hbm, 223, rfl⟩
abbrev main_cst_34 : Ref sig .tc := ⟨.hbm, 224, rfl⟩
abbrev main_v157 : Ref sig .tc := ⟨.hbm, 225, rfl⟩
abbrev main_cst_35 : Ref sig .tc := ⟨.hbm, 226, rfl⟩
abbrev main_v158 : Ref sig .tc := ⟨.hbm, 227, rfl⟩
abbrev main_v159 : Ref sig .tc := ⟨.hbm, 228, rfl⟩
abbrev main_v160 : Ref sig .tc := ⟨.hbm, 229, rfl⟩
abbrev main_cst_36 : Ref sig .tc := ⟨.hbm, 230, rfl⟩
abbrev main_v161 : Ref sig .tc := ⟨.hbm, 231, rfl⟩
abbrev main_v162 : Ref sig .tc := ⟨.hbm, 232, rfl⟩
abbrev main_v163 : Ref sig .tc := ⟨.hbm, 233, rfl⟩
abbrev main_cst_37 : Ref sig .tc := ⟨.hbm, 234, rfl⟩
abbrev main_v164 : Ref sig .tc := ⟨.hbm, 235, rfl⟩
abbrev main_v165 : Ref sig .tc := ⟨.hbm, 236, rfl⟩
abbrev main_v166 : Ref sig .tc := ⟨.hbm, 237, rfl⟩
abbrev main_v167 : Ref sig .tc := ⟨.hbm, 238, rfl⟩
abbrev main_v168 : Ref sig .tc := ⟨.hbm, 239, rfl⟩
abbrev main_v169 : Ref sig .tc := ⟨.hbm, 240, rfl⟩
abbrev main_v170 : Ref sig .tc := ⟨.hbm, 241, rfl⟩
abbrev main_v171 : Ref sig .tc := ⟨.hbm, 242, rfl⟩
abbrev main_v172 : Ref sig .tc := ⟨.hbm, 243, rfl⟩
abbrev main_cst_38 : Ref sig .tc := ⟨.hbm, 244, rfl⟩
abbrev main_v173 : Ref sig .tc := ⟨.hbm, 245, rfl⟩
abbrev main_v174 : Ref sig .tc := ⟨.hbm, 246, rfl⟩
abbrev main_cst_39 : Ref sig .tc := ⟨.hbm, 247, rfl⟩
abbrev main_v175 : Ref sig .tc := ⟨.hbm, 248, rfl⟩
abbrev main_v176 : Ref sig .tc := ⟨.hbm, 249, rfl⟩
abbrev main_v177 : Ref sig .tc := ⟨.hbm, 250, rfl⟩
abbrev main_v178 : Ref sig .tc := ⟨.hbm, 251, rfl⟩
abbrev main_v179 : Ref sig .tc := ⟨.hbm, 252, rfl⟩
abbrev main_v180 : Ref sig .tc := ⟨.hbm, 253, rfl⟩
abbrev main_v181 : Ref sig .tc := ⟨.hbm, 254, rfl⟩
abbrev main_call4_v0 : Ref sig .tc := ⟨.hbm, 255, rfl⟩
abbrev main_call4_cst : Ref sig .tc := ⟨.hbm, 256, rfl⟩
abbrev main_call4_v1 : Ref sig .tc := ⟨.hbm, 257, rfl⟩
abbrev main_call4_v2 : Ref sig .tc := ⟨.hbm, 258, rfl⟩
abbrev main_v182 : Ref sig .tc := ⟨.hbm, 259, rfl⟩
abbrev main_cst_40 : Ref sig .tc := ⟨.hbm, 260, rfl⟩
abbrev main_v183 : Ref sig .tc := ⟨.hbm, 261, rfl⟩
abbrev main_v184 : Ref sig .tc := ⟨.hbm, 262, rfl⟩
abbrev main_v185 : Ref sig .tc := ⟨.hbm, 263, rfl⟩
abbrev main_v186 : Ref sig .tc := ⟨.hbm, 264, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg3_1 : Ref sig .tc := ⟨.vmem, 21, rfl⟩
abbrev cc3_stg4_0 : Ref sig .tc := ⟨.vmem, 22, rfl⟩
abbrev cc3_stg4_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg2_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg2_0 : Ref sig .tc := ⟨.vmem, 32, rfl⟩
abbrev cc5_stg3_0 : Ref sig .tc := ⟨.vmem, 33, rfl⟩
abbrev cc5_stg3_1 : Ref sig .tc := ⟨.vmem, 34, rfl⟩
abbrev cc5_stg4_0 : Ref sig .tc := ⟨.vmem, 35, rfl⟩
abbrev cc5_stg4_1 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem3_0 : DmaSem sig := 20
abbrev cc3_sem3_1 : DmaSem sig := 21
abbrev cc3_sem4_0 : DmaSem sig := 22
abbrev cc3_sem4_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem2_1 : DmaSem sig := 28
abbrev cc5_sem0_0 : DmaSem sig := 29
abbrev cc5_sem0_1 : DmaSem sig := 30
abbrev cc5_sem1_0 : DmaSem sig := 31
abbrev cc5_sem2_0 : DmaSem sig := 32
abbrev cc5_sem3_0 : DmaSem sig := 33
abbrev cc5_sem3_1 : DmaSem sig := 34
abbrev cc5_sem4_0 : DmaSem sig := 35
abbrev cc5_sem4_1 : DmaSem sig := 36

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S5000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S_S128 : S_.BroadcastsInDim S128 (![] : Fin 0 → Fin S128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S10000x128_S10000x128 : S10000x128.ShapeCasts S10000x128
  bcast_S_S64 : S_.BroadcastsInDim S64 (![] : Fin 0 → Fin S64.rank)
  bcast_S100000_S100000x1_0 : S100000.BroadcastsInDim S100000x1 (![0] : Fin 1 → Fin S100000x1.rank)
  bcast_S_S64x128 : S_.BroadcastsInDim S64x128 (![] : Fin 0 → Fin S64x128.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S128_S1x128_1 : S128.BroadcastsInDim S1x128 (![1] : Fin 1 → Fin S1x128.rank)
  bcast_S1x128_S64x128_0_1 : S1x128.BroadcastsInDim S64x128 (![0, 1] : Fin 2 → Fin S64x128.rank)
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  reducesTo_S64x64_S64_d1 : S64x64.ReducesTo [1] S64
  h_S_ : 0 < S_.numel
  bcast_S_S64x1 : S_.BroadcastsInDim S64x1 (![] : Fin 0 → Fin S64x1.rank)
  bcast_S64x1_S64x64_0_1 : S64x1.BroadcastsInDim S64x64 (![0, 1] : Fin 2 → Fin S64x64.rank)
  dot_S10000x128_S128x128_S10000x128_1_0_0_1_n_n_wf : DotDims.WF S10000x128 S128x128 S10000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S64_S100000x1_S100000_n_0_0_1_wf : ScatterDims.WF S64 S100000x1 S100000 [] [0] [0] 1
  scatter_S64x128_S100000x1_S100000x128_1_0_0_1_wf : ScatterDims.WF S64x128 S100000x1 S100000x128 [1] [0] [0] 1
  dot_S64x128_S128x128_S64x128_1_0_0_1_n_n_wf : DotDims.WF S64x128 S128x128 S64x128 [1] [0] [0] [1] [] []
  dot_S64x128_S128x64_S64x64_1_0_0_1_n_n_wf : DotDims.WF S64x128 S128x64 S64x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .f32 = 32 ∨ (Rect.block (s := S100000x128) S5000x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S100000x128.size a
  hwx3_4 : ∀ i : grid3.Coords, EltTy.bits .f32 = 32 ∨ (Rect.block (s := S100000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S100000x128.size a
  hwx4_0 : ∀ i : grid4.Coords, EltTy.bits .f32 = 32 ∨ (Rect.block (s := S100000x128) S10000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x128.size a ≤ S100000x128.size a
  hwx4_2 : ∀ i : grid4.Coords, EltTy.bits .f32 = 32 ∨ (Rect.block (s := S100000x128) S10000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S100000x128.size a
  hwx5_3 : ∀ i : grid5.Coords, EltTy.bits .f32 = 32 ∨ (Rect.block (s := S100000x128) S5000x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x128.size a ≤ S100000x128.size a
  hwx5_4 : ∀ i : grid5.Coords, EltTy.bits .f32 = 32 ∨ (Rect.block (s := S100000x128) S5000x128.size (cc5_transform_4 i) (hinb5_4 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v52) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v53) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v54) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v54) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v55) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v94) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v103) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v104) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v54) S5000x128.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v105) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v105) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v106) S10000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v145) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v154) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v155) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v105) S5000x128.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v156) S5000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x1 : Shape := ⟨2, ![100000, 1]⟩
abbrev S64x128 : Shape := ⟨2, ![64, 128]⟩
abbrev S64x1 : Shape := ⟨2, ![64, 1]⟩
abbrev S64x64 : Shape := ⟨2, ![64, 64]⟩
abbrev S1x64 : Shape := ⟨2, ![1, 64]⟩

abbrev nBuf : Space → Nat
  | .hbm => 309
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128, .f32⟩
  | 10 => ⟨S128, .f32⟩
  | 11 => ⟨S128, .f32⟩
  | 12 => ⟨S128, .f32⟩
  | 13 => ⟨S128, .f32⟩
  | 14 => ⟨S128, .f32⟩
  | 15 => ⟨S128, .f32⟩
  | 16 => ⟨S128, .f32⟩
  | 17 => ⟨S128, .f32⟩
  | 18 => ⟨S128, .f32⟩
  | 19 => ⟨S128, .f32⟩
  | 20 => ⟨S128, .f32⟩
  | 21 => ⟨S128x128, .f32⟩
  | 22 => ⟨S128, .f32⟩
  | 23 => ⟨S128x64, .f32⟩
  | 24 => ⟨S64, .f32⟩
  | 25 => ⟨S1x1600000, .i32⟩
  | 26 => ⟨S1600000, .i32⟩
  | 27 => ⟨S1x1600000, .i32⟩
  | 28 => ⟨S1600000, .i32⟩
  | 29 => ⟨S100000x128, .f32⟩
  | 30 => ⟨S100000, .i32⟩
  | 31 => ⟨S1700000, .i32⟩
  | 32 => ⟨S1700000, .i32⟩
  | 33 => ⟨S_, .f32⟩
  | 34 => ⟨S1700000, .f32⟩
  | 35 => ⟨S_, .f32⟩
  | 36 => ⟨S100000, .f32⟩
  | 37 => ⟨S1700000x1, .i32⟩
  | 38 => ⟨S100000, .f32⟩
  | 39 => ⟨S_, .f32⟩
  | 40 => ⟨S100000, .f32⟩
  | 41 => ⟨S100000, .i1⟩
  | 42 => ⟨S100000, .f32⟩
  | 43 => ⟨S_, .f32⟩
  | 44 => ⟨S_, .f32⟩
  | 45 => ⟨S100000, .f32⟩
  | 46 => ⟨S100000, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000, .f32⟩
  | 56 => ⟨S_, .i32⟩
  | 57 => ⟨S1700000, .i32⟩
  | 58 => ⟨S1700000, .i1⟩
  | 59 => ⟨S_, .i32⟩
  | 60 => ⟨S1700000, .i32⟩
  | 61 => ⟨S1700000, .i32⟩
  | 62 => ⟨S1700000, .i32⟩
  | 63 => ⟨S1700000x1, .i32⟩
  | 64 => ⟨S1700000, .f32⟩
  | 65 => ⟨S1700000, .f32⟩
  | 66 => ⟨S_, .i32⟩
  | 67 => ⟨S1700000, .i32⟩
  | 68 => ⟨S1700000, .i1⟩
  | 69 => ⟨S_, .i32⟩
  | 70 => ⟨S1700000, .i32⟩
  | 71 => ⟨S1700000, .i32⟩
  | 72 => ⟨S1700000, .i32⟩
  | 73 => ⟨S1700000x1, .i32⟩
  | 74 => ⟨S1700000x128, .f32⟩
  | 75 => ⟨S1700000x1, .f32⟩
  | 76 => ⟨S1700000x128, .f32⟩
  | 77 => ⟨S1700000x128, .f32⟩
  | 78 => ⟨S_, .f32⟩
  | 79 => ⟨S100000x128, .f32⟩
  | 80 => ⟨S1700000x1, .i32⟩
  | 81 => ⟨S100000x128, .f32⟩
  | 82 => ⟨S1x128, .f32⟩
  | 83 => ⟨S100000x128, .f32⟩
  | 84 => ⟨S100000x128, .f32⟩
  | 85 => ⟨S1x128, .f32⟩
  | 86 => ⟨S100000x128, .f32⟩
  | 87 => ⟨S100000x128, .f32⟩
  | 88 => ⟨S_, .f32⟩
  | 89 => ⟨S128, .f32⟩
  | 90 => ⟨S128, .f32⟩
  | 91 => ⟨S128, .f32⟩
  | 92 => ⟨S1x128, .f32⟩
  | 93 => ⟨S100000x128, .f32⟩
  | 94 => ⟨S100000x128, .f32⟩
  | 95 => ⟨S1x128, .f32⟩
  | 96 => ⟨S100000x128, .f32⟩
  | 97 => ⟨S100000x128, .f32⟩
  | 98 => ⟨S1x128, .f32⟩
  | 99 => ⟨S100000x128, .f32⟩
  | 100 => ⟨S100000x128, .f32⟩
  | 101 => ⟨S_, .f32⟩
  | 102 => ⟨S100000x128, .f32⟩
  | 103 => ⟨S100000x128, .i1⟩
  | 104 => ⟨S_, .f32⟩
  | 105 => ⟨S100000x128, .f32⟩
  | 106 => ⟨S100000x128, .f32⟩
  | 107 => ⟨S100000x128, .f32⟩
  | 108 => ⟨S100000x128, .f32⟩
  | 109 => ⟨S100000, .i32⟩
  | 110 => ⟨S1700000, .i32⟩
  | 111 => ⟨S1700000, .i32⟩
  | 112 => ⟨S_, .f32⟩
  | 113 => ⟨S1700000, .f32⟩
  | 114 => ⟨S_, .f32⟩
  | 115 => ⟨S100000, .f32⟩
  | 116 => ⟨S1700000x1, .i32⟩
  | 117 => ⟨S100000, .f32⟩
  | 118 => ⟨S_, .f32⟩
  | 119 => ⟨S100000, .f32⟩
  | 120 => ⟨S100000, .i1⟩
  | 121 => ⟨S100000, .f32⟩
  | 122 => ⟨S_, .f32⟩
  | 123 => ⟨S_, .f32⟩
  | 124 => ⟨S100000, .f32⟩
  | 125 => ⟨S100000, .f32⟩
  | 126 => ⟨S_, .i32⟩
  | 127 => ⟨S1700000, .i32⟩
  | _ => ⟨S100000x128, .f32⟩

abbrev hbmTy0_1 (i : Nat) : BufTy := match i % 128 with
  | 0 => ⟨S1700000, .i1⟩
  | 1 => ⟨S_, .i32⟩
  | 2 => ⟨S1700000, .i32⟩
  | 3 => ⟨S1700000, .i32⟩
  | 4 => ⟨S1700000, .i32⟩
  | 5 => ⟨S1700000x1, .i32⟩
  | 6 => ⟨S1700000, .f32⟩
  | 7 => ⟨S_, .i32⟩
  | 8 => ⟨S1700000, .i32⟩
  | 9 => ⟨S1700000, .i1⟩
  | 10 => ⟨S_, .i32⟩
  | 11 => ⟨S1700000, .i32⟩
  | 12 => ⟨S1700000, .i32⟩
  | 13 => ⟨S1700000, .i32⟩
  | 14 => ⟨S1700000x1, .i32⟩
  | 15 => ⟨S1700000, .f32⟩
  | 16 => ⟨S1700000, .f32⟩
  | 17 => ⟨S_, .i32⟩
  | 18 => ⟨S1700000, .i32⟩
  | 19 => ⟨S1700000, .i1⟩
  | 20 => ⟨S_, .i32⟩
  | 21 => ⟨S1700000, .i32⟩
  | 22 => ⟨S1700000, .i32⟩
  | 23 => ⟨S1700000, .i32⟩
  | 24 => ⟨S1700000x1, .i32⟩
  | 25 => ⟨S1700000x128, .f32⟩
  | 26 => ⟨S1700000x1, .f32⟩
  | 27 => ⟨S1700000x128, .f32⟩
  | 28 => ⟨S1700000x128, .f32⟩
  | 29 => ⟨S_, .f32⟩
  | 30 => ⟨S100000x128, .f32⟩
  | 31 => ⟨S1700000x1, .i32⟩
  | 32 => ⟨S100000x128, .f32⟩
  | 33 => ⟨S1x128, .f32⟩
  | 34 => ⟨S100000x128, .f32⟩
  | 35 => ⟨S100000x128, .f32⟩
  | 36 => ⟨S1x128, .f32⟩
  | 37 => ⟨S100000x128, .f32⟩
  | 38 => ⟨S100000x128, .f32⟩
  | 39 => ⟨S_, .f32⟩
  | 40 => ⟨S128, .f32⟩
  | 41 => ⟨S128, .f32⟩
  | 42 => ⟨S128, .f32⟩
  | 43 => ⟨S1x128, .f32⟩
  | 44 => ⟨S100000x128, .f32⟩
  | 45 => ⟨S100000x128, .f32⟩
  | 46 => ⟨S1x128, .f32⟩
  | 47 => ⟨S100000x128, .f32⟩
  | 48 => ⟨S100000x128, .f32⟩
  | 49 => ⟨S1x128, .f32⟩
  | 50 => ⟨S100000x128, .f32⟩
  | 51 => ⟨S100000x128, .f32⟩
  | 52 => ⟨S_, .f32⟩
  | 53 => ⟨S100000x128, .f32⟩
  | 54 => ⟨S100000x128, .i1⟩
  | 55 => ⟨S_, .f32⟩
  | 56 => ⟨S100000x128, .f32⟩
  | 57 => ⟨S100000x128, .f32⟩
  | 58 => ⟨S100000x128, .f32⟩
  | 59 => ⟨S100000x128, .f32⟩
  | 60 => ⟨S100000x128, .f32⟩
  | 61 => ⟨S100000, .i32⟩
  | 62 => ⟨S1700000, .i32⟩
  | 63 => ⟨S1700000, .i32⟩
  | 64 => ⟨S_, .f32⟩
  | 65 => ⟨S1700000, .f32⟩
  | 66 => ⟨S_, .f32⟩
  | 67 => ⟨S100000, .f32⟩
  | 68 => ⟨S1700000x1, .i32⟩
  | 69 => ⟨S100000, .f32⟩
  | 70 => ⟨S_, .f32⟩
  | 71 => ⟨S100000, .f32⟩
  | 72 => ⟨S100000, .i1⟩
  | 73 => ⟨S100000, .f32⟩
  | 74 => ⟨S_, .f32⟩
  | 75 => ⟨S_, .f32⟩
  | 76 => ⟨S100000, .f32⟩
  | 77 => ⟨S100000, .f32⟩
  | 78 => ⟨S_, .i32⟩
  | 79 => ⟨S1700000, .i32⟩
  | 80 => ⟨S1700000, .i1⟩
  | 81 => ⟨S_, .i32⟩
  | 82 => ⟨S1700000, .i32⟩
  | 83 => ⟨S1700000, .i32⟩
  | 84 => ⟨S1700000, .i32⟩
  | 85 => ⟨S1700000x1, .i32⟩
  | 86 => ⟨S1700000, .f32⟩
  | 87 => ⟨S_, .i32⟩
  | 88 => ⟨S1700000, .i32⟩
  | 89 => ⟨S1700000, .i1⟩
  | 90 => ⟨S_, .i32⟩
  | 91 => ⟨S1700000, .i32⟩
  | 92 => ⟨S1700000, .i32⟩
  | 93 => ⟨S1700000, .i32⟩
  | 94 => ⟨S1700000x1, .i32⟩
  | 95 => ⟨S1700000, .f32⟩
  | 96 => ⟨S1700000, .f32⟩
  | 97 => ⟨S_, .i32⟩
  | 98 => ⟨S1700000, .i32⟩
  | 99 => ⟨S1700000, .i1⟩
  | 100 => ⟨S_, .i32⟩
  | 101 => ⟨S1700000, .i32⟩
  | 102 => ⟨S1700000, .i32⟩
  | 103 => ⟨S1700000, .i32⟩
  | 104 => ⟨S1700000x1, .i32⟩
  | 105 => ⟨S1700000x128, .f32⟩
  | 106 => ⟨S1700000x1, .f32⟩
  | 107 => ⟨S1700000x128, .f32⟩
  | 108 => ⟨S1700000x128, .f32⟩
  | 109 => ⟨S_, .f32⟩
  | 110 => ⟨S100000x128, .f32⟩
  | 111 => ⟨S1700000x1, .i32⟩
  | 112 => ⟨S100000x128, .f32⟩
  | 113 => ⟨S1x128, .f32⟩
  | 114 => ⟨S100000x128, .f32⟩
  | 115 => ⟨S100000x128, .f32⟩
  | 116 => ⟨S1x128, .f32⟩
  | 117 => ⟨S100000x128, .f32⟩
  | 118 => ⟨S100000x128, .f32⟩
  | 119 => ⟨S_, .f32⟩
  | 120 => ⟨S128, .f32⟩
  | 121 => ⟨S128, .f32⟩
  | 122 => ⟨S128, .f32⟩
  | 123 => ⟨S1x128, .f32⟩
  | 124 => ⟨S100000x128, .f32⟩
  | 125 => ⟨S100000x128, .f32⟩
  | 126 => ⟨S1x128, .f32⟩
  | 127 => ⟨S100000x128, .f32⟩
  | _ => ⟨S100000x128, .f32⟩

abbrev hbmTy0_2 (i : Nat) : BufTy := match i % 128 with
  | 0 => ⟨S100000x128, .f32⟩
  | 1 => ⟨S1x128, .f32⟩
  | 2 => ⟨S100000x128, .f32⟩
  | 3 => ⟨S100000x128, .f32⟩
  | 4 => ⟨S_, .f32⟩
  | 5 => ⟨S100000x128, .f32⟩
  | 6 => ⟨S100000x128, .i1⟩
  | 7 => ⟨S_, .f32⟩
  | 8 => ⟨S100000x128, .f32⟩
  | 9 => ⟨S100000x128, .f32⟩
  | 10 => ⟨S100000x128, .f32⟩
  | 11 => ⟨S100000x128, .f32⟩
  | 12 => ⟨S_, .f32⟩
  | 13 => ⟨S100000, .f32⟩
  | 14 => ⟨S_, .f32⟩
  | 15 => ⟨S64, .f32⟩
  | 16 => ⟨S100000x1, .i32⟩
  | 17 => ⟨S64, .f32⟩
  | 18 => ⟨S_, .f32⟩
  | 19 => ⟨S64x128, .f32⟩
  | 20 => ⟨S100000x1, .i32⟩
  | 21 => ⟨S64x128, .f32⟩
  | 22 => ⟨S_, .f32⟩
  | 23 => ⟨S64, .f32⟩
  | 24 => ⟨S64, .f32⟩
  | 25 => ⟨S64x1, .f32⟩
  | 26 => ⟨S64x128, .f32⟩
  | 27 => ⟨S64x128, .f32⟩
  | 28 => ⟨S64x128, .f32⟩
  | 29 => ⟨S1x128, .f32⟩
  | 30 => ⟨S64x128, .f32⟩
  | 31 => ⟨S64x128, .f32⟩
  | 32 => ⟨S_, .f32⟩
  | 33 => ⟨S64x128, .f32⟩
  | 34 => ⟨S64x128, .i1⟩
  | 35 => ⟨S_, .f32⟩
  | 36 => ⟨S64x128, .f32⟩
  | 37 => ⟨S64x128, .f32⟩
  | 38 => ⟨S64x128, .f32⟩
  | 39 => ⟨S64x64, .f32⟩
  | 40 => ⟨S1x64, .f32⟩
  | 41 => ⟨S64x64, .f32⟩
  | 42 => ⟨S64x64, .f32⟩
  | 43 => ⟨S64x64, .f32⟩
  | 44 => ⟨S_, .f32⟩
  | 45 => ⟨S64, .f32⟩
  | 46 => ⟨S64x1, .f32⟩
  | 47 => ⟨S64x1, .f32⟩
  | 48 => ⟨S_, .f32⟩
  | 49 => ⟨S64x1, .f32⟩
  | 50 => ⟨S64x1, .f32⟩
  | 51 => ⟨S64x64, .f32⟩
  | 52 => ⟨S64x64, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_cst : Ref sig .tc := ⟨.hbm, 33, rfl⟩
abbrev main_v8 : Ref sig .tc := ⟨.hbm, 34, rfl⟩
abbrev main_cst_0 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_cst_1 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_cst_2 : Ref sig .tc := ⟨.hbm, 43, rfl⟩
abbrev main_call0_v0 : Ref sig .tc := ⟨.hbm, 44, rfl⟩
abbrev main_call0_v1 : Ref sig .tc := ⟨.hbm, 45, rfl⟩
abbrev main_v15 : Ref sig .tc := ⟨.hbm, 46, rfl⟩
abbrev main_c : Ref sig .tc := ⟨.hbm, 47, rfl⟩
abbrev main_v16 : Ref sig .tc := ⟨.hbm, 48, rfl⟩
abbrev main_v17 : Ref sig .tc := ⟨.hbm, 49, rfl⟩
abbrev main_c_3 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_c_4 : Ref sig .tc := ⟨.hbm, 56, rfl⟩
abbrev main_v23 : Ref sig .tc := ⟨.hbm, 57, rfl⟩
abbrev main_v24 : Ref sig .tc := ⟨.hbm, 58, rfl⟩
abbrev main_c_5 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_c_6 : Ref sig .tc := ⟨.hbm, 66, rfl⟩
abbrev main_v31 : Ref sig .tc := ⟨.hbm, 67, rfl⟩
abbrev main_v32 : Ref sig .tc := ⟨.hbm, 68, rfl⟩
abbrev main_c_7 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_cst_8 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_cst_9 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_cst_10 : Ref sig .tc := ⟨.hbm, 101, rfl⟩
abbrev main_v62 : Ref sig .tc := ⟨.hbm, 102, rfl⟩
abbrev main_v63 : Ref sig .tc := ⟨.hbm, 103, rfl⟩
abbrev main_cst_11 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_cst_12 : Ref sig .tc := ⟨.hbm, 112, rfl⟩
abbrev main_v71 : Ref sig .tc := ⟨.hbm, 113, rfl⟩
abbrev main_cst_13 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_cst_14 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_cst_15 : Ref sig .tc := ⟨.hbm, 122, rfl⟩
abbrev main_call2_v0 : Ref sig .tc := ⟨.hbm, 123, rfl⟩
abbrev main_call2_v1 : Ref sig .tc := ⟨.hbm, 124, rfl⟩
abbrev main_v78 : Ref sig .tc := ⟨.hbm, 125, rfl⟩
abbrev main_c_16 : Ref sig .tc := ⟨.hbm, 126, rfl⟩
abbrev main_v79 : Ref sig .tc := ⟨.hbm, 127, rfl⟩
abbrev main_v80 : Ref sig .tc := ⟨.hbm, 128, rfl⟩
abbrev main_c_17 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_c_18 : Ref sig .tc := ⟨.hbm, 135, rfl⟩
abbrev main_v86 : Ref sig .tc := ⟨.hbm, 136, rfl⟩
abbrev main_v87 : Ref sig .tc := ⟨.hbm, 137, rfl⟩
abbrev main_c_19 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_c_20 : Ref sig .tc := ⟨.hbm, 145, rfl⟩
abbrev main_v94 : Ref sig .tc := ⟨.hbm, 146, rfl⟩
abbrev main_v95 : Ref sig .tc := ⟨.hbm, 147, rfl⟩
abbrev main_c_21 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_cst_22 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_cst_23 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_cst_24 : Ref sig .tc := ⟨.hbm, 180, rfl⟩
abbrev main_v125 : Ref sig .tc := ⟨.hbm, 181, rfl⟩
abbrev main_v126 : Ref sig .tc := ⟨.hbm, 182, rfl⟩
abbrev main_cst_25 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_cst_26 : Ref sig .tc := ⟨.hbm, 192, rfl⟩
abbrev main_v135 : Ref sig .tc := ⟨.hbm, 193, rfl⟩
abbrev main_cst_27 : Ref sig .tc := ⟨.hbm, 194, rfl⟩
abbrev main_v136 : Ref sig .tc := ⟨.hbm, 195, rfl⟩
abbrev main_v137 : Ref sig .tc := ⟨.hbm, 196, rfl⟩
abbrev main_v138 : Ref sig .tc := ⟨.hbm, 197, rfl⟩
abbrev main_cst_28 : Ref sig .tc := ⟨.hbm, 198, rfl⟩
abbrev main_v139 : Ref sig .tc := ⟨.hbm, 199, rfl⟩
abbrev main_v140 : Ref sig .tc := ⟨.hbm, 200, rfl⟩
abbrev main_v141 : Ref sig .tc := ⟨.hbm, 201, rfl⟩
abbrev main_cst_29 : Ref sig .tc := ⟨.hbm, 202, rfl⟩
abbrev main_call4_v0 : Ref sig .tc := ⟨.hbm, 203, rfl⟩
abbrev main_call4_v1 : Ref sig .tc := ⟨.hbm, 204, rfl⟩
abbrev main_v142 : Ref sig .tc := ⟨.hbm, 205, rfl⟩
abbrev main_c_30 : Ref sig .tc := ⟨.hbm, 206, rfl⟩
abbrev main_v143 : Ref sig .tc := ⟨.hbm, 207, rfl⟩
abbrev main_v144 : Ref sig .tc := ⟨.hbm, 208, rfl⟩
abbrev main_c_31 : Ref sig .tc := ⟨.hbm, 209, rfl⟩
abbrev main_v145 : Ref sig .tc := ⟨.hbm, 210, rfl⟩
abbrev main_v146 : Ref sig .tc := ⟨.hbm, 211, rfl⟩
abbrev main_v147 : Ref sig .tc := ⟨.hbm, 212, rfl⟩
abbrev main_v148 : Ref sig .tc := ⟨.hbm, 213, rfl⟩
abbrev main_v149 : Ref sig .tc := ⟨.hbm, 214, rfl⟩
abbrev main_c_32 : Ref sig .tc := ⟨.hbm, 215, rfl⟩
abbrev main_v150 : Ref sig .tc := ⟨.hbm, 216, rfl⟩
abbrev main_v151 : Ref sig .tc := ⟨.hbm, 217, rfl⟩
abbrev main_c_33 : Ref sig .tc := ⟨.hbm, 218, rfl⟩
abbrev main_v152 : Ref sig .tc := ⟨.hbm, 219, rfl⟩
abbrev main_v153 : Ref sig .tc := ⟨.hbm, 220, rfl⟩
abbrev main_v154 : Ref sig .tc := ⟨.hbm, 221, rfl⟩
abbrev main_v155 : Ref sig .tc := ⟨.hbm, 222, rfl⟩
abbrev main_v156 : Ref sig .tc := ⟨.hbm, 223, rfl⟩
abbrev main_v157 : Ref sig .tc := ⟨.hbm, 224, rfl⟩
abbrev main_c_34 : Ref sig .tc := ⟨.hbm, 225, rfl⟩
abbrev main_v158 : Ref sig .tc := ⟨.hbm, 226, rfl⟩
abbrev main_v159 : Ref sig .tc := ⟨.hbm, 227, rfl⟩
abbrev main_c_35 : Ref sig .tc := ⟨.hbm, 228, rfl⟩
abbrev main_v160 : Ref sig .tc := ⟨.hbm, 229, rfl⟩
abbrev main_v161 : Ref sig .tc := ⟨.hbm, 230, rfl⟩
abbrev main_v162 : Ref sig .tc := ⟨.hbm, 231, rfl⟩
abbrev main_v163 : Ref sig .tc := ⟨.hbm, 232, rfl⟩
abbrev main_v164 : Ref sig .tc := ⟨.hbm, 233, rfl⟩
abbrev main_v165 : Ref sig .tc := ⟨.hbm, 234, rfl⟩
abbrev main_v166 : Ref sig .tc := ⟨.hbm, 235, rfl⟩
abbrev main_v167 : Ref sig .tc := ⟨.hbm, 236, rfl⟩
abbrev main_cst_36 : Ref sig .tc := ⟨.hbm, 237, rfl⟩
abbrev main_v168 : Ref sig .tc := ⟨.hbm, 238, rfl⟩
abbrev main_v169 : Ref sig .tc := ⟨.hbm, 239, rfl⟩
abbrev main_v170 : Ref sig .tc := ⟨.hbm, 240, rfl⟩
abbrev main_v171 : Ref sig .tc := ⟨.hbm, 241, rfl⟩
abbrev main_v172 : Ref sig .tc := ⟨.hbm, 242, rfl⟩
abbrev main_v173 : Ref sig .tc := ⟨.hbm, 243, rfl⟩
abbrev main_v174 : Ref sig .tc := ⟨.hbm, 244, rfl⟩
abbrev main_v175 : Ref sig .tc := ⟨.hbm, 245, rfl⟩
abbrev main_v176 : Ref sig .tc := ⟨.hbm, 246, rfl⟩
abbrev main_cst_37 : Ref sig .tc := ⟨.hbm, 247, rfl⟩
abbrev main_v177 : Ref sig .tc := ⟨.hbm, 248, rfl⟩
abbrev main_v178 : Ref sig .tc := ⟨.hbm, 249, rfl⟩
abbrev main_v179 : Ref sig .tc := ⟨.hbm, 250, rfl⟩
abbrev main_v180 : Ref sig .tc := ⟨.hbm, 251, rfl⟩
abbrev main_v181 : Ref sig .tc := ⟨.hbm, 252, rfl⟩
abbrev main_v182 : Ref sig .tc := ⟨.hbm, 253, rfl⟩
abbrev main_v183 : Ref sig .tc := ⟨.hbm, 254, rfl⟩
abbrev main_v184 : Ref sig .tc := ⟨.hbm, 255, rfl⟩
abbrev main_v185 : Ref sig .tc := ⟨.hbm, 256, rfl⟩
abbrev main_v186 : Ref sig .tc := ⟨.hbm, 257, rfl⟩
abbrev main_v187 : Ref sig .tc := ⟨.hbm, 258, rfl⟩
abbrev main_v188 : Ref sig .tc := ⟨.hbm, 259, rfl⟩
abbrev main_cst_38 : Ref sig .tc := ⟨.hbm, 260, rfl⟩
abbrev main_v189 : Ref sig .tc := ⟨.hbm, 261, rfl⟩
abbrev main_v190 : Ref sig .tc := ⟨.hbm, 262, rfl⟩
abbrev main_cst_39 : Ref sig .tc := ⟨.hbm, 263, rfl⟩
abbrev main_v191 : Ref sig .tc := ⟨.hbm, 264, rfl⟩
abbrev main_v192 : Ref sig .tc := ⟨.hbm, 265, rfl⟩
abbrev main_v193 : Ref sig .tc := ⟨.hbm, 266, rfl⟩
abbrev main_v194 : Ref sig .tc := ⟨.hbm, 267, rfl⟩
abbrev main_cst_40 : Ref sig .tc := ⟨.hbm, 268, rfl⟩
abbrev main_v195 : Ref sig .tc := ⟨.hbm, 269, rfl⟩
abbrev main_cst_41 : Ref sig .tc := ⟨.hbm, 270, rfl⟩
abbrev main_v196 : Ref sig .tc := ⟨.hbm, 271, rfl⟩
abbrev main_v197 : Ref sig .tc := ⟨.hbm, 272, rfl⟩
abbrev main_v198 : Ref sig .tc := ⟨.hbm, 273, rfl⟩
abbrev main_cst_42 : Ref sig .tc := ⟨.hbm, 274, rfl⟩
abbrev main_v199 : Ref sig .tc := ⟨.hbm, 275, rfl⟩
abbrev main_v200 : Ref sig .tc := ⟨.hbm, 276, rfl⟩
abbrev main_v201 : Ref sig .tc := ⟨.hbm, 277, rfl⟩
abbrev main_cst_43 : Ref sig .tc := ⟨.hbm, 278, rfl⟩
abbrev main_v202 : Ref sig .tc := ⟨.hbm, 279, rfl⟩
abbrev main_v203 : Ref sig .tc := ⟨.hbm, 280, rfl⟩
abbrev main_v204 : Ref sig .tc := ⟨.hbm, 281, rfl⟩
abbrev main_v205 : Ref sig .tc := ⟨.hbm, 282, rfl⟩
abbrev main_v206 : Ref sig .tc := ⟨.hbm, 283, rfl⟩
abbrev main_v207 : Ref sig .tc := ⟨.hbm, 284, rfl⟩
abbrev main_v208 : Ref sig .tc := ⟨.hbm, 285, rfl⟩
abbrev main_v209 : Ref sig .tc := ⟨.hbm, 286, rfl⟩
abbrev main_v210 : Ref sig .tc := ⟨.hbm, 287, rfl⟩
abbrev main_cst_44 : Ref sig .tc := ⟨.hbm, 288, rfl⟩
abbrev main_v211 : Ref sig .tc := ⟨.hbm, 289, rfl⟩
abbrev main_v212 : Ref sig .tc := ⟨.hbm, 290, rfl⟩
abbrev main_cst_45 : Ref sig .tc := ⟨.hbm, 291, rfl⟩
abbrev main_v213 : Ref sig .tc := ⟨.hbm, 292, rfl⟩
abbrev main_v214 : Ref sig .tc := ⟨.hbm, 293, rfl⟩
abbrev main_v215 : Ref sig .tc := ⟨.hbm, 294, rfl⟩
abbrev main_v216 : Ref sig .tc := ⟨.hbm, 295, rfl⟩
abbrev main_v217 : Ref sig .tc := ⟨.hbm, 296, rfl⟩
abbrev main_v218 : Ref sig .tc := ⟨.hbm, 297, rfl⟩
abbrev main_v219 : Ref sig .tc := ⟨.hbm, 298, rfl⟩
abbrev main_call7_v0 : Ref sig .tc := ⟨.hbm, 299, rfl⟩
abbrev main_call7_cst : Ref sig .tc := ⟨.hbm, 300, rfl⟩
abbrev main_call7_v1 : Ref sig .tc := ⟨.hbm, 301, rfl⟩
abbrev main_call7_v2 : Ref sig .tc := ⟨.hbm, 302, rfl⟩
abbrev main_v220 : Ref sig .tc := ⟨.hbm, 303, rfl⟩
abbrev main_cst_46 : Ref sig .tc := ⟨.hbm, 304, rfl⟩
abbrev main_v221 : Ref sig .tc := ⟨.hbm, 305, rfl⟩
abbrev main_v222 : Ref sig .tc := ⟨.hbm, 306, rfl⟩
abbrev main_v223 : Ref sig .tc := ⟨.hbm, 307, rfl⟩
abbrev main_v224 : Ref sig .tc := ⟨.hbm, 308, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  bcast_S_S64 : S_.BroadcastsInDim S64 (![] : Fin 0 → Fin S64.rank)
  bcast_S100000_S100000x1_0 : S100000.BroadcastsInDim S100000x1 (![0] : Fin 1 → Fin S100000x1.rank)
  bcast_S_S64x128 : S_.BroadcastsInDim S64x128 (![] : Fin 0 → Fin S64x128.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S1x128_S64x128_0_1 : S1x128.BroadcastsInDim S64x128 (![0, 1] : Fin 2 → Fin S64x128.rank)
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  reducesTo_S64x64_S64_d1 : S64x64.ReducesTo [1] S64
  h_S_ : 0 < S_.numel
  bcast_S_S64x1 : S_.BroadcastsInDim S64x1 (![] : Fin 0 → Fin S64x1.rank)
  bcast_S64x1_S64x64_0_1 : S64x1.BroadcastsInDim S64x64 (![0, 1] : Fin 2 → Fin S64x64.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S64_S100000x1_S100000_n_0_0_1_wf : ScatterDims.WF S64 S100000x1 S100000 [] [0] [0] 1
  scatter_S64x128_S100000x1_S100000x128_1_0_0_1_wf : ScatterDims.WF S64x128 S100000x1 S100000x128 [1] [0] [0] 1
  dot_S64x128_S128x128_S64x128_1_0_0_1_n_n_wf : DotDims.WF S64x128 S128x128 S64x128 [1] [0] [0] [1] [] []
  dot_S64x128_S128x64_S64x64_1_0_0_1_n_n_wf : DotDims.WF S64x128 S128x64 S64x64 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf

class Facts : Prop extends Facts₀ where

variable [Facts]
-- ==== Proof.RefFold.lean ====
/-
  The reference program's run, read through the fold of its operations.

  The reference's main function is a straight line of 284 operations. Its run ends with every buffer at the fold of the
  operations' results over the launch contents. The result buffer of that fold is the composed value of the stage
  functions (one per operation, each a function of the arguments it depends on). The composed value is a graph with
  shared nodes (a layer's output feeds both the next layer's product and its residual sum), so the fold is read in
  nine segments cut at the shared nodes: for each segment, from any contents that hold the stage values at the
  buffers still to be read, the segment's fold holds the stage values at the buffers read later; a buffer a segment
  does not write keeps its contents. The six concatenations carry a named function of their two operands in place of
  the printed lambda (the same term by unfolding).
-/
import proofs.«142631_j15247133901708_1_alg».proof.Proof.RefOps
import proofs.«142631_j15247133901708_1_alg».proof.Proof.RefRead
import Idealize.ShloMosaic.Lib.StableHlo.Run
import Idealize.ShloMosaic.Lib.Pipeline.Frame

noncomputable section

namespace Cert.ReferenceIdeal.Fold

open Cert.ReferenceIdeal Cert.ReferenceIdeal.Gen Idealize.ShloMosaic Idealize.ShloMosaic.TcCoe Idealize.SL.Sem Idealize.ShloMosaic.StableHlo

variable {F : FTy → Type} [FloatOps F]

/-- The edge list with the self loops appended, as a named function of its two operands (the same term the line's
    concatenations carry). -/
def cat2 : (⟨S1600000, .i32⟩ : BufTy).Contents (Elt F) → (⟨S100000, .i32⟩ : BufTy).Contents (Elt F) → (⟨S1700000, .i32⟩ : BufTy).Contents (Elt F) :=
  fun a b => concatenate S1700000 0 [⟨S1600000, a⟩, ⟨S100000, b⟩] concatenates_S1600000_S100000_S1700000_d0

/-- A one-buffer set of written buffers lies in the set of a list that holds the buffer. -/
theorem wr1 {W : List (Ref sig .tc)} (y : Ref sig .tc) (hy : y ∈ W) :
    ({Proc.devRef (τ := τ) .tc y} : Finset (DevRef τ sig)) ⊆ (W.map (Proc.devRef (τ := τ) .tc)).toFinset :=
  Finset.singleton_subset_iff.2 (List.mem_toFinset.2 (List.mem_map_of_mem hy))

/-- Operations 0 to 75 of the reference's line. -/
abbrev seg0 : List (HloOp τ sig (Elt F)) :=
  [
    unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    binary main_arg0 main_arg3 main_v4 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_v5 (iotaInDim S100000 32 0),
    binary main_v1 main_v5 main_v6 (cat2 (F := F) : (⟨S1600000, .i32⟩ : BufTy).Contents (Elt F) → (⟨S100000, .i32⟩ : BufTy).Contents (Elt F) → (⟨S1700000, .i32⟩ : BufTy).Contents (Elt F)),
    binary main_v3 main_v5 main_v7 (cat2 (F := F) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v8 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v7 main_v10 (broadcastInDim S1700000x1 ![0] bcast_S1700000_S1700000x1_0 : (⟨S1700000, .i32⟩ : BufTy).Contents (Elt F) → (⟨S1700000x1, .i32⟩ : BufTy).Contents (Elt F)),
    ternary main_v9 main_v10 main_v8 main_v11 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    unary main_v11 main_v14 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v13) (TRef.of (T := ⟨S100000, .f32⟩) main_v14) (TRef.of (T := ⟨S100000, .f32⟩) main_call0_v1) (TRef.of (T := ⟨S100000, .f32⟩) main_v15) select,
    nullary main_c (constantI S_ 32 0#32),
    unary main_c main_v16 (broadcastInDim S1700000 ![] bcast_S_S1700000 : (⟨S_, .i32⟩ : BufTy).Contents (Elt F) → (⟨S1700000, .i32⟩ : BufTy).Contents (Elt F)),
    binary main_v6 main_v16 main_v17 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v18 (broadcastInDim S1700000 ![] bcast_S_S1700000 : (⟨S_, .i32⟩ : BufTy).Contents (Elt F) → (⟨S1700000, .i32⟩ : BufTy).Contents (Elt F)),
    binary main_v6 main_v18 main_v19 (addi : (⟨S1700000, .i32⟩ : BufTy).Contents (Elt F) → (⟨S1700000, .i32⟩ : BufTy).Contents (Elt F) → (⟨S1700000, .i32⟩ : BufTy).Contents (Elt F)),
    ternary main_v17 main_v19 main_v6 main_v20 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v20 main_v21 (broadcastInDim S1700000x1 ![0] bcast_S1700000_S1700000x1_0 : (⟨S1700000, .i32⟩ : BufTy).Contents (Elt F) → (⟨S1700000x1, .i32⟩ : BufTy).Contents (Elt F)),
    binary main_v15 main_v21 main_v22 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v23 (broadcastInDim S1700000 ![] bcast_S_S1700000 : (⟨S_, .i32⟩ : BufTy).Contents (Elt F) → (⟨S1700000, .i32⟩ : BufTy).Contents (Elt F)),
    binary main_v7 main_v23 main_v24 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v25 (broadcastInDim S1700000 ![] bcast_S_S1700000 : (⟨S_, .i32⟩ : BufTy).Contents (Elt F) → (⟨S1700000, .i32⟩ : BufTy).Contents (Elt F)),
    binary main_v7 main_v25 main_v26 (addi : (⟨S1700000, .i32⟩ : BufTy).Contents (Elt F) → (⟨S1700000, .i32⟩ : BufTy).Contents (Elt F) → (⟨S1700000, .i32⟩ : BufTy).Contents (Elt F)),
    ternary main_v24 main_v26 main_v7 main_v27 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v27 main_v28 (broadcastInDim S1700000x1 ![0] bcast_S1700000_S1700000x1_0 : (⟨S1700000, .i32⟩ : BufTy).Contents (Elt F) → (⟨S1700000x1, .i32⟩ : BufTy).Contents (Elt F)),
    binary main_v15 main_v28 main_v29 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v22 main_v29 main_v30 (mulf : (⟨S1700000, .f32⟩ : BufTy).Contents (Elt F) → (⟨S1700000, .f32⟩ : BufTy).Contents (Elt F) → (⟨S1700000, .f32⟩ : BufTy).Contents (Elt F)),
    nullary main_c_6 (constantI S_ 32 0#32),
    unary main_c_6 main_v31 (broadcastInDim S1700000 ![] bcast_S_S1700000 : (⟨S_, .i32⟩ : BufTy).Contents (Elt F) → (⟨S1700000, .i32⟩ : BufTy).Contents (Elt F)),
    binary main_v6 main_v31 main_v32 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v33 (broadcastInDim S1700000 ![] bcast_S_S1700000 : (⟨S_, .i32⟩ : BufTy).Contents (Elt F) → (⟨S1700000, .i32⟩ : BufTy).Contents (Elt F)),
    binary main_v6 main_v33 main_v34 (addi : (⟨S1700000, .i32⟩ : BufTy).Contents (Elt F) → (⟨S1700000, .i32⟩ : BufTy).Contents (Elt F) → (⟨S1700000, .i32⟩ : BufTy).Contents (Elt F)),
    ternary main_v32 main_v34 main_v6 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v35 main_v36 (broadcastInDim S1700000x1 ![0] bcast_S1700000_S1700000x1_0 : (⟨S1700000, .i32⟩ : BufTy).Contents (Elt F) → (⟨S1700000x1, .i32⟩ : BufTy).Contents (Elt F)),
    binary main_v4 main_v36 main_v37 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v30 main_v38 (broadcastInDim S1700000x1 ![0] bcast_S1700000_S1700000x1_0 : (⟨S1700000, .f32⟩ : BufTy).Contents (Elt F) → (⟨S1700000x1, .f32⟩ : BufTy).Contents (Elt F)),
    unary main_v38 main_v39 (broadcastInDim S1700000x128 ![0, 1] bcast_S1700000x1_S1700000x128_0_1 : (⟨S1700000x1, .f32⟩ : BufTy).Contents (Elt F) → (⟨S1700000x128, .f32⟩ : BufTy).Contents (Elt F)),
    binary main_v37 main_v39 main_v40 (mulf : (⟨S1700000x128, .f32⟩ : BufTy).Contents (Elt F) → (⟨S1700000x128, .f32⟩ : BufTy).Contents (Elt F) → (⟨S1700000x128, .f32⟩ : BufTy).Contents (Elt F)),
    nullary main_cst_8 (constant S_ .f32 0x00000000#32),
    unary main_cst_8 main_v41 (broadcastInDim S100000x128 ![] bcast_S_S100000x128 : (⟨S_, .f32⟩ : BufTy).Contents (Elt F) → (⟨S100000x128, .f32⟩ : BufTy).Contents (Elt F)),
    unary main_v7 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg4 main_v44 (broadcastInDim S1x128 ![1] bcast_S128_S1x128_1 : (⟨S128, .f32⟩ : BufTy).Contents (Elt F) → (⟨S1x128, .f32⟩ : BufTy).Contents (Elt F)),
    unary main_v44 main_v45 (broadcastInDim S100000x128 ![0, 1] bcast_S1x128_S100000x128_0_1 : (⟨S1x128, .f32⟩ : BufTy).Contents (Elt F) → (⟨S100000x128, .f32⟩ : BufTy).Contents (Elt F)),
    binary main_v43 main_v45 main_v46 (addf : (⟨S100000x128, .f32⟩ : BufTy).Contents (Elt F) → (⟨S100000x128, .f32⟩ : BufTy).Contents (Elt F) → (⟨S100000x128, .f32⟩ : BufTy).Contents (Elt F)),
    unary main_arg11 main_v47 (broadcastInDim S1x128 ![1] bcast_S128_S1x128_1 : (⟨S128, .f32⟩ : BufTy).Contents (Elt F) → (⟨S1x128, .f32⟩ : BufTy).Contents (Elt F)),
    unary main_v47 main_v48 (broadcastInDim S100000x128 ![0, 1] bcast_S1x128_S100000x128_0_1 : (⟨S1x128, .f32⟩ : BufTy).Contents (Elt F) → (⟨S100000x128, .f32⟩ : BufTy).Contents (Elt F)),
    binary main_v46 main_v48 main_v49 (subf : (⟨S100000x128, .f32⟩ : BufTy).Contents (Elt F) → (⟨S100000x128, .f32⟩ : BufTy).Contents (Elt F) → (⟨S100000x128, .f32⟩ : BufTy).Contents (Elt F)),
    nullary main_cst_9 (constant S_ .f32 0x3727C5AC#32),
    unary main_cst_9 main_v50 (broadcastInDim S128 ![] bcast_S_S128 : (⟨S_, .f32⟩ : BufTy).Contents (Elt F) → (⟨S128, .f32⟩ : BufTy).Contents (Elt F)),
    binary main_arg12 main_v50 main_v51 (addf : (⟨S128, .f32⟩ : BufTy).Contents (Elt F) → (⟨S128, .f32⟩ : BufTy).Contents (Elt F) → (⟨S128, .f32⟩ : BufTy).Contents (Elt F)),
    unary main_v51 main_v52 (Host.rsqrt : (⟨S128, .f32⟩ : BufTy).Contents (Elt F) → (⟨S128, .f32⟩ : BufTy).Contents (Elt F)),
    unary main_v52 main_v53 (broadcastInDim S1x128 ![1] bcast_S128_S1x128_1 : (⟨S128, .f32⟩ : BufTy).Contents (Elt F) → (⟨S1x128, .f32⟩ : BufTy).Contents (Elt F)),
    unary main_v53 main_v54 (broadcastInDim S100000x128 ![0, 1] bcast_S1x128_S100000x128_0_1 : (⟨S1x128, .f32⟩ : BufTy).Contents (Elt F) → (⟨S100000x128, .f32⟩ : BufTy).Contents (Elt F)),
    binary main_v49 main_v54 main_v55 (mulf : (⟨S100000x128, .f32⟩ : BufTy).Contents (Elt F) → (⟨S100000x128, .f32⟩ : BufTy).Contents (Elt F) → (⟨S100000x128, .f32⟩ : BufTy).Contents (Elt F)),
    unary main_arg9 main_v56 (broadcastInDim S1x128 ![1] bcast_S128_S1x128_1 : (⟨S128, .f32⟩ : BufTy).Contents (Elt F) → (⟨S1x128, .f32⟩ : BufTy).Contents (Elt F)),
    unary main_v56 main_v57 (broadcastInDim S100000x128 ![0, 1] bcast_S1x128_S100000x128_0_1 : (⟨S1x128, .f32⟩ : BufTy).Contents (Elt F) → (⟨S100000x128, .f32⟩ : BufTy).Contents (Elt F)),
    binary main_v55 main_v57 main_v58 (mulf : (⟨S100000x128, .f32⟩ : BufTy).Contents (Elt F) → (⟨S100000x128, .f32⟩ : BufTy).Contents (Elt F) → (⟨S100000x128, .f32⟩ : BufTy).Contents (Elt F)),
    unary main_arg10 main_v59 (broadcastInDim S1x128 ![1] bcast_S128_S1x128_1 : (⟨S128, .f32⟩ : BufTy).Contents (Elt F) → (⟨S1x128, .f32⟩ : BufTy).Contents (Elt F)),
    unary main_v59 main_v60 (broadcastInDim S100000x128 ![0, 1] bcast_S1x128_S100000x128_0_1 : (⟨S1x128, .f32⟩ : BufTy).Contents (Elt F) → (⟨S100000x128, .f32⟩ : BufTy).Contents (Elt F)),
    binary main_v58 main_v60 main_v61 (addf : (⟨S100000x128, .f32⟩ : BufTy).Contents (Elt F) → (⟨S100000x128, .f32⟩ : BufTy).Contents (Elt F) → (⟨S100000x128, .f32⟩ : BufTy).Contents (Elt F)) ]

/-- The buffers those operations write. -/
abbrev segW0 : List (Ref sig .tc) :=
  [main_v0, main_v1, main_v2, main_v3, main_v4, main_v5, main_v6, main_v7, main_cst, main_v8, main_cst_0, main_v9, main_v10, main_v11, main_cst_1, main_v12, main_v13, main_v14, main_cst_2, main_call0_v0, main_call0_v1, main_v15, main_c, main_v16, main_v17, main_c_3, main_v18, main_v19, main_v20, main_v21, main_v22, main_c_4, main_v23, main_v24, main_c_5, main_v25, main_v26, main_v27, main_v28, main_v29, main_v30, main_c_6, main_v31, main_v32, main_c_7, main_v33, main_v34, main_v35, main_v36, main_v37, main_v38, main_v39, main_v40, main_cst_8, main_v41, main_v42, main_v43, main_v44, main_v45, main_v46, main_v47, main_v48, main_v49, main_cst_9, main_v50, main_v51, main_v52, main_v53, main_v54, main_v55, main_v56, main_v57, main_v58, main_v59, main_v60, main_v61]

set_option maxRecDepth 8192 in
theorem seg0_writes : (seg0 (F := F)).Forall fun op => op.writes ⊆ ((segW0).map (Proc.devRef (τ := τ) .tc)).toFinset :=
  ⟨wr1 main_v0 (by decide), wr1 main_v1 (by decide), wr1 main_v2 (by decide), wr1 main_v3 (by decide), wr1 main_v4 (by decide), wr1 main_v5 (by decide), wr1 main_v6 (by decide), wr1 main_v7 (by decide), wr1 main_cst (by decide), wr1 main_v8 (by decide), wr1 main_cst_0 (by decide), wr1 main_v9 (by decide), wr1 main_v10 (by decide), wr1 main_v11 (by decide), wr1 main_cst_1 (by decide), wr1 main_v12 (by decide), wr1 main_v13 (by decide), wr1 main_v14 (by decide), wr1 main_cst_2 (by decide), wr1 main_call0_v0 (by decide), wr1 main_call0_v1 (by decide), wr1 main_v15 (by decide), wr1 main_c (by decide), wr1 main_v16 (by decide), wr1 main_v17 (by decide), wr1 main_c_3 (by decide), wr1 main_v18 (by decide), wr1 main_v19 (by decide), wr1 main_v20 (by decide), wr1 main_v21 (by decide), wr1 main_v22 (by decide), wr1 main_c_4 (by decide), wr1 main_v23 (by decide), wr1 main_v24 (by decide), wr1 main_c_5 (by decide), wr1 main_v25 (by decide), wr1 main_v26 (by decide), wr1 main_v27 (by decide), wr1 main_v28 (by decide), wr1 main_v29 (by decide), wr1 main_v30 (by decide), wr1 main_c_6 (by decide), wr1 main_v31 (by decide), wr1 main_v32 (by decide), wr1 main_c_7 (by decide), wr1 main_v33 (by decide), wr1 main_v34 (by decide), wr1 main_v35 (by decide), wr1 main_v36 (by decide), wr1 main_v37 (by decide), wr1 main_v38 (by decide), wr1 main_v39 (by decide), wr1 main_v40 (by decide), wr1 main_cst_8 (by decide), wr1 main_v41 (by decide), wr1 main_v42 (by decide), wr1 main_v43 (by decide), wr1 main_v44 (by decide), wr1 main_v45 (by decide), wr1 main_v46 (by decide), wr1 main_v47 (by decide), wr1 main_v48 (by decide), wr1 main_v49 (by decide), wr1 main_cst_9 (by decide), wr1 main_v50 (by decide), wr1 main_v51 (by decide), wr1 main_v52 (by decide), wr1 main_v53 (by decide), wr1 main_v54 (by decide), wr1 main_v55 (by decide), wr1 main_v56 (by decide), wr1 main_v57 (by decide), wr1 main_v58 (by decide), wr1 main_v59 (by decide), wr1 main_v60 (by decide), wr1 main_v61 (by decide)⟩

/-- A buffer the segment does not write keeps its contents. -/
theorem seg0_keep (W : Valuation τ sig (Elt F)) (r : Ref sig .tc) (hr : r ∉ segW0) :
    after (seg0 (F := F)) W (Proc.devRef .tc r) = W (Proc.devRef .tc r) :=
  after_of_writes_sub _ W seg0_writes hr

set_option maxRecDepth 8192 in
set_option maxHeartbeats 4000000 in
theorem seg0_val (W : Valuation τ sig (Elt F)) (x0 : (⟨S100000x128, .f32⟩ : BufTy).Contents (Elt F)) (x1 : (⟨S2x1600000, .i32⟩ : BufTy).Contents (Elt F)) (x2 : (⟨S100000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F)) (x9 : (⟨S128, .f32⟩ : BufTy).Contents (Elt F)) (x10 : (⟨S128, .f32⟩ : BufTy).Contents (Elt F)) (x11 : (⟨S128, .f32⟩ : BufTy).Contents (Elt F)) (x12 : (⟨S128, .f32⟩ : BufTy).Contents (Elt F)) (x13 : (⟨S128, .f32⟩ : BufTy).Contents (Elt F)) (x14 : (⟨S128, .f32⟩ : BufTy).Contents (Elt F)) (x15 : (⟨S128, .f32⟩ : BufTy).Contents (Elt F)) (x16 : (⟨S128, .f32⟩ : BufTy).Contents (Elt F)) (x17 : (⟨S128, .f32⟩ : BufTy).Contents (Elt F)) (x18 : (⟨S128, .f32⟩ : BufTy).Contents (Elt F)) (x19 : (⟨S128, .f32⟩ : BufTy).Contents (Elt F)) (x20 : (⟨S128, .f32⟩ : BufTy).Contents (Elt F)) (x21 : (⟨S128x128, .f32⟩ : BufTy).Contents (Elt F)) (x22 : (⟨S128, .f32⟩ : BufTy).Contents (Elt F)) (x23 : (⟨S128x64, .f32⟩ : BufTy).Contents (Elt F)) (x24 : (⟨S64, .f32⟩ : BufTy).Contents (Elt F))
    (h_main_arg1 : W (Proc.devRef .tc main_arg1) = x1)
    (h_main_arg0 : W (Proc.devRef .tc main_arg0) = x0)
    (h_main_arg3 : W (Proc.devRef .tc main_arg3) = x3)
    (h_main_arg4 : W (Proc.devRef .tc main_arg4) = x4)
    (h_main_arg11 : W (Proc.devRef .tc main_arg11) = x11)
    (h_main_arg12 : W (Proc.devRef .tc main_arg12) = x12)
    (h_main_arg9 : W (Proc.devRef .tc main_arg9) = x9)
    (h_main_arg10 : W (Proc.devRef .tc main_arg10) = x10)
    (h_main_arg5 : W (Proc.devRef .tc main_arg5) = x5)
    (h_main_arg6 : W (Proc.devRef .tc main_arg6) = x6)
    (h_main_arg15 : W (Proc.devRef .tc main_arg15) = x15)
    (h_main_arg16 : W (Proc.devRef .tc main_arg16) = x16)
    (h_main_arg13 : W (Proc.devRef .tc main_arg13) = x13)
    (h_main_arg14 : W (Proc.devRef .tc main_arg14) = x14)
    (h_main_arg7 : W (Proc.devRef .tc main_arg7) = x7)
    (h_main_arg8 : W (Proc.devRef .tc main_arg8) = x8)
    (h_main_arg19 : W (Proc.devRef .tc main_arg19) = x19)
    (h_main_arg20 : W (Proc.devRef .tc main_arg20) = x20)
    (h_main_arg17 : W (Proc.devRef .tc main_arg17) = x17)
    (h_main_arg18 : W (Proc.devRef .tc main_arg18) = x18)
    (h_main_arg2 : W (Proc.devRef .tc main_arg2) = x2)
    (h_main_arg21 : W (Proc.devRef .tc main_arg21) = x21)
    (h_main_arg22 : W (Proc.devRef .tc main_arg22) = x22)
    (h_main_arg23 : W (Proc.devRef .tc main_arg23) = x23)
    (h_main_arg24 : W (Proc.devRef .tc main_arg24) = x24) :
    (after (seg0 (F := F)) W (Proc.devRef .tc main_v61) = Read.val_main_v61 (F := F) x0 x1 x3 x4 x9 x10 x11 x12) ∧
    (after (seg0 (F := F)) W (Proc.devRef .tc main_arg5) = x5) ∧
    (after (seg0 (F := F)) W (Proc.devRef .tc main_v1) = Read.val_main_v1 (F := F) x1) ∧
    (after (seg0 (F := F)) W (Proc.devRef .tc main_v3) = Read.val_main_v3 (F := F) x1) ∧
    (after (seg0 (F := F)) W (Proc.devRef .tc main_arg6) = x6) ∧
    (after (seg0 (F := F)) W (Proc.devRef .tc main_arg15) = x15) ∧
    (after (seg0 (F := F)) W (Proc.devRef .tc main_arg16) = x16) ∧
    (after (seg0 (F := F)) W (Proc.devRef .tc main_arg13) = x13) ∧
    (after (seg0 (F := F)) W (Proc.devRef .tc main_arg14) = x14) ∧
    (after (seg0 (F := F)) W (Proc.devRef .tc main_arg7) = x7) ∧
    (after (seg0 (F := F)) W (Proc.devRef .tc main_arg8) = x8) ∧
    (after (seg0 (F := F)) W (Proc.devRef .tc main_arg19) = x19) ∧
    (after (seg0 (F := F)) W (Proc.devRef .tc main_arg20) = x20) ∧
    (after (seg0 (F := F)) W (Proc.devRef .tc main_arg17) = x17) ∧
    (after (seg0 (F := F)) W (Proc.devRef .tc main_arg18) = x18) ∧
    (after (seg0 (F := F)) W (Proc.devRef .tc main_arg2) = x2) ∧
    (after (seg0 (F := F)) W (Proc.devRef .tc main_arg21) = x21) ∧
    (after (seg0 (F := F)) W (Proc.devRef .tc main_arg22) = x22) ∧
    (after (seg0 (F := F)) W (Proc.devRef .tc main_arg23) = x23) ∧
    (after (seg0 (F := F)) W (Proc.devRef .tc main_arg24) = x24) :=
  ⟨by (after_results_simp; (try simp only [h_main_arg1, h_main_arg0, h_main_arg3, h_main_arg4, h_main_arg11, h_main_arg12, h_main_arg9, h_main_arg10]) <;> rfl),
   (seg0_keep W main_arg5 (by decide)).trans h_main_arg5,
   by (after_results_simp; (try simp only [h_main_arg1, h_main_arg0, h_main_arg3, h_main_arg4, h_main_arg11, h_main_arg12, h_main_arg9, h_main_arg10]) <;> rfl),
   by (after_results_simp; (try simp only [h_main_arg1, h_main_arg0, h_main_arg3, h_main_arg4, h_main_arg11, h_main_arg12, h_main_arg9, h_main_arg10]) <;> rfl),
   (seg0_keep W main_arg6 (by decide)).trans h_main_arg6,
   (seg0_keep W main_arg15 (by decide)).trans h_main_arg15,
   (seg0_keep W main_arg16 (by decide)).trans h_main_arg16,
   (seg0_keep W main_arg13 (by decide)).trans h_main_arg13,
   (seg0_keep W main_arg14 (by decide)).trans h_main_arg14,
   (seg0_keep W main_arg7 (by decide)).trans h_main_arg7,
   (seg0_keep W main_arg8 (by decide)).trans h_main_arg8,
   (seg0_keep W main_arg19 (by decide)).trans h_main_arg19,
   (seg0_keep W main_arg20 (by decide)).trans h_main_arg20,
   (seg0_keep W main_arg17 (by decide)).trans h_main_arg17,
   (seg0_keep W main_arg18 (by decide)).trans h_main_arg18,
   (seg0_keep W main_arg2 (by decide)).trans h_main_arg2,
   (seg0_keep W main_arg21 (by decide)).trans h_main_arg21,
   (seg0_keep W main_arg22 (by decide)).trans h_main_arg22,
   (seg0_keep W main_arg23 (by decide)).trans h_main_arg23,
   (seg0_keep W main_arg24 (by decide)).trans h_main_arg24⟩

/-- Operations 76 to 82 of the reference's line. -/
abbrev seg1 : List (HloOp τ sig (Elt F)) :=
  [
    nullary main_cst_10 (constant S_ .f32 0x00000000#32),
    unary main_cst_10 main_v62 (broadcastInDim S100000x128 ![] bcast_S_S100000x128 : (⟨S_, .f32⟩ : BufTy).Contents (Elt F) → (⟨S100000x128, .f32⟩ : BufTy).Contents (Elt F)),
    binary main_v61 main_v62 main_v63 (cmpf .oge : (⟨S100000x128, .f32⟩ : BufTy).Contents (Elt F) → (⟨S100000x128, .f32⟩ : BufTy).Contents (Elt F) → (⟨S100000x128, .i1⟩ : BufTy).Contents (Elt F)),
    nullary main_cst_11 (constant S_ .f32 0x3C23D70A#32),
    unary main_cst_11 main_v64 (broadcastInDim S100000x128 ![] bcast_S_S100000x128 : (⟨S_, .f32⟩ : BufTy).Contents (Elt F) → (⟨S100000x128, .f32⟩ : BufTy).Contents (Elt F)),
    binary main_v64 main_v61 main_v65 (mulf : (⟨S100000x128, .f32⟩ : BufTy).Contents (Elt F) → (⟨S100000x128, .f32⟩ : BufTy).Contents (Elt F) → (⟨S100000x128, .f32⟩ : BufTy).Contents (Elt F)),
    TRef.ternary (TRef.of (T := ⟨S100000x128, .i1⟩) main_v63) (TRef.of (T := ⟨S100000x128, .f32⟩) main_v61) (TRef.of (T := ⟨S100000x128, .f32⟩) main_v65) (TRef.of (T := ⟨S100000x128, .f32⟩) main_v66) select ]

/-- The buffers those operations write. -/
abbrev segW1 : List (Ref sig .tc) :=
  [main_cst_10, main_v62, main_v63, main_cst_11, main_v64, main_v65, main_v66]

set_option maxRecDepth 8192 in
theorem seg1_writes : (seg1 (F := F)).Forall fun op => op.writes ⊆ ((segW1).map (Proc.devRef (τ := τ) .tc)).toFinset :=
  ⟨wr1 main_cst_10 (by decide), wr1 main_v62 (by decide), wr1 main_v63 (by decide), wr1 main_cst_11 (by decide), wr1 main_v64 (by decide), wr1 main_v65 (by decide), wr1 main_v66 (by decide)⟩

/-- A buffer the segment does not write keeps its contents. -/
theorem seg1_keep (W : Valuation τ sig (Elt F)) (r : Ref sig .tc) (hr : r ∉ segW1) :
    after (seg1 (F := F)) W (Proc.devRef .tc r) = W (Proc.devRef .tc r) :=
  after_of_writes_sub _ W seg1_writes hr

set_option maxRecDepth 8192 in
set_option maxHeartbeats 4000000 in
theorem seg1_val (W : Valuation τ sig (Elt F)) (x0 : (⟨S100000x128, .f32⟩ : BufTy).Contents (Elt F)) (x1 : (⟨S2x1600000, .i32⟩ : BufTy).Contents (Elt F)) (x2 : (⟨S100000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F)) (x9 : (⟨S128, .f32⟩ : BufTy).Contents (Elt F)) (x10 : (⟨S128, .f32⟩ : BufTy).Contents (Elt F)) (x11 : (⟨S128, .f32⟩ : BufTy).Contents (Elt F)) (x12 : (⟨S128, .f32⟩ : BufTy).Contents (Elt F)) (x13 : (⟨S128, .f32⟩ : BufTy).Contents (Elt F)) (x14 : (⟨S128, .f32⟩ : BufTy).Contents (Elt F)) (x15 : (⟨S128, .f32⟩ : BufTy).Contents (Elt F)) (x16 : (⟨S128, .f32⟩ : BufTy).Contents (Elt F)) (x17 : (⟨S128, .f32⟩ : BufTy).Contents (Elt F)) (x18 : (⟨S128, .f32⟩ : BufTy).Contents (Elt F)) (x19 : (⟨S128, .f32⟩ : BufTy).Contents (Elt F)) (x20 : (⟨S128, .f32⟩ : BufTy).Contents (Elt F)) (x21 : (⟨S128x128, .f32⟩ : BufTy).Contents (Elt F)) (x22 : (⟨S128, .f32⟩ : BufTy).Contents (Elt F)) (x23 : (⟨S128x64, .f32⟩ : BufTy).Contents (Elt F)) (x24 : (⟨S64, .f32⟩ : BufTy).Contents (Elt F))
    (h_main_v61 : W (Proc.devRef .tc main_v61) = Read.val_main_v61 (F := F) x0 x1 x3 x4 x9 x10 x11 x12)
    (h_main_arg5 : W (Proc.devRef .tc main_arg5) = x5)
    (h_main_v1 : W (Proc.devRef .tc main_v1) = Read.val_main_v1 (F := F) x1)
    (h_main_v3 : W (Proc.devRef .tc main_v3) = Read.val_main_v3 (F := F) x1)
    (h_main_arg6 : W (Proc.devRef .tc main_arg6) = x6)
    (h_main_arg15 : W (Proc.devRef .tc main_arg15) = x15)
    (h_main_arg16 : W (Proc.devRef .tc main_arg16) = x16)
    (h_main_arg13 : W (Proc.devRef .tc main_arg13) = x13)
    (h_main_arg14 : W (Proc.devRef .tc main_arg14) = x14)
    (h_main_arg7 : W (Proc.devRef .tc main_arg7) = x7)
    (h_main_arg8 : W (Proc.devRef .tc main_arg8) = x8)
    (h_main_arg19 : W (Proc.devRef .tc main_arg19) = x19)
    (h_main_arg20 : W (Proc.devRef .tc main_arg20) = x20)
    (h_main_arg17 : W (Proc.devRef .tc main_arg17) = x17)
    (h_main_arg18 : W (Proc.devRef .tc main_arg18) = x18)
    (h_main_arg2 : W (Proc.devRef .tc main_arg2) = x2)
    (h_main_arg21 : W (Proc.devRef .tc main_arg21) = x21)
    (h_main_arg22 : W (Proc.devRef .tc main_arg22) = x22)
    (h_main_arg23 : W (Proc.devRef .tc main_arg23) = x23)
    (h_main_arg24 : W (Proc.devRef .tc main_arg24) = x24) :
    (after (seg1 (F := F)) W (Proc.devRef .tc main_v66) = Read.val_main_v66 (F := F) x0 x1 x3 x4 x9 x10 x11 x12) ∧
    (after (seg1 (F := F)) W (Proc.devRef .tc main_arg5) = x5) ∧
    (after (seg1 (F := F)) W (Proc.devRef .tc main_v1) = Read.val_main_v1 (F := F) x1) ∧
    (after (seg1 (F := F)) W (Proc.devRef .tc main_v3) = Read.val_main_v3 (F := F) x1) ∧
    (after (seg1 (F := F)) W (Proc.devRef .tc main_arg6) = x6) ∧
    (after (seg1 (F := F)) W (Proc.devRef .tc main_arg15) = x15) ∧
    (after (seg1 (F := F)) W (Proc.devRef .tc main_arg16) = x16) ∧
    (after (seg1 (F := F)) W (Proc.devRef .tc main_arg13) = x13) ∧
    (after (seg1 (F := F)) W (Proc.devRef .tc main_arg14) = x14) ∧
    (after (seg1 (F := F)) W (Proc.devRef .tc main_arg7) = x7) ∧
    (after (seg1 (F := F)) W (Proc.devRef .tc main_arg8) = x8) ∧
    (after (seg1 (F := F)) W (Proc.devRef .tc main_arg19) = x19) ∧
    (after (seg1 (F := F)) W (Proc.devRef .tc main_arg20) = x20) ∧
    (after (seg1 (F := F)) W (Proc.devRef .tc main_arg17) = x17) ∧
    (after (seg1 (F := F)) W (Proc.devRef .tc main_arg18) = x18) ∧
    (after (seg1 (F := F)) W (Proc.devRef .tc main_arg2) = x2) ∧
    (after (seg1 (F := F)) W (Proc.devRef .tc main_arg21) = x21) ∧
    (after (seg1 (F := F)) W (Proc.devRef .tc main_arg22) = x22) ∧
    (after (seg1 (F := F)) W (Proc.devRef .tc main_arg23) = x23) ∧
    (after (seg1 (F := F)) W (Proc.devRef .tc main_arg24) = x24) :=
  ⟨by (after_results_simp; (try simp only [h_main_v61]) <;> rfl),
   (seg1_keep W main_arg5 (by decide)).trans h_main_arg5,
   (seg1_keep W main_v1 (by decide)).trans h_main_v1,
   (seg1_keep W main_v3 (by decide)).trans h_main_v3,
   (seg1_keep W main_arg6 (by decide)).trans h_main_arg6,
   (seg1_keep W main_arg15 (by decide)).trans h_main_arg15,
   (seg1_keep W main_arg16 (by decide)).trans h_main_arg16,
   (seg1_keep W main_arg13 (by decide)).trans h_main_arg13,
   (seg1_keep W main_arg14 (by decide)).trans h_main_arg14,
   (seg1_keep W main_arg7 (by decide)).trans h_main_arg7,
   (seg1_keep W main_arg8 (by decide)).trans h_main_arg8,
   (seg1_keep W main_arg19 (by decide)).trans h_main_arg19,
   (seg1_keep W main_arg20 (by decide)).trans h_main_arg20,
   (seg1_keep W main_arg17 (by decide)).trans h_main_arg17,
   (seg1_keep W main_arg18 (by decide)).trans h_main_arg18,
   (seg1_keep W main_arg2 (by decide)).trans h_main_arg2,
   (seg1_keep W main_arg21 (by decide)).trans h_main_arg21,
   (seg1_keep W main_arg22 (by decide)).trans h_main_arg22,
   (seg1_keep W main_arg23 (by decide)).trans h_main_arg23,
   (seg1_keep W main_arg24 (by decide)).trans h_main_arg24⟩

/-- Operations 83 to 154 of the reference's line. -/
abbrev seg2 : List (HloOp τ sig (Elt F)) :=
  [
    binary main_v66 main_arg5 main_v67 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_v68 (iotaInDim S100000 32 0),
    binary main_v1 main_v68 main_v69 (cat2 (F := F) : (⟨S1600000, .i32⟩ : BufTy).Contents (Elt F) → (⟨S100000, .i32⟩ : BufTy).Contents (Elt F) → (⟨S1700000, .i32⟩ : BufTy).Contents (Elt F)),
    binary main_v3 main_v68 main_v70 (cat2 (F := F) : (⟨S1600000, .i32⟩ : BufTy).Contents (Elt F) → (⟨S100000, .i32⟩ : BufTy).Contents (Elt F) → (⟨S1700000, .i32⟩ : BufTy).Contents (Elt F)),
    nullary main_cst_12 (constant S_ .f32 0x3F800000#32),
    unary main_cst_12 main_v71 (broadcastInDim S1700000 ![] bcast_S_S1700000 : (⟨S_, .f32⟩ : BufTy).Contents (Elt F) → (⟨S1700000, .f32⟩ : BufTy).Contents (Elt F)),
    nullary main_cst_13 (constant S_ .f32 0x00000000#32),
    unary main_cst_13 main_v72 (broadcastInDim S100000 ![] bcast_S_S100000 : (⟨S_, .f32⟩ : BufTy).Contents (Elt F) → (⟨S100000, .f32⟩ : BufTy).Contents (Elt F)),
    unary main_v70 main_v73 (broadcastInDim S1700000x1 ![0] bcast_S1700000_S1700000x1_0 : (⟨S1700000, .i32⟩ : BufTy).Contents (Elt F) → (⟨S1700000x1, .i32⟩ : BufTy).Contents (Elt F)),
    ternary main_v72 main_v73 main_v71 main_v74 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_14 (constant S_ .f32 0x00000000#32),
    unary main_cst_14 main_v75 (broadcastInDim S100000 ![] bcast_S_S100000 : (⟨S_, .f32⟩ : BufTy).Contents (Elt F) → (⟨S100000, .f32⟩ : BufTy).Contents (Elt F)),
    binary main_v74 main_v75 main_v76 (cmpf .ogt : (⟨S100000, .f32⟩ : BufTy).Contents (Elt F) → (⟨S100000, .f32⟩ : BufTy).Contents (Elt F) → (⟨S100000, .i1⟩ : BufTy).Contents (Elt F)),
    unary main_v74 main_v77 (Host.rsqrt : (⟨S100000, .f32⟩ : BufTy).Contents (Elt F) → (⟨S100000, .f32⟩ : BufTy).Contents (Elt F)),
    nullary main_cst_15 (constant S_ .f32 0x00000000#32),
    TRef.unary (TRef.of (T := ⟨S_, .f32⟩) main_cst_15) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v76) (TRef.of (T := ⟨S100000, .f32⟩) main_v77) (TRef.of (T := ⟨S100000, .f32⟩) main_call2_v1) (TRef.of (T := ⟨S100000, .f32⟩) main_v78) select,
    nullary main_c_16 (constantI S_ 32 0#32),
    unary main_c_16 main_v79 (broadcastInDim S1700000 ![] bcast_S_S1700000 : (⟨S_, .i32⟩ : BufTy).Contents (Elt F) → (⟨S1700000, .i32⟩ : BufTy).Contents (Elt F)),
    binary main_v69 main_v79 main_v80 (cmpi .slt : (⟨S1700000, .i32⟩ : BufTy).Contents (Elt F) → (⟨S1700000, .i32⟩ : BufTy).Contents (Elt F) → (⟨S1700000, .i1⟩ : BufTy).Contents (Elt F)),
    nullary main_c_17 (constantI S_ 32 100000#32),
    unary main_c_17 main_v81 (broadcastInDim S1700000 ![] bcast_S_S1700000 : (⟨S_, .i32⟩ : BufTy).Contents (Elt F) → (⟨S1700000, .i32⟩ : BufTy).Contents (Elt F)),
    binary main_v69 main_v81 main_v82 (addi : (⟨S1700000, .i32⟩ : BufTy).Contents (Elt F) → (⟨S1700000, .i32⟩ : BufTy).Contents (Elt F) → (⟨S1700000, .i32⟩ : BufTy).Contents (Elt F)),
    ternary main_v80 main_v82 main_v69 main_v83 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v83 main_v84 (broadcastInDim S1700000x1 ![0] bcast_S1700000_S1700000x1_0 : (⟨S1700000, .i32⟩ : BufTy).Contents (Elt F) → (⟨S1700000x1, .i32⟩ : BufTy).Contents (Elt F)),
    binary main_v78 main_v84 main_v85 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_18 (constantI S_ 32 0#32),
    unary main_c_18 main_v86 (broadcastInDim S1700000 ![] bcast_S_S1700000 : (⟨S_, .i32⟩ : BufTy).Contents (Elt F) → (⟨S1700000, .i32⟩ : BufTy).Contents (Elt F)),
    binary main_v70 main_v86 main_v87 (cmpi .slt : (⟨S1700000, .i32⟩ : BufTy).Contents (Elt F) → (⟨S1700000, .i32⟩ : BufTy).Contents (Elt F) → (⟨S1700000, .i1⟩ : BufTy).Contents (Elt F)),
    nullary main_c_19 (constantI S_ 32 100000#32),
    unary main_c_19 main_v88 (broadcastInDim S1700000 ![] bcast_S_S1700000 : (⟨S_, .i32⟩ : BufTy).Contents (Elt F) → (⟨S1700000, .i32⟩ : BufTy).Contents (Elt F)),
    binary main_v70 main_v88 main_v89 (addi : (⟨S1700000, .i32⟩ : BufTy).Contents (Elt F) → (⟨S1700000, .i32⟩ : BufTy).Contents (Elt F) → (⟨S1700000, .i32⟩ : BufTy).Contents (Elt F)),
    ternary main_v87 main_v89 main_v70 main_v90 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v90 main_v91 (broadcastInDim S1700000x1 ![0] bcast_S1700000_S1700000x1_0 : (⟨S1700000, .i32⟩ : BufTy).Contents (Elt F) → (⟨S1700000x1, .i32⟩ : BufTy).Contents (Elt F)),
    binary main_v78 main_v91 main_v92 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v85 main_v92 main_v93 (mulf : (⟨S1700000, .f32⟩ : BufTy).Contents (Elt F) → (⟨S1700000, .f32⟩ : BufTy).Contents (Elt F) → (⟨S1700000, .f32⟩ : BufTy).Contents (Elt F)),
    nullary main_c_20 (constantI S_ 32 0#32),
    unary main_c_20 main_v94 (broadcastInDim S1700000 ![] bcast_S_S1700000 : (⟨S_, .i32⟩ : BufTy).Contents (Elt F) → (⟨S1700000, .i32⟩ : BufTy).Contents (Elt F)),
    binary main_v69 main_v94 main_v95 (cmpi .slt : (⟨S1700000, .i32⟩ : BufTy).Contents (Elt F) → (⟨S1700000, .i32⟩ : BufTy).Contents (Elt F) → (⟨S1700000, .i1⟩ : BufTy).Contents (Elt F)),
    nullary main_c_21 (constantI S_ 32 100000#32),
    unary main_c_21 main_v96 (broadcastInDim S1700000 ![] bcast_S_S1700000 : (⟨S_, .i32⟩ : BufTy).Contents (Elt F) → (⟨S1700000, .i32⟩ : BufTy).Contents (Elt F)),
    binary main_v69 main_v96 main_v97 (addi : (⟨S1700000, .i32⟩ : BufTy).Contents (Elt F) → (⟨S1700000, .i32⟩ : BufTy).Contents (Elt F) → (⟨S1700000, .i32⟩ : BufTy).Contents (Elt F)),
    ternary main_v95 main_v97 main_v69 main_v98 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v98 main_v99 (broadcastInDim S1700000x1 ![0] bcast_S1700000_S1700000x1_0 : (⟨S1700000, .i32⟩ : BufTy).Contents (Elt F) → (⟨S1700000x1, .i32⟩ : BufTy).Contents (Elt F)),
    binary main_v67 main_v99 main_v100 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v93 main_v101 (broadcastInDim S1700000x1 ![0] bcast_S1700000_S1700000x1_0 : (⟨S1700000, .f32⟩ : BufTy).Contents (Elt F) → (⟨S1700000x1, .f32⟩ : BufTy).Contents (Elt F)),
    unary main_v101 main_v102 (broadcastInDim S1700000x128 ![0, 1] bcast_S1700000x1_S1700000x128_0_1 : (⟨S1700000x1, .f32⟩ : BufTy).Contents (Elt F) → (⟨S1700000x128, .f32⟩ : BufTy).Contents (Elt F)),
    binary main_v100 main_v102 main_v103 (mulf : (⟨S1700000x128, .f32⟩ : BufTy).Contents (Elt F) → (⟨S1700000x128, .f32⟩ : BufTy).Contents (Elt F) → (⟨S1700000x128, .f32⟩ : BufTy).Contents (Elt F)),
    nullary main_cst_22 (constant S_ .f32 0x00000000#32),
    unary main_cst_22 main_v104 (broadcastInDim S100000x128 ![] bcast_S_S100000x128 : (⟨S_, .f32⟩ : BufTy).Contents (Elt F) → (⟨S100000x128, .f32⟩ : BufTy).Contents (Elt F)),
    unary main_v70 main_v105 (broadcastInDim S1700000x1 ![0] bcast_S1700000_S1700000x1_0 : (⟨S1700000, .i32⟩ : BufTy).Contents (Elt F) → (⟨S1700000x1, .i32⟩ : BufTy).Contents (Elt F)),
    ternary main_v104 main_v105 main_v103 main_v106 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg6 main_v107 (broadcastInDim S1x128 ![1] bcast_S128_S1x128_1 : (⟨S128, .f32⟩ : BufTy).Contents (Elt F) → (⟨S1x128, .f32⟩ : BufTy).Contents (Elt F)),
    unary main_v107 main_v108 (broadcastInDim S100000x128 ![0, 1] bcast_S1x128_S100000x128_0_1 : (⟨S1x128, .f32⟩ : BufTy).Contents (Elt F) → (⟨S100000x128, .f32⟩ : BufTy).Contents (Elt F)),
    binary main_v106 main_v108 main_v109 (addf : (⟨S100000x128, .f32⟩ : BufTy).Contents (Elt F) → (⟨S100000x128, .f32⟩ : BufTy).Contents (Elt F) → (⟨S100000x128, .f32⟩ : BufTy).Contents (Elt F)),
    unary main_arg15 main_v110 (broadcastInDim S1x128 ![1] bcast_S128_S1x128_1 : (⟨S128, .f32⟩ : BufTy).Contents (Elt F) → (⟨S1x128, .f32⟩ : BufTy).Contents (Elt F)),
    unary main_v110 main_v111 (broadcastInDim S100000x128 ![0, 1] bcast_S1x128_S100000x128_0_1 : (⟨S1x128, .f32⟩ : BufTy).Contents (Elt F) → (⟨S100000x128, .f32⟩ : BufTy).Contents (Elt F)),
    binary main_v109 main_v111 main_v112 (subf : (⟨S100000x128, .f32⟩ : BufTy).Contents (Elt F) → (⟨S100000x128, .f32⟩ : BufTy).Contents (Elt F) → (⟨S100000x128, .f32⟩ : BufTy).Contents (Elt F)),
    nullary main_cst_23 (constant S_ .f32 0x3727C5AC#32),
    unary main_cst_23 main_v113 (broadcastInDim S128 ![] bcast_S_S128 : (⟨S_, .f32⟩ : BufTy).Contents (Elt F) → (⟨S128, .f32⟩ : BufTy).Contents (Elt F)),
    binary main_arg16 main_v113 main_v114 (addf : (⟨S128, .f32⟩ : BufTy).Contents (Elt F) → (⟨S128, .f32⟩ : BufTy).Contents (Elt F) → (⟨S128, .f32⟩ : BufTy).Contents (Elt F)),
    unary main_v114 main_v115 (Host.rsqrt : (⟨S128, .f32⟩ : BufTy).Contents (Elt F) → (⟨S128, .f32⟩ : BufTy).Contents (Elt F)),
    unary main_v115 main_v116 (broadcastInDim S1x128 ![1] bcast_S128_S1x128_1 : (⟨S128, .f32⟩ : BufTy).Contents (Elt F) → (⟨S1x128, .f32⟩ : BufTy).Contents (Elt F)),
    unary main_v116 main_v117 (broadcastInDim S100000x128 ![0, 1] bcast_S1x128_S100000x128_0_1 : (⟨S1x128, .f32⟩ : BufTy).Contents (Elt F) → (⟨S100000x128, .f32⟩ : BufTy).Contents (Elt F)),
    binary main_v112 main_v117 main_v118 (mulf : (⟨S100000x128, .f32⟩ : BufTy).Contents (Elt F) → (⟨S100000x128, .f32⟩ : BufTy).Contents (Elt F) → (⟨S100000x128, .f32⟩ : BufTy).Contents (Elt F)),
    unary main_arg13 main_v119 (broadcastInDim S1x128 ![1] bcast_S128_S1x128_1 : (⟨S128, .f32⟩ : BufTy).Contents (Elt F) → (⟨S1x128, .f32⟩ : BufTy).Contents (Elt F)),
    unary main_v119 main_v120 (broadcastInDim S100000x128 ![0, 1] bcast_S1x128_S100000x128_0_1 : (⟨S1x128, .f32⟩ : BufTy).Contents (Elt F) → (⟨S100000x128, .f32⟩ : BufTy).Contents (Elt F)),
    binary main_v118 main_v120 main_v121 (mulf : (⟨S100000x128, .f32⟩ : BufTy).Contents (Elt F) → (⟨S100000x128, .f32⟩ : BufTy).Contents (Elt F) → (⟨S100000x128, .f32⟩ : BufTy).Contents (Elt F)),
    unary main_arg14 main_v122 (broadcastInDim S1x128 ![1] bcast_S128_S1x128_1 : (⟨S128, .f32⟩ : BufTy).Contents (Elt F) → (⟨S1x128, .f32⟩ : BufTy).Contents (Elt F)),
    unary main_v122 main_v123 (broadcastInDim S100000x128 ![0, 1] bcast_S1x128_S100000x128_0_1 : (⟨S1x128, .f32⟩ : BufTy).Contents (Elt F) → (⟨S100000x128, .f32⟩ : BufTy).Contents (Elt F)),
    binary main_v121 main_v123 main_v124 (addf : (⟨S100000x128, .f32⟩ : BufTy).Contents (Elt F) → (⟨S100000x128, .f32⟩ : BufTy).Contents (Elt F) → (⟨S100000x128, .f32⟩ : BufTy).Contents (Elt F)) ]

/-- The buffers those operations write. -/
abbrev segW2 : List (Ref sig .tc) :=
  [main_v67, main_v68, main_v69, main_v70, main_cst_12, main_v71, main_cst_13, main_v72, main_v73, main_v74, main_cst_14, main_v75, main_v76, main_v77, main_cst_15, main_call2_v0, main_call2_v1, main_v78, main_c_16, main_v79, main_v80, main_c_17, main_v81, main_v82, main_v83, main_v84, main_v85, main_c_18, main_v86, main_v87, main_c_19, main_v88, main_v89, main_v90, main_v91, main_v92, main_v93, main_c_20, main_v94, main_v95, main_c_21, main_v96, main_v97, main_v98, main_v99, main_v100, main_v101, main_v102, main_v103, main_cst_22, main_v104, main_v105, main_v106, main_v107, main_v108, main_v109, main_v110, main_v111, main_v112, main_cst_23, main_v113, main_v114, main_v115, main_v116, main_v117, main_v118, main_v119, main_v120, main_v121, main_v122, main_v123, main_v124]

set_option maxRecDepth 8192 in
theorem seg2_writes : (seg2 (F := F)).Forall fun op => op.writes ⊆ ((segW2).map (Proc.devRef (τ := τ) .tc)).toFinset :=
  ⟨wr1 main_v67 (by decide), wr1 main_v68 (by decide), wr1 main_v69 (by decide), wr1 main_v70 (by decide), wr1 main_cst_12 (by decide), wr1 main_v71 (by decide), wr1 main_cst_13 (by decide), wr1 main_v72 (by decide), wr1 main_v73 (by decide), wr1 main_v74 (by decide), wr1 main_cst_14 (by decide), wr1 main_v75 (by decide), wr1 main_v76 (by decide), wr1 main_v77 (by decide), wr1 main_cst_15 (by decide), wr1 main_call2_v0 (by decide), wr1 main_call2_v1 (by decide), wr1 main_v78 (by decide), wr1 main_c_16 (by decide), wr1 main_v79 (by decide), wr1 main_v80 (by decide), wr1 main_c_17 (by decide), wr1 main_v81 (by decide), wr1 main_v82 (by decide), wr1 main_v83 (by decide), wr1 main_v84 (by decide), wr1 main_v85 (by decide), wr1 main_c_18 (by decide), wr1 main_v86 (by decide), wr1 main_v87 (by decide), wr1 main_c_19 (by decide), wr1 main_v88 (by decide), wr1 main_v89 (by decide), wr1 main_v90 (by decide), wr1 main_v91 (by decide), wr1 main_v92 (by decide), wr1 main_v93 (by decide), wr1 main_c_20 (by decide), wr1 main_v94 (by decide), wr1 main_v95 (by decide), wr1 main_c_21 (by decide), wr1 main_v96 (by decide), wr1 main_v97 (by decide), wr1 main_v98 (by decide), wr1 main_v99 (by decide), wr1 main_v100 (by decide), wr1 main_v101 (by decide), wr1 main_v102 (by decide), wr1 main_v103 (by decide), wr1 main_cst_22 (by decide), wr1 main_v104 (by decide), wr1 main_v105 (by decide), wr1 main_v106 (by decide), wr1 main_v107 (by decide), wr1 main_v108 (by decide), wr1 main_v109 (by decide), wr1 main_v110 (by decide), wr1 main_v111 (by decide), wr1 main_v112 (by decide), wr1 main_cst_23 (by decide), wr1 main_v113 (by decide), wr1 main_v114 (by decide), wr1 main_v115 (by decide), wr1 main_v116 (by decide), wr1 main_v117 (by decide), wr1 main_v118 (by decide), wr1 main_v119 (by decide), wr1 main_v120 (by decide), wr1 main_v121 (by decide), wr1 main_v122 (by decide), wr1 main_v123 (by decide), wr1 main_v124 (by decide)⟩

/-- A buffer the segment does not write keeps its contents. -/
theorem seg2_keep (W : Valuation τ sig (Elt F)) (r : Ref sig .tc) (hr : r ∉ segW2) :
    after (seg2 (F := F)) W (Proc.devRef .tc r) = W (Proc.devRef .tc r) :=
  after_of_writes_sub _ W seg2_writes hr

set_option maxRecDepth 8192 in
set_option maxHeartbeats 4000000 in
theorem seg2_val (W : Valuation τ sig (Elt F)) (x0 : (⟨S100000x128, .f32⟩ : BufTy).Contents (Elt F)) (x1 : (⟨S2x1600000, .i32⟩ : BufTy).Contents (Elt F)) (x2 : (⟨S100000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F)) (x9 : (⟨S128, .f32⟩ : BufTy).Contents (Elt F)) (x10 : (⟨S128, .f32⟩ : BufTy).Contents (Elt F)) (x11 : (⟨S128, .f32⟩ : BufTy).Contents (Elt F)) (x12 : (⟨S128, .f32⟩ : BufTy).Contents (Elt F)) (x13 : (⟨S128, .f32⟩ : BufTy).Contents (Elt F)) (x14 : (⟨S128, .f32⟩ : BufTy).Contents (Elt F)) (x15 : (⟨S128, .f32⟩ : BufTy).Contents (Elt F)) (x16 : (⟨S128, .f32⟩ : BufTy).Contents (Elt F)) (x17 : (⟨S128, .f32⟩ : BufTy).Contents (Elt F)) (x18 : (⟨S128, .f32⟩ : BufTy).Contents (Elt F)) (x19 : (⟨S128, .f32⟩ : BufTy).Contents (Elt F)) (x20 : (⟨S128, .f32⟩ : BufTy).Contents (Elt F)) (x21 : (⟨S128x128, .f32⟩ : BufTy).Contents (Elt F)) (x22 : (⟨S128, .f32⟩ : BufTy).Contents (Elt F)) (x23 : (⟨S128x64, .f32⟩ : BufTy).Contents (Elt F)) (x24 : (⟨S64, .f32⟩ : BufTy).Contents (Elt F))
    (h_main_v66 : W (Proc.devRef .tc main_v66) = Read.val_main_v66 (F := F) x0 x1 x3 x4 x9 x10 x11 x12)
    (h_main_arg5 : W (Proc.devRef .tc main_arg5) = x5)
    (h_main_v1 : W (Proc.devRef .tc main_v1) = Read.val_main_v1 (F := F) x1)
    (h_main_v3 : W (Proc.devRef .tc main_v3) = Read.val_main_v3 (F := F) x1)
    (h_main_arg6 : W (Proc.devRef .tc main_arg6) = x6)
    (h_main_arg15 : W (Proc.devRef .tc main_arg15) = x15)
    (h_main_arg16 : W (Proc.devRef .tc main_arg16) = x16)
    (h_main_arg13 : W (Proc.devRef .tc main_arg13) = x13)
    (h_main_arg14 : W (Proc.devRef .tc main_arg14) = x14)
    (h_main_arg7 : W (Proc.devRef .tc main_arg7) = x7)
    (h_main_arg8 : W (Proc.devRef .tc main_arg8) = x8)
    (h_main_arg19 : W (Proc.devRef .tc main_arg19) = x19)
    (h_main_arg20 : W (Proc.devRef .tc main_arg20) = x20)
    (h_main_arg17 : W (Proc.devRef .tc main_arg17) = x17)
    (h_main_arg18 : W (Proc.devRef .tc main_arg18) = x18)
    (h_main_arg2 : W (Proc.devRef .tc main_arg2) = x2)
    (h_main_arg21 : W (Proc.devRef .tc main_arg21) = x21)
    (h_main_arg22 : W (Proc.devRef .tc main_arg22) = x22)
    (h_main_arg23 : W (Proc.devRef .tc main_arg23) = x23)
    (h_main_arg24 : W (Proc.devRef .tc main_arg24) = x24) :
    (after (seg2 (F := F)) W (Proc.devRef .tc main_v124) = Read.val_main_v124 (F := F) x0 x1 x3 x4 x5 x6 x9 x10 x11 x12 x13 x14 x15 x16) ∧
    (after (seg2 (F := F)) W (Proc.devRef .tc main_v66) = Read.val_main_v66 (F := F) x0 x1 x3 x4 x9 x10 x11 x12) ∧
    (after (seg2 (F := F)) W (Proc.devRef .tc main_arg7) = x7) ∧
    (after (seg2 (F := F)) W (Proc.devRef .tc main_v1) = Read.val_main_v1 (F := F) x1) ∧
    (after (seg2 (F := F)) W (Proc.devRef .tc main_v3) = Read.val_main_v3 (F := F) x1) ∧
    (after (seg2 (F := F)) W (Proc.devRef .tc main_arg8) = x8) ∧
    (after (seg2 (F := F)) W (Proc.devRef .tc main_arg19) = x19) ∧
    (after (seg2 (F := F)) W (Proc.devRef .tc main_arg20) = x20) ∧
    (after (seg2 (F := F)) W (Proc.devRef .tc main_arg17) = x17) ∧
    (after (seg2 (F := F)) W (Proc.devRef .tc main_arg18) = x18) ∧
    (after (seg2 (F := F)) W (Proc.devRef .tc main_arg2) = x2) ∧
    (after (seg2 (F := F)) W (Proc.devRef .tc main_arg21) = x21) ∧
    (after (seg2 (F := F)) W (Proc.devRef .tc main_arg22) = x22) ∧
    (after (seg2 (F := F)) W (Proc.devRef .tc main_arg23) = x23) ∧
    (after (seg2 (F := F)) W (Proc.devRef .tc main_arg24) = x24) :=
  ⟨by (after_results_simp; (try simp only [h_main_v66, h_main_arg5, h_main_v1, h_main_v3, h_main_arg6, h_main_arg15, h_main_arg16, h_main_arg13, h_main_arg14]) <;> rfl),
   (seg2_keep W main_v66 (by decide)).trans h_main_v66,
   (seg2_keep W main_arg7 (by decide)).trans h_main_arg7,
   (seg2_keep W main_v1 (by decide)).trans h_main_v1,
   (seg2_keep W main_v3 (by decide)).trans h_main_v3,
   (seg2_keep W main_arg8 (by decide)).trans h_main_arg8,
   (seg2_keep W main_arg19 (by decide)).trans h_main_arg19,
   (seg2_keep W main_arg20 (by decide)).trans h_main_arg20,
   (seg2_keep W main_arg17 (by decide)).trans h_main_arg17,
   (seg2_keep W main_arg18 (by decide)).trans h_main_arg18,
   (seg2_keep W main_arg2 (by decide)).trans h_main_arg2,
   (seg2_keep W main_arg21 (by decide)).trans h_main_arg21,
   (seg2_keep W main_arg22 (by decide)).trans h_main_arg22,
   (seg2_keep W main_arg23 (by decide)).trans h_main_arg23,
   (seg2_keep W main_arg24 (by decide)).trans h_main_arg24⟩

/-- Operations 155 to 162 of the reference's line. -/
abbrev seg3 : List (HloOp τ sig (Elt F)) :=
  [
    nullary main_cst_24 (constant S_ .f32 0x00000000#32),
    unary main_cst_24 main_v125 (broadcastInDim S100000x128 ![] bcast_S_S100000x128 : (⟨S_, .f32⟩ : BufTy).Contents (Elt F) → (⟨S100000x128, .f32⟩ : BufTy).Contents (Elt F)),
    binary main_v124 main_v125 main_v126 (cmpf .oge : (⟨S100000x128, .f32⟩ : BufTy).Contents (Elt F) → (⟨S100000x128, .f32⟩ : BufTy).Contents (Elt F) → (⟨S100000x128, .i1⟩ : BufTy).Contents (Elt F)),
    nullary main_cst_25 (constant S_ .f32 0x3C23D70A#32),
    unary main_cst_25 main_v127 (broadcastInDim S100000x128 ![] bcast_S_S100000x128 : (⟨S_, .f32⟩ : BufTy).Contents (Elt F) → (⟨S100000x128, .f32⟩ : BufTy).Contents (Elt F)),
    binary main_v127 main_v124 main_v128 (mulf : (⟨S100000x128, .f32⟩ : BufTy).Contents (Elt F) → (⟨S100000x128, .f32⟩ : BufTy).Contents (Elt F) → (⟨S100000x128, .f32⟩ : BufTy).Contents (Elt F)),
    TRef.ternary (TRef.of (T := ⟨S100000x128, .i1⟩) main_v126) (TRef.of (T := ⟨S100000x128, .f32⟩) main_v124) (TRef.of (T := ⟨S100000x128, .f32⟩) main_v128) (TRef.of (T := ⟨S100000x128, .f32⟩) main_v129) select,
    binary main_v129 main_v66 main_v130 (addf : (⟨S100000x128, .f32⟩ : BufTy).Contents (Elt F) → (⟨S100000x128, .f32⟩ : BufTy).Contents (Elt F) → (⟨S100000x128, .f32⟩ : BufTy).Contents (Elt F)) ]

/-- The buffers those operations write. -/
abbrev segW3 : List (Ref sig .tc) :=
  [main_cst_24, main_v125, main_v126, main_cst_25, main_v127, main_v128, main_v129, main_v130]

set_option maxRecDepth 8192 in
theorem seg3_writes : (seg3 (F := F)).Forall fun op => op.writes ⊆ ((segW3).map (Proc.devRef (τ := τ) .tc)).toFinset :=
  ⟨wr1 main_cst_24 (by decide), wr1 main_v125 (by decide), wr1 main_v126 (by decide), wr1 main_cst_25 (by decide), wr1 main_v127 (by decide), wr1 main_v128 (by decide), wr1 main_v129 (by decide), wr1 main_v130 (by decide)⟩

/-- A buffer the segment does not write keeps its contents. -/
theorem seg3_keep (W : Valuation τ sig (Elt F)) (r : Ref sig .tc) (hr : r ∉ segW3) :
    after (seg3 (F := F)) W (Proc.devRef .tc r) = W (Proc.devRef .tc r) :=
  after_of_writes_sub _ W seg3_writes hr

set_option maxRecDepth 8192 in
set_option maxHeartbeats 4000000 in
theorem seg3_val (W : Valuation τ sig (Elt F)) (x0 : (⟨S100000x128, .f32⟩ : BufTy).Contents (Elt F)) (x1 : (⟨S2x1600000, .i32⟩ : BufTy).Contents (Elt F)) (x2 : (⟨S100000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F)) (x9 : (⟨S128, .f32⟩ : BufTy).Contents (Elt F)) (x10 : (⟨S128, .f32⟩ : BufTy).Contents (Elt F)) (x11 : (⟨S128, .f32⟩ : BufTy).Contents (Elt F)) (x12 : (⟨S128, .f32⟩ : BufTy).Contents (Elt F)) (x13 : (⟨S128, .f32⟩ : BufTy).Contents (Elt F)) (x14 : (⟨S128, .f32⟩ : BufTy).Contents (Elt F)) (x15 : (⟨S128, .f32⟩ : BufTy).Contents (Elt F)) (x16 : (⟨S128, .f32⟩ : BufTy).Contents (Elt F)) (x17 : (⟨S128, .f32⟩ : BufTy).Contents (Elt F)) (x18 : (⟨S128, .f32⟩ : BufTy).Contents (Elt F)) (x19 : (⟨S128, .f32⟩ : BufTy).Contents (Elt F)) (x20 : (⟨S128, .f32⟩ : BufTy).Contents (Elt F)) (x21 : (⟨S128x128, .f32⟩ : BufTy).Contents (Elt F)) (x22 : (⟨S128, .f32⟩ : BufTy).Contents (Elt F)) (x23 : (⟨S128x64, .f32⟩ : BufTy).Contents (Elt F)) (x24 : (⟨S64, .f32⟩ : BufTy).Contents (Elt F))
    (h_main_v124 : W (Proc.devRef .tc main_v124) = Read.val_main_v124 (F := F) x0 x1 x3 x4 x5 x6 x9 x10 x11 x12 x13 x14 x15 x16)
    (h_main_v66 : W (Proc.devRef .tc main_v66) = Read.val_main_v66 (F := F) x0 x1 x3 x4 x9 x10 x11 x12)
    (h_main_arg7 : W (Proc.devRef .tc main_arg7) = x7)
    (h_main_v1 : W (Proc.devRef .tc main_v1) = Read.val_main_v1 (F := F) x1)
    (h_main_v3 : W (Proc.devRef .tc main_v3) = Read.val_main_v3 (F := F) x1)
    (h_main_arg8 : W (Proc.devRef .tc main_arg8) = x8)
    (h_main_arg19 : W (Proc.devRef .tc main_arg19) = x19)
    (h_main_arg20 : W (Proc.devRef .tc main_arg20) = x20)
    (h_main_arg17 : W (Proc.devRef .tc main_arg17) = x17)
    (h_main_arg18 : W (Proc.devRef .tc main_arg18) = x18)
    (h_main_arg2 : W (Proc.devRef .tc main_arg2) = x2)
    (h_main_arg21 : W (Proc.devRef .tc main_arg21) = x21)
    (h_main_arg22 : W (Proc.devRef .tc main_arg22) = x22)
    (h_main_arg23 : W (Proc.devRef .tc main_arg23) = x23)
    (h_main_arg24 : W (Proc.devRef .tc main_arg24) = x24) :
    (after (seg3 (F := F)) W (Proc.devRef .tc main_v130) = Read.val_main_v130 (F := F) x0 x1 x3 x4 x5 x6 x9 x10 x11 x12 x13 x14 x15 x16) ∧
    (after (seg3 (F := F)) W (Proc.devRef .tc main_arg7) = x7) ∧
    (after (seg3 (F := F)) W (Proc.devRef .tc main_v1) = Read.val_main_v1 (F := F) x1) ∧
    (after (seg3 (F := F)) W (Proc.devRef .tc main_v3) = Read.val_main_v3 (F := F) x1) ∧
    (after (seg3 (F := F)) W (Proc.devRef .tc main_arg8) = x8) ∧
    (after (seg3 (F := F)) W (Proc.devRef .tc main_arg19) = x19) ∧
    (after (seg3 (F := F)) W (Proc.devRef .tc main_arg20) = x20) ∧
    (after (seg3 (F := F)) W (Proc.devRef .tc main_arg17) = x17) ∧
    (after (seg3 (F := F)) W (Proc.devRef .tc main_arg18) = x18) ∧
    (after (seg3 (F := F)) W (Proc.devRef .tc main_arg2) = x2) ∧
    (after (seg3 (F := F)) W (Proc.devRef .tc main_arg21) = x21) ∧
    (after (seg3 (F := F)) W (Proc.devRef .tc main_arg22) = x22) ∧
    (after (seg3 (F := F)) W (Proc.devRef .tc main_arg23) = x23) ∧
    (after (seg3 (F := F)) W (Proc.devRef .tc main_arg24) = x24) :=
  ⟨by (after_results_simp; (try simp only [h_main_v124, h_main_v66]) <;> rfl),
   (seg3_keep W main_arg7 (by decide)).trans h_main_arg7,
   (seg3_keep W main_v1 (by decide)).trans h_main_v1,
   (seg3_keep W main_v3 (by decide)).trans h_main_v3,
   (seg3_keep W main_arg8 (by decide)).trans h_main_arg8,
   (seg3_keep W main_arg19 (by decide)).trans h_main_arg19,
   (seg3_keep W main_arg20 (by decide)).trans h_main_arg20,
   (seg3_keep W main_arg17 (by decide)).trans h_main_arg17,
   (seg3_keep W main_arg18 (by decide)).trans h_main_arg18,
   (seg3_keep W main_arg2 (by decide)).trans h_main_arg2,
   (seg3_keep W main_arg21 (by decide)).trans h_main_arg21,
   (seg3_keep W main_arg22 (by decide)).trans h_main_arg22,
   (seg3_keep W main_arg23 (by decide)).trans h_main_arg23,
   (seg3_keep W main_arg24 (by decide)).trans h_main_arg24⟩

/-- Operations 163 to 234 of the reference's line. -/
abbrev seg4 : List (HloOp τ sig (Elt F)) :=
  [
    binary main_v130 main_arg7 main_v131 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_v132 (iotaInDim S100000 32 0),
    binary main_v1 main_v132 main_v133 (cat2 (F := F) : (⟨S1600000, .i32⟩ : BufTy).Contents (Elt F) → (⟨S100000, .i32⟩ : BufTy).Contents (Elt F) → (⟨S1700000, .i32⟩ : BufTy).Contents (Elt F)),
    binary main_v3 main_v132 main_v134 (cat2 (F := F) : (⟨S1600000, .i32⟩ : BufTy).Contents (Elt F) → (⟨S100000, .i32⟩ : BufTy).Contents (Elt F) → (⟨S1700000, .i32⟩ : BufTy).Contents (Elt F)),
    nullary main_cst_26 (constant S_ .f32 0x3F800000#32),
    unary main_cst_26 main_v135 (broadcastInDim S1700000 ![] bcast_S_S1700000 : (⟨S_, .f32⟩ : BufTy).Contents (Elt F) → (⟨S1700000, .f32⟩ : BufTy).Contents (Elt F)),
    nullary main_cst_27 (constant S_ .f32 0x00000000#32),
    unary main_cst_27 main_v136 (broadcastInDim S100000 ![] bcast_S_S100000 : (⟨S_, .f32⟩ : BufTy).Contents (Elt F) → (⟨S100000, .f32⟩ : BufTy).Contents (Elt F)),
    unary main_v134 main_v137 (broadcastInDim S1700000x1 ![0] bcast_S1700000_S1700000x1_0 : (⟨S1700000, .i32⟩ : BufTy).Contents (Elt F) → (⟨S1700000x1, .i32⟩ : BufTy).Contents (Elt F)),
    ternary main_v136 main_v137 main_v135 main_v138 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_28 (constant S_ .f32 0x00000000#32),
    unary main_cst_28 main_v139 (broadcastInDim S100000 ![] bcast_S_S100000 : (⟨S_, .f32⟩ : BufTy).Contents (Elt F) → (⟨S100000, .f32⟩ : BufTy).Contents (Elt F)),
    binary main_v138 main_v139 main_v140 (cmpf .ogt : (⟨S100000, .f32⟩ : BufTy).Contents (Elt F) → (⟨S100000, .f32⟩ : BufTy).Contents (Elt F) → (⟨S100000, .i1⟩ : BufTy).Contents (Elt F)),
    unary main_v138 main_v141 (Host.rsqrt : (⟨S100000, .f32⟩ : BufTy).Contents (Elt F) → (⟨S100000, .f32⟩ : BufTy).Contents (Elt F)),
    nullary main_cst_29 (constant S_ .f32 0x00000000#32),
    TRef.unary (TRef.of (T := ⟨S_, .f32⟩) main_cst_29) (TRef.of (T := ⟨S_, .f32⟩) main_call4_v0) id,
    TRef.unary (TRef.of (T := ⟨S_, .f32⟩) main_call4_v0) (TRef.of (T := ⟨S100000, .f32⟩) main_call4_v1) (broadcastInDim S100000 ![] bcast_S_S100000),
    TRef.ternary (TRef.of (T := ⟨S100000, .i1⟩) main_v140) (TRef.of (T := ⟨S100000, .f32⟩) main_v141) (TRef.of (T := ⟨S100000, .f32⟩) main_call4_v1) (TRef.of (T := ⟨S100000, .f32⟩) main_v142) select,
    nullary main_c_30 (constantI S_ 32 0#32),
    unary main_c_30 main_v143 (broadcastInDim S1700000 ![] bcast_S_S1700000 : (⟨S_, .i32⟩ : BufTy).Contents (Elt F) → (⟨S1700000, .i32⟩ : BufTy).Contents (Elt F)),
    binary main_v133 main_v143 main_v144 (cmpi .slt : (⟨S1700000, .i32⟩ : BufTy).Contents (Elt F) → (⟨S1700000, .i32⟩ : BufTy).Contents (Elt F) → (⟨S1700000, .i1⟩ : BufTy).Contents (Elt F)),
    nullary main_c_31 (constantI S_ 32 100000#32),
    unary main_c_31 main_v145 (broadcastInDim S1700000 ![] bcast_S_S1700000 : (⟨S_, .i32⟩ : BufTy).Contents (Elt F) → (⟨S1700000, .i32⟩ : BufTy).Contents (Elt F)),
    binary main_v133 main_v145 main_v146 (addi : (⟨S1700000, .i32⟩ : BufTy).Contents (Elt F) → (⟨S1700000, .i32⟩ : BufTy).Contents (Elt F) → (⟨S1700000, .i32⟩ : BufTy).Contents (Elt F)),
    ternary main_v144 main_v146 main_v133 main_v147 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v147 main_v148 (broadcastInDim S1700000x1 ![0] bcast_S1700000_S1700000x1_0 : (⟨S1700000, .i32⟩ : BufTy).Contents (Elt F) → (⟨S1700000x1, .i32⟩ : BufTy).Contents (Elt F)),
    binary main_v142 main_v148 main_v149 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_32 (constantI S_ 32 0#32),
    unary main_c_32 main_v150 (broadcastInDim S1700000 ![] bcast_S_S1700000 : (⟨S_, .i32⟩ : BufTy).Contents (Elt F) → (⟨S1700000, .i32⟩ : BufTy).Contents (Elt F)),
    binary main_v134 main_v150 main_v151 (cmpi .slt : (⟨S1700000, .i32⟩ : BufTy).Contents (Elt F) → (⟨S1700000, .i32⟩ : BufTy).Contents (Elt F) → (⟨S1700000, .i1⟩ : BufTy).Contents (Elt F)),
    nullary main_c_33 (constantI S_ 32 100000#32),
    unary main_c_33 main_v152 (broadcastInDim S1700000 ![] bcast_S_S1700000 : (⟨S_, .i32⟩ : BufTy).Contents (Elt F) → (⟨S1700000, .i32⟩ : BufTy).Contents (Elt F)),
    binary main_v134 main_v152 main_v153 (addi : (⟨S1700000, .i32⟩ : BufTy).Contents (Elt F) → (⟨S1700000, .i32⟩ : BufTy).Contents (Elt F) → (⟨S1700000, .i32⟩ : BufTy).Contents (Elt F)),
    ternary main_v151 main_v153 main_v134 main_v154 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v154 main_v155 (broadcastInDim S1700000x1 ![0] bcast_S1700000_S1700000x1_0 : (⟨S1700000, .i32⟩ : BufTy).Contents (Elt F) → (⟨S1700000x1, .i32⟩ : BufTy).Contents (Elt F)),
    binary main_v142 main_v155 main_v156 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v149 main_v156 main_v157 (mulf : (⟨S1700000, .f32⟩ : BufTy).Contents (Elt F) → (⟨S1700000, .f32⟩ : BufTy).Contents (Elt F) → (⟨S1700000, .f32⟩ : BufTy).Contents (Elt F)),
    nullary main_c_34 (constantI S_ 32 0#32),
    unary main_c_34 main_v158 (broadcastInDim S1700000 ![] bcast_S_S1700000 : (⟨S_, .i32⟩ : BufTy).Contents (Elt F) → (⟨S1700000, .i32⟩ : BufTy).Contents (Elt F)),
    binary main_v133 main_v158 main_v159 (cmpi .slt : (⟨S1700000, .i32⟩ : BufTy).Contents (Elt F) → (⟨S1700000, .i32⟩ : BufTy).Contents (Elt F) → (⟨S1700000, .i1⟩ : BufTy).Contents (Elt F)),
    nullary main_c_35 (constantI S_ 32 100000#32),
    unary main_c_35 main_v160 (broadcastInDim S1700000 ![] bcast_S_S1700000 : (⟨S_, .i32⟩ : BufTy).Contents (Elt F) → (⟨S1700000, .i32⟩ : BufTy).Contents (Elt F)),
    binary main_v133 main_v160 main_v161 (addi : (⟨S1700000, .i32⟩ : BufTy).Contents (Elt F) → (⟨S1700000, .i32⟩ : BufTy).Contents (Elt F) → (⟨S1700000, .i32⟩ : BufTy).Contents (Elt F)),
    ternary main_v159 main_v161 main_v133 main_v162 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v162 main_v163 (broadcastInDim S1700000x1 ![0] bcast_S1700000_S1700000x1_0 : (⟨S1700000, .i32⟩ : BufTy).Contents (Elt F) → (⟨S1700000x1, .i32⟩ : BufTy).Contents (Elt F)),
    binary main_v131 main_v163 main_v164 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v157 main_v165 (broadcastInDim S1700000x1 ![0] bcast_S1700000_S1700000x1_0 : (⟨S1700000, .f32⟩ : BufTy).Contents (Elt F) → (⟨S1700000x1, .f32⟩ : BufTy).Contents (Elt F)),
    unary main_v165 main_v166 (broadcastInDim S1700000x128 ![0, 1] bcast_S1700000x1_S1700000x128_0_1 : (⟨S1700000x1, .f32⟩ : BufTy).Contents (Elt F) → (⟨S1700000x128, .f32⟩ : BufTy).Contents (Elt F)),
    binary main_v164 main_v166 main_v167 (mulf : (⟨S1700000x128, .f32⟩ : BufTy).Contents (Elt F) → (⟨S1700000x128, .f32⟩ : BufTy).Contents (Elt F) → (⟨S1700000x128, .f32⟩ : BufTy).Contents (Elt F)),
    nullary main_cst_36 (constant S_ .f32 0x00000000#32),
    unary main_cst_36 main_v168 (broadcastInDim S100000x128 ![] bcast_S_S100000x128 : (⟨S_, .f32⟩ : BufTy).Contents (Elt F) → (⟨S100000x128, .f32⟩ : BufTy).Contents (Elt F)),
    unary main_v134 main_v169 (broadcastInDim S1700000x1 ![0] bcast_S1700000_S1700000x1_0 : (⟨S1700000, .i32⟩ : BufTy).Contents (Elt F) → (⟨S1700000x1, .i32⟩ : BufTy).Contents (Elt F)),
    ternary main_v168 main_v169 main_v167 main_v170 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg8 main_v171 (broadcastInDim S1x128 ![1] bcast_S128_S1x128_1 : (⟨S128, .f32⟩ : BufTy).Contents (Elt F) → (⟨S1x128, .f32⟩ : BufTy).Contents (Elt F)),
    unary main_v171 main_v172 (broadcastInDim S100000x128 ![0, 1] bcast_S1x128_S100000x128_0_1 : (⟨S1x128, .f32⟩ : BufTy).Contents (Elt F) → (⟨S100000x128, .f32⟩ : BufTy).Contents (Elt F)),
    binary main_v170 main_v172 main_v173 (addf : (⟨S100000x128, .f32⟩ : BufTy).Contents (Elt F) → (⟨S100000x128, .f32⟩ : BufTy).Contents (Elt F) → (⟨S100000x128, .f32⟩ : BufTy).Contents (Elt F)),
    unary main_arg19 main_v174 (broadcastInDim S1x128 ![1] bcast_S128_S1x128_1 : (⟨S128, .f32⟩ : BufTy).Contents (Elt F) → (⟨S1x128, .f32⟩ : BufTy).Contents (Elt F)),
    unary main_v174 main_v175 (broadcastInDim S100000x128 ![0, 1] bcast_S1x128_S100000x128_0_1 : (⟨S1x128, .f32⟩ : BufTy).Contents (Elt F) → (⟨S100000x128, .f32⟩ : BufTy).Contents (Elt F)),
    binary main_v173 main_v175 main_v176 (subf : (⟨S100000x128, .f32⟩ : BufTy).Contents (Elt F) → (⟨S100000x128, .f32⟩ : BufTy).Contents (Elt F) → (⟨S100000x128, .f32⟩ : BufTy).Contents (Elt F)),
    nullary main_cst_37 (constant S_ .f32 0x3727C5AC#32),
    unary main_cst_37 main_v177 (broadcastInDim S128 ![] bcast_S_S128 : (⟨S_, .f32⟩ : BufTy).Contents (Elt F) → (⟨S128, .f32⟩ : BufTy).Contents (Elt F)),
    binary main_arg20 main_v177 main_v178 (addf : (⟨S128, .f32⟩ : BufTy).Contents (Elt F) → (⟨S128, .f32⟩ : BufTy).Contents (Elt F) → (⟨S128, .f32⟩ : BufTy).Contents (Elt F)),
    unary main_v178 main_v179 (Host.rsqrt : (⟨S128, .f32⟩ : BufTy).Contents (Elt F) → (⟨S128, .f32⟩ : BufTy).Contents (Elt F)),
    unary main_v179 main_v180 (broadcastInDim S1x128 ![1] bcast_S128_S1x128_1 : (⟨S128, .f32⟩ : BufTy).Contents (Elt F) → (⟨S1x128, .f32⟩ : BufTy).Contents (Elt F)),
    unary main_v180 main_v181 (broadcastInDim S100000x128 ![0, 1] bcast_S1x128_S100000x128_0_1 : (⟨S1x128, .f32⟩ : BufTy).Contents (Elt F) → (⟨S100000x128, .f32⟩ : BufTy).Contents (Elt F)),
    binary main_v176 main_v181 main_v182 (mulf : (⟨S100000x128, .f32⟩ : BufTy).Contents (Elt F) → (⟨S100000x128, .f32⟩ : BufTy).Contents (Elt F) → (⟨S100000x128, .f32⟩ : BufTy).Contents (Elt F)),
    unary main_arg17 main_v183 (broadcastInDim S1x128 ![1] bcast_S128_S1x128_1 : (⟨S128, .f32⟩ : BufTy).Contents (Elt F) → (⟨S1x128, .f32⟩ : BufTy).Contents (Elt F)),
    unary main_v183 main_v184 (broadcastInDim S100000x128 ![0, 1] bcast_S1x128_S100000x128_0_1 : (⟨S1x128, .f32⟩ : BufTy).Contents (Elt F) → (⟨S100000x128, .f32⟩ : BufTy).Contents (Elt F)),
    binary main_v182 main_v184 main_v185 (mulf : (⟨S100000x128, .f32⟩ : BufTy).Contents (Elt F) → (⟨S100000x128, .f32⟩ : BufTy).Contents (Elt F) → (⟨S100000x128, .f32⟩ : BufTy).Contents (Elt F)),
    unary main_arg18 main_v186 (broadcastInDim S1x128 ![1] bcast_S128_S1x128_1 : (⟨S128, .f32⟩ : BufTy).Contents (Elt F) → (⟨S1x128, .f32⟩ : BufTy).Contents (Elt F)),
    unary main_v186 main_v187 (broadcastInDim S100000x128 ![0, 1] bcast_S1x128_S100000x128_0_1 : (⟨S1x128, .f32⟩ : BufTy).Contents (Elt F) → (⟨S100000x128, .f32⟩ : BufTy).Contents (Elt F)),
    binary main_v185 main_v187 main_v188 (addf : (⟨S100000x128, .f32⟩ : BufTy).Contents (Elt F) → (⟨S100000x128, .f32⟩ : BufTy).Contents (Elt F) → (⟨S100000x128, .f32⟩ : BufTy).Contents (Elt F)) ]

/-- The buffers those operations write. -/
abbrev segW4 : List (Ref sig .tc) :=
  [main_v131, main_v132, main_v133, main_v134, main_cst_26, main_v135, main_cst_27, main_v136, main_v137, main_v138, main_cst_28, main_v139, main_v140, main_v141, main_cst_29, main_call4_v0, main_call4_v1, main_v142, main_c_30, main_v143, main_v144, main_c_31, main_v145, main_v146, main_v147, main_v148, main_v149, main_c_32, main_v150, main_v151, main_c_33, main_v152, main_v153, main_v154, main_v155, main_v156, main_v157, main_c_34, main_v158, main_v159, main_c_35, main_v160, main_v161, main_v162, main_v163, main_v164, main_v165, main_v166, main_v167, main_cst_36, main_v168, main_v169, main_v170, main_v171, main_v172, main_v173, main_v174, main_v175, main_v176, main_cst_37, main_v177, main_v178, main_v179, main_v180, main_v181, main_v182, main_v183, main_v184, main_v185, main_v186, main_v187, main_v188]

set_option maxRecDepth 8192 in
theorem seg4_writes : (seg4 (F := F)).Forall fun op => op.writes ⊆ ((segW4).map (Proc.devRef (τ := τ) .tc)).toFinset :=
  ⟨wr1 main_v131 (by decide), wr1 main_v132 (by decide), wr1 main_v133 (by decide), wr1 main_v134 (by decide), wr1 main_cst_26 (by decide), wr1 main_v135 (by decide), wr1 main_cst_27 (by decide), wr1 main_v136 (by decide), wr1 main_v137 (by decide), wr1 main_v138 (by decide), wr1 main_cst_28 (by decide), wr1 main_v139 (by decide), wr1 main_v140 (by decide), wr1 main_v141 (by decide), wr1 main_cst_29 (by decide), wr1 main_call4_v0 (by decide), wr1 main_call4_v1 (by decide), wr1 main_v142 (by decide), wr1 main_c_30 (by decide), wr1 main_v143 (by decide), wr1 main_v144 (by decide), wr1 main_c_31 (by decide), wr1 main_v145 (by decide), wr1 main_v146 (by decide), wr1 main_v147 (by decide), wr1 main_v148 (by decide), wr1 main_v149 (by decide), wr1 main_c_32 (by decide), wr1 main_v150 (by decide), wr1 main_v151 (by decide), wr1 main_c_33 (by decide), wr1 main_v152 (by decide), wr1 main_v153 (by decide), wr1 main_v154 (by decide), wr1 main_v155 (by decide), wr1 main_v156 (by decide), wr1 main_v157 (by decide), wr1 main_c_34 (by decide), wr1 main_v158 (by decide), wr1 main_v159 (by decide), wr1 main_c_35 (by decide), wr1 main_v160 (by decide), wr1 main_v161 (by decide), wr1 main_v162 (by decide), wr1 main_v163 (by decide), wr1 main_v164 (by decide), wr1 main_v165 (by decide), wr1 main_v166 (by decide), wr1 main_v167 (by decide), wr1 main_cst_36 (by decide), wr1 main_v168 (by decide), wr1 main_v169 (by decide), wr1 main_v170 (by decide), wr1 main_v171 (by decide), wr1 main_v172 (by decide), wr1 main_v173 (by decide), wr1 main_v174 (by decide), wr1 main_v175 (by decide), wr1 main_v176 (by decide), wr1 main_cst_37 (by decide), wr1 main_v177 (by decide), wr1 main_v178 (by decide), wr1 main_v179 (by decide), wr1 main_v180 (by decide), wr1 main_v181 (by decide), wr1 main_v182 (by decide), wr1 main_v183 (by decide), wr1 main_v184 (by decide), wr1 main_v185 (by decide), wr1 main_v186 (by decide), wr1 main_v187 (by decide), wr1 main_v188 (by decide)⟩

/-- A buffer the segment does not write keeps its contents. -/
theorem seg4_keep (W : Valuation τ sig (Elt F)) (r : Ref sig .tc) (hr : r ∉ segW4) :
    after (seg4 (F := F)) W (Proc.devRef .tc r) = W (Proc.devRef .tc r) :=
  after_of_writes_sub _ W seg4_writes hr

set_option maxRecDepth 8192 in
set_option maxHeartbeats 4000000 in
theorem seg4_val (W : Valuation τ sig (Elt F)) (x0 : (⟨S100000x128, .f32⟩ : BufTy).Contents (Elt F)) (x1 : (⟨S2x1600000, .i32⟩ : BufTy).Contents (Elt F)) (x2 : (⟨S100000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F)) (x9 : (⟨S128, .f32⟩ : BufTy).Contents (Elt F)) (x10 : (⟨S128, .f32⟩ : BufTy).Contents (Elt F)) (x11 : (⟨S128, .f32⟩ : BufTy).Contents (Elt F)) (x12 : (⟨S128, .f32⟩ : BufTy).Contents (Elt F)) (x13 : (⟨S128, .f32⟩ : BufTy).Contents (Elt F)) (x14 : (⟨S128, .f32⟩ : BufTy).Contents (Elt F)) (x15 : (⟨S128, .f32⟩ : BufTy).Contents (Elt F)) (x16 : (⟨S128, .f32⟩ : BufTy).Contents (Elt F)) (x17 : (⟨S128, .f32⟩ : BufTy).Contents (Elt F)) (x18 : (⟨S128, .f32⟩ : BufTy).Contents (Elt F)) (x19 : (⟨S128, .f32⟩ : BufTy).Contents (Elt F)) (x20 : (⟨S128, .f32⟩ : BufTy).Contents (Elt F)) (x21 : (⟨S128x128, .f32⟩ : BufTy).Contents (Elt F)) (x22 : (⟨S128, .f32⟩ : BufTy).Contents (Elt F)) (x23 : (⟨S128x64, .f32⟩ : BufTy).Contents (Elt F)) (x24 : (⟨S64, .f32⟩ : BufTy).Contents (Elt F))
    (h_main_v130 : W (Proc.devRef .tc main_v130) = Read.val_main_v130 (F := F) x0 x1 x3 x4 x5 x6 x9 x10 x11 x12 x13 x14 x15 x16)
    (h_main_arg7 : W (Proc.devRef .tc main_arg7) = x7)
    (h_main_v1 : W (Proc.devRef .tc main_v1) = Read.val_main_v1 (F := F) x1)
    (h_main_v3 : W (Proc.devRef .tc main_v3) = Read.val_main_v3 (F := F) x1)
    (h_main_arg8 : W (Proc.devRef .tc main_arg8) = x8)
    (h_main_arg19 : W (Proc.devRef .tc main_arg19) = x19)
    (h_main_arg20 : W (Proc.devRef .tc main_arg20) = x20)
    (h_main_arg17 : W (Proc.devRef .tc main_arg17) = x17)
    (h_main_arg18 : W (Proc.devRef .tc main_arg18) = x18)
    (h_main_arg2 : W (Proc.devRef .tc main_arg2) = x2)
    (h_main_arg21 : W (Proc.devRef .tc main_arg21) = x21)
    (h_main_arg22 : W (Proc.devRef .tc main_arg22) = x22)
    (h_main_arg23 : W (Proc.devRef .tc main_arg23) = x23)
    (h_main_arg24 : W (Proc.devRef .tc main_arg24) = x24) :
    (after (seg4 (F := F)) W (Proc.devRef .tc main_v188) = Read.val_main_v188 (F := F) x0 x1 x3 x4 x5 x6 x7 x8 x9 x10 x11 x12 x13 x14 x15 x16 x17 x18 x19 x20) ∧
    (after (seg4 (F := F)) W (Proc.devRef .tc main_v130) = Read.val_main_v130 (F := F) x0 x1 x3 x4 x5 x6 x9 x10 x11 x12 x13 x14 x15 x16) ∧
    (after (seg4 (F := F)) W (Proc.devRef .tc main_arg2) = x2) ∧
    (after (seg4 (F := F)) W (Proc.devRef .tc main_arg21) = x21) ∧
    (after (seg4 (F := F)) W (Proc.devRef .tc main_arg22) = x22) ∧
    (after (seg4 (F := F)) W (Proc.devRef .tc main_arg23) = x23) ∧
    (after (seg4 (F := F)) W (Proc.devRef .tc main_arg24) = x24) :=
  ⟨by (after_results_simp; (try simp only [h_main_v130, h_main_arg7, h_main_v1, h_main_v3, h_main_arg8, h_main_arg19, h_main_arg20, h_main_arg17, h_main_arg18]) <;> rfl),
   (seg4_keep W main_v130 (by decide)).trans h_main_v130,
   (seg4_keep W main_arg2 (by decide)).trans h_main_arg2,
   (seg4_keep W main_arg21 (by decide)).trans h_main_arg21,
   (seg4_keep W main_arg22 (by decide)).trans h_main_arg22,
   (seg4_keep W main_arg23 (by decide)).trans h_main_arg23,
   (seg4_keep W main_arg24 (by decide)).trans h_main_arg24⟩

/-- Operations 235 to 242 of the reference's line. -/
abbrev seg5 : List (HloOp τ sig (Elt F)) :=
  [
    nullary main_cst_38 (constant S_ .f32 0x00000000#32),
    unary main_cst_38 main_v189 (broadcastInDim S100000x128 ![] bcast_S_S100000x128 : (⟨S_, .f32⟩ : BufTy).Contents (Elt F) → (⟨S100000x128, .f32⟩ : BufTy).Contents (Elt F)),
    binary main_v188 main_v189 main_v190 (cmpf .oge : (⟨S100000x128, .f32⟩ : BufTy).Contents (Elt F) → (⟨S100000x128, .f32⟩ : BufTy).Contents (Elt F) → (⟨S100000x128, .i1⟩ : BufTy).Contents (Elt F)),
    nullary main_cst_39 (constant S_ .f32 0x3C23D70A#32),
    unary main_cst_39 main_v191 (broadcastInDim S100000x128 ![] bcast_S_S100000x128 : (⟨S_, .f32⟩ : BufTy).Contents (Elt F) → (⟨S100000x128, .f32⟩ : BufTy).Contents (Elt F)),
    binary main_v191 main_v188 main_v192 (mulf : (⟨S100000x128, .f32⟩ : BufTy).Contents (Elt F) → (⟨S100000x128, .f32⟩ : BufTy).Contents (Elt F) → (⟨S100000x128, .f32⟩ : BufTy).Contents (Elt F)),
    TRef.ternary (TRef.of (T := ⟨S100000x128, .i1⟩) main_v190) (TRef.of (T := ⟨S100000x128, .f32⟩) main_v188) (TRef.of (T := ⟨S100000x128, .f32⟩) main_v192) (TRef.of (T := ⟨S100000x128, .f32⟩) main_v193) select,
    binary main_v193 main_v130 main_v194 (addf : (⟨S100000x128, .f32⟩ : BufTy).Contents (Elt F) → (⟨S100000x128, .f32⟩ : BufTy).Contents (Elt F) → (⟨S100000x128, .f32⟩ : BufTy).Contents (Elt F)) ]

/-- The buffers those operations write. -/
abbrev segW5 : List (Ref sig .tc) :=
  [main_cst_38, main_v189, main_v190, main_cst_39, main_v191, main_v192, main_v193, main_v194]

set_option maxRecDepth 8192 in
theorem seg5_writes : (seg5 (F := F)).Forall fun op => op.writes ⊆ ((segW5).map (Proc.devRef (τ := τ) .tc)).toFinset :=
  ⟨wr1 main_cst_38 (by decide), wr1 main_v189 (by decide), wr1 main_v190 (by decide), wr1 main_cst_39 (by decide), wr1 main_v191 (by decide), wr1 main_v192 (by decide), wr1 main_v193 (by decide), wr1 main_v194 (by decide)⟩

/-- A buffer the segment does not write keeps its contents. -/
theorem seg5_keep (W : Valuation τ sig (Elt F)) (r : Ref sig .tc) (hr : r ∉ segW5) :
    after (seg5 (F := F)) W (Proc.devRef .tc r) = W (Proc.devRef .tc r) :=
  after_of_writes_sub _ W seg5_writes hr

set_option maxRecDepth 8192 in
set_option maxHeartbeats 4000000 in
theorem seg5_val (W : Valuation τ sig (Elt F)) (x0 : (⟨S100000x128, .f32⟩ : BufTy).Contents (Elt F)) (x1 : (⟨S2x1600000, .i32⟩ : BufTy).Contents (Elt F)) (x2 : (⟨S100000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F)) (x9 : (⟨S128, .f32⟩ : BufTy).Contents (Elt F)) (x10 : (⟨S128, .f32⟩ : BufTy).Contents (Elt F)) (x11 : (⟨S128, .f32⟩ : BufTy).Contents (Elt F)) (x12 : (⟨S128, .f32⟩ : BufTy).Contents (Elt F)) (x13 : (⟨S128, .f32⟩ : BufTy).Contents (Elt F)) (x14 : (⟨S128, .f32⟩ : BufTy).Contents (Elt F)) (x15 : (⟨S128, .f32⟩ : BufTy).Contents (Elt F)) (x16 : (⟨S128, .f32⟩ : BufTy).Contents (Elt F)) (x17 : (⟨S128, .f32⟩ : BufTy).Contents (Elt F)) (x18 : (⟨S128, .f32⟩ : BufTy).Contents (Elt F)) (x19 : (⟨S128, .f32⟩ : BufTy).Contents (Elt F)) (x20 : (⟨S128, .f32⟩ : BufTy).Contents (Elt F)) (x21 : (⟨S128x128, .f32⟩ : BufTy).Contents (Elt F)) (x22 : (⟨S128, .f32⟩ : BufTy).Contents (Elt F)) (x23 : (⟨S128x64, .f32⟩ : BufTy).Contents (Elt F)) (x24 : (⟨S64, .f32⟩ : BufTy).Contents (Elt F))
    (h_main_v188 : W (Proc.devRef .tc main_v188) = Read.val_main_v188 (F := F) x0 x1 x3 x4 x5 x6 x7 x8 x9 x10 x11 x12 x13 x14 x15 x16 x17 x18 x19 x20)
    (h_main_v130 : W (Proc.devRef .tc main_v130) = Read.val_main_v130 (F := F) x0 x1 x3 x4 x5 x6 x9 x10 x11 x12 x13 x14 x15 x16)
    (h_main_arg2 : W (Proc.devRef .tc main_arg2) = x2)
    (h_main_arg21 : W (Proc.devRef .tc main_arg21) = x21)
    (h_main_arg22 : W (Proc.devRef .tc main_arg22) = x22)
    (h_main_arg23 : W (Proc.devRef .tc main_arg23) = x23)
    (h_main_arg24 : W (Proc.devRef .tc main_arg24) = x24) :
    (after (seg5 (F := F)) W (Proc.devRef .tc main_arg2) = x2) ∧
    (after (seg5 (F := F)) W (Proc.devRef .tc main_v194) = Read.val_main_v194 (F := F) x0 x1 x3 x4 x5 x6 x7 x8 x9 x10 x11 x12 x13 x14 x15 x16 x17 x18 x19 x20) ∧
    (after (seg5 (F := F)) W (Proc.devRef .tc main_arg21) = x21) ∧
    (after (seg5 (F := F)) W (Proc.devRef .tc main_arg22) = x22) ∧
    (after (seg5 (F := F)) W (Proc.devRef .tc main_arg23) = x23) ∧
    (after (seg5 (F := F)) W (Proc.devRef .tc main_arg24) = x24) :=
  ⟨(seg5_keep W main_arg2 (by decide)).trans h_main_arg2,
   by (after_results_simp; (try simp only [h_main_v188, h_main_v130]) <;> rfl),
   (seg5_keep W main_arg21 (by decide)).trans h_main_arg21,
   (seg5_keep W main_arg22 (by decide)).trans h_main_arg22,
   (seg5_keep W main_arg23 (by decide)).trans h_main_arg23,
   (seg5_keep W main_arg24 (by decide)).trans h_main_arg24⟩

/-- Operations 243 to 262 of the reference's line. -/
abbrev seg6 : List (HloOp τ sig (Elt F)) :=
  [
    nullary main_cst_40 (constant S_ .f32 0x3F800000#32),
    unary main_cst_40 main_v195 (broadcastInDim S100000 ![] bcast_S_S100000 : (⟨S_, .f32⟩ : BufTy).Contents (Elt F) → (⟨S100000, .f32⟩ : BufTy).Contents (Elt F)),
    nullary main_cst_41 (constant S_ .f32 0x00000000#32),
    unary main_cst_41 main_v196 (broadcastInDim S64 ![] bcast_S_S64 : (⟨S_, .f32⟩ : BufTy).Contents (Elt F) → (⟨S64, .f32⟩ : BufTy).Contents (Elt F)),
    unary main_arg2 main_v197 (broadcastInDim S100000x1 ![0] bcast_S100000_S100000x1_0 : (⟨S100000, .i32⟩ : BufTy).Contents (Elt F) → (⟨S100000x1, .i32⟩ : BufTy).Contents (Elt F)),
    ternary main_v196 main_v197 main_v195 main_v198 ((fun x i u => Host.scatterAdd scatter_S64_S100000x1_S100000_n_0_0_1 x i u) : (⟨S64, .f32⟩ : BufTy).Contents (Elt F) → (⟨S100000x1, .i32⟩ : BufTy).Contents (Elt F) → (⟨S100000, .f32⟩ : BufTy).Contents (Elt F) → (⟨S64, .f32⟩ : BufTy).Contents (Elt F)),
    nullary main_cst_42 (constant S_ .f32 0x00000000#32),
    unary main_cst_42 main_v199 (broadcastInDim S64x128 ![] bcast_S_S64x128 : (⟨S_, .f32⟩ : BufTy).Contents (Elt F) → (⟨S64x128, .f32⟩ : BufTy).Contents (Elt F)),
    unary main_arg2 main_v200 (broadcastInDim S100000x1 ![0] bcast_S100000_S100000x1_0 : (⟨S100000, .i32⟩ : BufTy).Contents (Elt F) → (⟨S100000x1, .i32⟩ : BufTy).Contents (Elt F)),
    ternary main_v199 main_v200 main_v194 main_v201 ((fun x i u => Host.scatterAdd scatter_S64x128_S100000x1_S100000x128_1_0_0_1 x i u) : (⟨S64x128, .f32⟩ : BufTy).Contents (Elt F) → (⟨S100000x1, .i32⟩ : BufTy).Contents (Elt F) → (⟨S100000x128, .f32⟩ : BufTy).Contents (Elt F) → (⟨S64x128, .f32⟩ : BufTy).Contents (Elt F)),
    nullary main_cst_43 (constant S_ .f32 0x3F800000#32),
    unary main_cst_43 main_v202 (broadcastInDim S64 ![] bcast_S_S64 : (⟨S_, .f32⟩ : BufTy).Contents (Elt F) → (⟨S64, .f32⟩ : BufTy).Contents (Elt F)),
    binary main_v198 main_v202 main_v203 (maximumf : (⟨S64, .f32⟩ : BufTy).Contents (Elt F) → (⟨S64, .f32⟩ : BufTy).Contents (Elt F) → (⟨S64, .f32⟩ : BufTy).Contents (Elt F)),
    unary main_v203 main_v204 (broadcastInDim S64x1 ![0] bcast_S64_S64x1_0 : (⟨S64, .f32⟩ : BufTy).Contents (Elt F) → (⟨S64x1, .f32⟩ : BufTy).Contents (Elt F)),
    unary main_v204 main_v205 (broadcastInDim S64x128 ![0, 1] bcast_S64x1_S64x128_0_1 : (⟨S64x1, .f32⟩ : BufTy).Contents (Elt F) → (⟨S64x128, .f32⟩ : BufTy).Contents (Elt F)),
    binary main_v201 main_v205 main_v206 (Host.divf : (⟨S64x128, .f32⟩ : BufTy).Contents (Elt F) → (⟨S64x128, .f32⟩ : BufTy).Contents (Elt F) → (⟨S64x128, .f32⟩ : BufTy).Contents (Elt F)),
    binary main_v206 main_arg21 main_v207 ((fun l r => Host.dotGeneral dot_S64x128_S128x128_S64x128_1_0_0_1_n_n none l r) : (⟨S64x128, .f32⟩ : BufTy).Contents (Elt F) → (⟨S128x128, .f32⟩ : BufTy).Contents (Elt F) → (⟨S64x128, .f32⟩ : BufTy).Contents (Elt F)),
    unary main_arg22 main_v208 (broadcastInDim S1x128 ![1] bcast_S128_S1x128_1 : (⟨S128, .f32⟩ : BufTy).Contents (Elt F) → (⟨S1x128, .f32⟩ : BufTy).Contents (Elt F)),
    unary main_v208 main_v209 (broadcastInDim S64x128 ![0, 1] bcast_S1x128_S64x128_0_1 : (⟨S1x128, .f32⟩ : BufTy).Contents (Elt F) → (⟨S64x128, .f32⟩ : BufTy).Contents (Elt F)),
    binary main_v207 main_v209 main_v210 (addf : (⟨S64x128, .f32⟩ : BufTy).Contents (Elt F) → (⟨S64x128, .f32⟩ : BufTy).Contents (Elt F) → (⟨S64x128, .f32⟩ : BufTy).Contents (Elt F)) ]

/-- The buffers those operations write. -/
abbrev segW6 : List (Ref sig .tc) :=
  [main_cst_40, main_v195, main_cst_41, main_v196, main_v197, main_v198, main_cst_42, main_v199, main_v200, main_v201, main_cst_43, main_v202, main_v203, main_v204, main_v205, main_v206, main_v207, main_v208, main_v209, main_v210]

set_option maxRecDepth 8192 in
theorem seg6_writes : (seg6 (F := F)).Forall fun op => op.writes ⊆ ((segW6).map (Proc.devRef (τ := τ) .tc)).toFinset :=
  ⟨wr1 main_cst_40 (by decide), wr1 main_v195 (by decide), wr1 main_cst_41 (by decide), wr1 main_v196 (by decide), wr1 main_v197 (by decide), wr1 main_v198 (by decide), wr1 main_cst_42 (by decide), wr1 main_v199 (by decide), wr1 main_v200 (by decide), wr1 main_v201 (by decide), wr1 main_cst_43 (by decide), wr1 main_v202 (by decide), wr1 main_v203 (by decide), wr1 main_v204 (by decide), wr1 main_v205 (by decide), wr1 main_v206 (by decide), wr1 main_v207 (by decide), wr1 main_v208 (by decide), wr1 main_v209 (by decide), wr1 main_v210 (by decide)⟩

/-- A buffer the segment does not write keeps its contents. -/
theorem seg6_keep (W : Valuation τ sig (Elt F)) (r : Ref sig .tc) (hr : r ∉ segW6) :
    after (seg6 (F := F)) W (Proc.devRef .tc r) = W (Proc.devRef .tc r) :=
  after_of_writes_sub _ W seg6_writes hr

set_option maxRecDepth 8192 in
set_option maxHeartbeats 4000000 in
theorem seg6_val (W : Valuation τ sig (Elt F)) (x0 : (⟨S100000x128, .f32⟩ : BufTy).Contents (Elt F)) (x1 : (⟨S2x1600000, .i32⟩ : BufTy).Contents (Elt F)) (x2 : (⟨S100000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F)) (x9 : (⟨S128, .f32⟩ : BufTy).Contents (Elt F)) (x10 : (⟨S128, .f32⟩ : BufTy).Contents (Elt F)) (x11 : (⟨S128, .f32⟩ : BufTy).Contents (Elt F)) (x12 : (⟨S128, .f32⟩ : BufTy).Contents (Elt F)) (x13 : (⟨S128, .f32⟩ : BufTy).Contents (Elt F)) (x14 : (⟨S128, .f32⟩ : BufTy).Contents (Elt F)) (x15 : (⟨S128, .f32⟩ : BufTy).Contents (Elt F)) (x16 : (⟨S128, .f32⟩ : BufTy).Contents (Elt F)) (x17 : (⟨S128, .f32⟩ : BufTy).Contents (Elt F)) (x18 : (⟨S128, .f32⟩ : BufTy).Contents (Elt F)) (x19 : (⟨S128, .f32⟩ : BufTy).Contents (Elt F)) (x20 : (⟨S128, .f32⟩ : BufTy).Contents (Elt F)) (x21 : (⟨S128x128, .f32⟩ : BufTy).Contents (Elt F)) (x22 : (⟨S128, .f32⟩ : BufTy).Contents (Elt F)) (x23 : (⟨S128x64, .f32⟩ : BufTy).Contents (Elt F)) (x24 : (⟨S64, .f32⟩ : BufTy).Contents (Elt F))
    (h_main_arg2 : W (Proc.devRef .tc main_arg2) = x2)
    (h_main_v194 : W (Proc.devRef .tc main_v194) = Read.val_main_v194 (F := F) x0 x1 x3 x4 x5 x6 x7 x8 x9 x10 x11 x12 x13 x14 x15 x16 x17 x18 x19 x20)
    (h_main_arg21 : W (Proc.devRef .tc main_arg21) = x21)
    (h_main_arg22 : W (Proc.devRef .tc main_arg22) = x22)
    (h_main_arg23 : W (Proc.devRef .tc main_arg23) = x23)
    (h_main_arg24 : W (Proc.devRef .tc main_arg24) = x24) :
    (after (seg6 (F := F)) W (Proc.devRef .tc main_v210) = Read.val_main_v210 (F := F) x0 x1 x2 x3 x4 x5 x6 x7 x8 x9 x10 x11 x12 x13 x14 x15 x16 x17 x18 x19 x20 x21 x22) ∧
    (after (seg6 (F := F)) W (Proc.devRef .tc main_arg23) = x23) ∧
    (after (seg6 (F := F)) W (Proc.devRef .tc main_arg24) = x24) :=
  ⟨by (after_results_simp; (try simp only [h_main_arg2, h_main_v194, h_main_arg21, h_main_arg22]) <;> rfl),
   (seg6_keep W main_arg23 (by decide)).trans h_main_arg23,
   (seg6_keep W main_arg24 (by decide)).trans h_main_arg24⟩

/-- Operations 263 to 273 of the reference's line. -/
abbrev seg7 : List (HloOp τ sig (Elt F)) :=
  [
    nullary main_cst_44 (constant S_ .f32 0x00000000#32),
    unary main_cst_44 main_v211 (broadcastInDim S64x128 ![] bcast_S_S64x128 : (⟨S_, .f32⟩ : BufTy).Contents (Elt F) → (⟨S64x128, .f32⟩ : BufTy).Contents (Elt F)),
    binary main_v210 main_v211 main_v212 (cmpf .oge : (⟨S64x128, .f32⟩ : BufTy).Contents (Elt F) → (⟨S64x128, .f32⟩ : BufTy).Contents (Elt F) → (⟨S64x128, .i1⟩ : BufTy).Contents (Elt F)),
    nullary main_cst_45 (constant S_ .f32 0x3C23D70A#32),
    unary main_cst_45 main_v213 (broadcastInDim S64x128 ![] bcast_S_S64x128 : (⟨S_, .f32⟩ : BufTy).Contents (Elt F) → (⟨S64x128, .f32⟩ : BufTy).Contents (Elt F)),
    binary main_v213 main_v210 main_v214 (mulf : (⟨S64x128, .f32⟩ : BufTy).Contents (Elt F) → (⟨S64x128, .f32⟩ : BufTy).Contents (Elt F) → (⟨S64x128, .f32⟩ : BufTy).Contents (Elt F)),
    TRef.ternary (TRef.of (T := ⟨S64x128, .i1⟩) main_v212) (TRef.of (T := ⟨S64x128, .f32⟩) main_v210) (TRef.of (T := ⟨S64x128, .f32⟩) main_v214) (TRef.of (T := ⟨S64x128, .f32⟩) main_v215) select,
    binary main_v215 main_arg23 main_v216 ((fun l r => Host.dotGeneral dot_S64x128_S128x64_S64x64_1_0_0_1_n_n none l r) : (⟨S64x128, .f32⟩ : BufTy).Contents (Elt F) → (⟨S128x64, .f32⟩ : BufTy).Contents (Elt F) → (⟨S64x64, .f32⟩ : BufTy).Contents (Elt F)),
    unary main_arg24 main_v217 (broadcastInDim S1x64 ![1] bcast_S64_S1x64_1 : (⟨S64, .f32⟩ : BufTy).Contents (Elt F) → (⟨S1x64, .f32⟩ : BufTy).Contents (Elt F)),
    unary main_v217 main_v218 (broadcastInDim S64x64 ![0, 1] bcast_S1x64_S64x64_0_1 : (⟨S1x64, .f32⟩ : BufTy).Contents (Elt F) → (⟨S64x64, .f32⟩ : BufTy).Contents (Elt F)),
    binary main_v216 main_v218 main_v219 (addf : (⟨S64x64, .f32⟩ : BufTy).Contents (Elt F) → (⟨S64x64, .f32⟩ : BufTy).Contents (Elt F) → (⟨S64x64, .f32⟩ : BufTy).Contents (Elt F)) ]

/-- The buffers those operations write. -/
abbrev segW7 : List (Ref sig .tc) :=
  [main_cst_44, main_v211, main_v212, main_cst_45, main_v213, main_v214, main_v215, main_v216, main_v217, main_v218, main_v219]

set_option maxRecDepth 8192 in
theorem seg7_writes : (seg7 (F := F)).Forall fun op => op.writes ⊆ ((segW7).map (Proc.devRef (τ := τ) .tc)).toFinset :=
  ⟨wr1 main_cst_44 (by decide), wr1 main_v211 (by decide), wr1 main_v212 (by decide), wr1 main_cst_45 (by decide), wr1 main_v213 (by decide), wr1 main_v214 (by decide), wr1 main_v215 (by decide), wr1 main_v216 (by decide), wr1 main_v217 (by decide), wr1 main_v218 (by decide), wr1 main_v219 (by decide)⟩

/-- A buffer the segment does not write keeps its contents. -/
theorem seg7_keep (W : Valuation τ sig (Elt F)) (r : Ref sig .tc) (hr : r ∉ segW7) :
    after (seg7 (F := F)) W (Proc.devRef .tc r) = W (Proc.devRef .tc r) :=
  after_of_writes_sub _ W seg7_writes hr

set_option maxRecDepth 8192 in
set_option maxHeartbeats 4000000 in
theorem seg7_val (W : Valuation τ sig (Elt F)) (x0 : (⟨S100000x128, .f32⟩ : BufTy).Contents (Elt F)) (x1 : (⟨S2x1600000, .i32⟩ : BufTy).Contents (Elt F)) (x2 : (⟨S100000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F)) (x9 : (⟨S128, .f32⟩ : BufTy).Contents (Elt F)) (x10 : (⟨S128, .f32⟩ : BufTy).Contents (Elt F)) (x11 : (⟨S128, .f32⟩ : BufTy).Contents (Elt F)) (x12 : (⟨S128, .f32⟩ : BufTy).Contents (Elt F)) (x13 : (⟨S128, .f32⟩ : BufTy).Contents (Elt F)) (x14 : (⟨S128, .f32⟩ : BufTy).Contents (Elt F)) (x15 : (⟨S128, .f32⟩ : BufTy).Contents (Elt F)) (x16 : (⟨S128, .f32⟩ : BufTy).Contents (Elt F)) (x17 : (⟨S128, .f32⟩ : BufTy).Contents (Elt F)) (x18 : (⟨S128, .f32⟩ : BufTy).Contents (Elt F)) (x19 : (⟨S128, .f32⟩ : BufTy).Contents (Elt F)) (x20 : (⟨S128, .f32⟩ : BufTy).Contents (Elt F)) (x21 : (⟨S128x128, .f32⟩ : BufTy).Contents (Elt F)) (x22 : (⟨S128, .f32⟩ : BufTy).Contents (Elt F)) (x23 : (⟨S128x64, .f32⟩ : BufTy).Contents (Elt F)) (x24 : (⟨S64, .f32⟩ : BufTy).Contents (Elt F))
    (h_main_v210 : W (Proc.devRef .tc main_v210) = Read.val_main_v210 (F := F) x0 x1 x2 x3 x4 x5 x6 x7 x8 x9 x10 x11 x12 x13 x14 x15 x16 x17 x18 x19 x20 x21 x22)
    (h_main_arg23 : W (Proc.devRef .tc main_arg23) = x23)
    (h_main_arg24 : W (Proc.devRef .tc main_arg24) = x24) :
    (after (seg7 (F := F)) W (Proc.devRef .tc main_v219) = Read.val_main_v219 (F := F) x0 x1 x2 x3 x4 x5 x6 x7 x8 x9 x10 x11 x12 x13 x14 x15 x16 x17 x18 x19 x20 x21 x22 x23 x24) :=
  by (after_results_simp; (try simp only [h_main_v210, h_main_arg23, h_main_arg24]) <;> rfl)

/-- Operations 274 to 283 of the reference's line. -/
abbrev seg8 : List (HloOp τ sig (Elt F)) :=
  [
    TRef.binary (TRef.of (T := ⟨S64x64, .f32⟩) main_v219) (TRef.of (T := ⟨S64x64, .f32⟩) main_v219) (TRef.of (T := ⟨S64x64, .f32⟩) main_call7_v0) mulf,
    TRef.nullary (TRef.of (T := ⟨S_, .f32⟩) main_call7_cst) (constant S_ .f32 0x00000000#32),
    TRef.binary (TRef.of (T := ⟨S64x64, .f32⟩) main_call7_v0) (TRef.of (T := ⟨S_, .f32⟩) main_call7_cst) (TRef.of (T := ⟨S64, .f32⟩) main_call7_v1) (fun x v => Host.reduceAdd x v reducesTo_S64x64_S64_d1 h_S_),
    TRef.unary (TRef.of (T := ⟨S64, .f32⟩) main_call7_v1) (TRef.of (T := ⟨S64x1, .f32⟩) main_call7_v2) (broadcastInDim S64x1 ![0] bcast_S64_S64x1_0),
    TRef.unary (TRef.of (T := ⟨S64x1, .f32⟩) main_call7_v2) (TRef.of (T := ⟨S64x1, .f32⟩) main_v220) Host.sqrt,
    nullary main_cst_46 (constant S_ .f32 0x2B8CBCCC#32),
    unary main_cst_46 main_v221 (broadcastInDim S64x1 ![] bcast_S_S64x1 : (⟨S_, .f32⟩ : BufTy).Contents (Elt F) → (⟨S64x1, .f32⟩ : BufTy).Contents (Elt F)),
    binary main_v220 main_v221 main_v222 (maximumf : (⟨S64x1, .f32⟩ : BufTy).Contents (Elt F) → (⟨S64x1, .f32⟩ : BufTy).Contents (Elt F) → (⟨S64x1, .f32⟩ : BufTy).Contents (Elt F)),
    unary main_v222 main_v223 (broadcastInDim S64x64 ![0, 1] bcast_S64x1_S64x64_0_1 : (⟨S64x1, .f32⟩ : BufTy).Contents (Elt F) → (⟨S64x64, .f32⟩ : BufTy).Contents (Elt F)),
    binary main_v219 main_v223 main_v224 (Host.divf : (⟨S64x64, .f32⟩ : BufTy).Contents (Elt F) → (⟨S64x64, .f32⟩ : BufTy).Contents (Elt F) → (⟨S64x64, .f32⟩ : BufTy).Contents (Elt F)) ]

/-- The buffers those operations write. -/
abbrev segW8 : List (Ref sig .tc) :=
  [main_call7_v0, main_call7_cst, main_call7_v1, main_call7_v2, main_v220, main_cst_46, main_v221, main_v222, main_v223, main_v224]

set_option maxRecDepth 8192 in
theorem seg8_writes : (seg8 (F := F)).Forall fun op => op.writes ⊆ ((segW8).map (Proc.devRef (τ := τ) .tc)).toFinset :=
  ⟨wr1 main_call7_v0 (by decide), wr1 main_call7_cst (by decide), wr1 main_call7_v1 (by decide), wr1 main_call7_v2 (by decide), wr1 main_v220 (by decide), wr1 main_cst_46 (by decide), wr1 main_v221 (by decide), wr1 main_v222 (by decide), wr1 main_v223 (by decide), wr1 main_v224 (by decide)⟩

/-- A buffer the segment does not write keeps its contents. -/
theorem seg8_keep (W : Valuation τ sig (Elt F)) (r : Ref sig .tc) (hr : r ∉ segW8) :
    after (seg8 (F := F)) W (Proc.devRef .tc r) = W (Proc.devRef .tc r) :=
  after_of_writes_sub _ W seg8_writes hr

set_option maxRecDepth 8192 in
set_option maxHeartbeats 4000000 in
theorem seg8_val (W : Valuation τ sig (Elt F)) (x0 : (⟨S100000x128, .f32⟩ : BufTy).Contents (Elt F)) (x1 : (⟨S2x1600000, .i32⟩ : BufTy).Contents (Elt F)) (x2 : (⟨S100000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F)) (x9 : (⟨S128, .f32⟩ : BufTy).Contents (Elt F)) (x10 : (⟨S128, .f32⟩ : BufTy).Contents (Elt F)) (x11 : (⟨S128, .f32⟩ : BufTy).Contents (Elt F)) (x12 : (⟨S128, .f32⟩ : BufTy).Contents (Elt F)) (x13 : (⟨S128, .f32⟩ : BufTy).Contents (Elt F)) (x14 : (⟨S128, .f32⟩ : BufTy).Contents (Elt F)) (x15 : (⟨S128, .f32⟩ : BufTy).Contents (Elt F)) (x16 : (⟨S128, .f32⟩ : BufTy).Contents (Elt F)) (x17 : (⟨S128, .f32⟩ : BufTy).Contents (Elt F)) (x18 : (⟨S128, .f32⟩ : BufTy).Contents (Elt F)) (x19 : (⟨S128, .f32⟩ : BufTy).Contents (Elt F)) (x20 : (⟨S128, .f32⟩ : BufTy).Contents (Elt F)) (x21 : (⟨S128x128, .f32⟩ : BufTy).Contents (Elt F)) (x22 : (⟨S128, .f32⟩ : BufTy).Contents (Elt F)) (x23 : (⟨S128x64, .f32⟩ : BufTy).Contents (Elt F)) (x24 : (⟨S64, .f32⟩ : BufTy).Contents (Elt F))
    (h_main_v219 : W (Proc.devRef .tc main_v219) = Read.val_main_v219 (F := F) x0 x1 x2 x3 x4 x5 x6 x7 x8 x9 x10 x11 x12 x13 x14 x15 x16 x17 x18 x19 x20 x21 x22 x23 x24) :
    (after (seg8 (F := F)) W (Proc.devRef .tc main_v224) = Read.val_main_v224 (F := F) x0 x1 x2 x3 x4 x5 x6 x7 x8 x9 x10 x11 x12 x13 x14 x15 x16 x17 x18 x19 x20 x21 x22 x23 x24) :=
  by (after_results_simp; (try simp only [h_main_v219]) <;> rfl)

set_option maxRecDepth 8192 in
/-- The whole line is its nine segments, one after the other. -/
theorem ops_eq : (Value.ops : List (HloOp τ sig (Elt F))) = seg0 ++ (seg1 ++ (seg2 ++ (seg3 ++ (seg4 ++ (seg5 ++ (seg6 ++ (seg7 ++ (seg8)))))))) := rfl

/-- So its fold is the segments' folds, one after the other. -/
theorem after_ops_eq (V0 : Valuation τ sig (Elt F)) : after (Value.ops (F := F)) V0 = (after (seg8 (F := F)) (after (seg7 (F := F)) (after (seg6 (F := F)) (after (seg5 (F := F)) (after (seg4 (F := F)) (after (seg3 (F := F)) (after (seg2 (F := F)) (after (seg1 (F := F)) (after (seg0 (F := F)) V0))))))))) := by
  rw [ops_eq]; simp only [StableHlo.after_append]

/-- A buffer no segment writes keeps its contents through the whole line. -/
theorem ops_keep (V0 : Valuation τ sig (Elt F)) (r : Ref sig .tc)
    (h0 : r ∉ segW0) (h1 : r ∉ segW1) (h2 : r ∉ segW2) (h3 : r ∉ segW3) (h4 : r ∉ segW4) (h5 : r ∉ segW5) (h6 : r ∉ segW6) (h7 : r ∉ segW7) (h8 : r ∉ segW8) :
    after (Value.ops (F := F)) V0 (Proc.devRef .tc r) = V0 (Proc.devRef .tc r) := by
  rw [after_ops_eq, seg8_keep _ r h8, seg7_keep _ r h7, seg6_keep _ r h6, seg5_keep _ r h5, seg4_keep _ r h4, seg3_keep _ r h3, seg2_keep _ r h2, seg1_keep _ r h1, seg0_keep _ r h0]

/-- The fold of the whole line, read at the result buffer, from any contents that hold the arguments. -/
theorem fold_value_gen (V0 : Valuation τ sig (Elt F)) (x0 : (⟨S100000x128, .f32⟩ : BufTy).Contents (Elt F)) (x1 : (⟨S2x1600000, .i32⟩ : BufTy).Contents (Elt F)) (x2 : (⟨S100000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F)) (x9 : (⟨S128, .f32⟩ : BufTy).Contents (Elt F)) (x10 : (⟨S128, .f32⟩ : BufTy).Contents (Elt F)) (x11 : (⟨S128, .f32⟩ : BufTy).Contents (Elt F)) (x12 : (⟨S128, .f32⟩ : BufTy).Contents (Elt F)) (x13 : (⟨S128, .f32⟩ : BufTy).Contents (Elt F)) (x14 : (⟨S128, .f32⟩ : BufTy).Contents (Elt F)) (x15 : (⟨S128, .f32⟩ : BufTy).Contents (Elt F)) (x16 : (⟨S128, .f32⟩ : BufTy).Contents (Elt F)) (x17 : (⟨S128, .f32⟩ : BufTy).Contents (Elt F)) (x18 : (⟨S128, .f32⟩ : BufTy).Contents (Elt F)) (x19 : (⟨S128, .f32⟩ : BufTy).Contents (Elt F)) (x20 : (⟨S128, .f32⟩ : BufTy).Contents (Elt F)) (x21 : (⟨S128x128, .f32⟩ : BufTy).Contents (Elt F)) (x22 : (⟨S128, .f32⟩ : BufTy).Contents (Elt F)) (x23 : (⟨S128x64, .f32⟩ : BufTy).Contents (Elt F)) (x24 : (⟨S64, .f32⟩ : BufTy).Contents (Elt F))
    (h_main_arg0 : V0 (Proc.devRef .tc main_arg0) = x0)
    (h_main_arg1 : V0 (Proc.devRef .tc main_arg1) = x1)
    (h_main_arg2 : V0 (Proc.devRef .tc main_arg2) = x2)
    (h_main_arg3 : V0 (Proc.devRef .tc main_arg3) = x3)
    (h_main_arg4 : V0 (Proc.devRef .tc main_arg4) = x4)
    (h_main_arg5 : V0 (Proc.devRef .tc main_arg5) = x5)
    (h_main_arg6 : V0 (Proc.devRef .tc main_arg6) = x6)
    (h_main_arg7 : V0 (Proc.devRef .tc main_arg7) = x7)
    (h_main_arg8 : V0 (Proc.devRef .tc main_arg8) = x8)
    (h_main_arg9 : V0 (Proc.devRef .tc main_arg9) = x9)
    (h_main_arg10 : V0 (Proc.devRef .tc main_arg10) = x10)
    (h_main_arg11 : V0 (Proc.devRef .tc main_arg11) = x11)
    (h_main_arg12 : V0 (Proc.devRef .tc main_arg12) = x12)
    (h_main_arg13 : V0 (Proc.devRef .tc main_arg13) = x13)
    (h_main_arg14 : V0 (Proc.devRef .tc main_arg14) = x14)
    (h_main_arg15 : V0 (Proc.devRef .tc main_arg15) = x15)
    (h_main_arg16 : V0 (Proc.devRef .tc main_arg16) = x16)
    (h_main_arg17 : V0 (Proc.devRef .tc main_arg17) = x17)
    (h_main_arg18 : V0 (Proc.devRef .tc main_arg18) = x18)
    (h_main_arg19 : V0 (Proc.devRef .tc main_arg19) = x19)
    (h_main_arg20 : V0 (Proc.devRef .tc main_arg20) = x20)
    (h_main_arg21 : V0 (Proc.devRef .tc main_arg21) = x21)
    (h_main_arg22 : V0 (Proc.devRef .tc main_arg22) = x22)
    (h_main_arg23 : V0 (Proc.devRef .tc main_arg23) = x23)
    (h_main_arg24 : V0 (Proc.devRef .tc main_arg24) = x24) :
    after (Value.ops (F := F)) V0 (Proc.devRef .tc main_v224) = Read.val_main_v224 (F := F) x0 x1 x2 x3 x4 x5 x6 x7 x8 x9 x10 x11 x12 x13 x14 x15 x16 x17 x18 x19 x20 x21 x22 x23 x24 := by
  rw [after_ops_eq]
  obtain ⟨o0_main_v61, o0_main_arg5, o0_main_v1, o0_main_v3, o0_main_arg6, o0_main_arg15, o0_main_arg16, o0_main_arg13, o0_main_arg14, o0_main_arg7, o0_main_arg8, o0_main_arg19, o0_main_arg20, o0_main_arg17, o0_main_arg18, o0_main_arg2, o0_main_arg21, o0_main_arg22, o0_main_arg23, o0_main_arg24⟩ := seg0_val V0 x0 x1 x2 x3 x4 x5 x6 x7 x8 x9 x10 x11 x12 x13 x14 x15 x16 x17 x18 x19 x20 x21 x22 x23 x24 h_main_arg1 h_main_arg0 h_main_arg3 h_main_arg4 h_main_arg11 h_main_arg12 h_main_arg9 h_main_arg10 h_main_arg5 h_main_arg6 h_main_arg15 h_main_arg16 h_main_arg13 h_main_arg14 h_main_arg7 h_main_arg8 h_main_arg19 h_main_arg20 h_main_arg17 h_main_arg18 h_main_arg2 h_main_arg21 h_main_arg22 h_main_arg23 h_main_arg24
  obtain ⟨o1_main_v66, o1_main_arg5, o1_main_v1, o1_main_v3, o1_main_arg6, o1_main_arg15, o1_main_arg16, o1_main_arg13, o1_main_arg14, o1_main_arg7, o1_main_arg8, o1_main_arg19, o1_main_arg20, o1_main_arg17, o1_main_arg18, o1_main_arg2, o1_main_arg21, o1_main_arg22, o1_main_arg23, o1_main_arg24⟩ := seg1_val (after (seg0 (F := F)) V0) x0 x1 x2 x3 x4 x5 x6 x7 x8 x9 x10 x11 x12 x13 x14 x15 x16 x17 x18 x19 x20 x21 x22 x23 x24 o0_main_v61 o0_main_arg5 o0_main_v1 o0_main_v3 o0_main_arg6 o0_main_arg15 o0_main_arg16 o0_main_arg13 o0_main_arg14 o0_main_arg7 o0_main_arg8 o0_main_arg19 o0_main_arg20 o0_main_arg17 o0_main_arg18 o0_main_arg2 o0_main_arg21 o0_main_arg22 o0_main_arg23 o0_main_arg24
  obtain ⟨o2_main_v124, o2_main_v66, o2_main_arg7, o2_main_v1, o2_main_v3, o2_main_arg8, o2_main_arg19, o2_main_arg20, o2_main_arg17, o2_main_arg18, o2_main_arg2, o2_main_arg21, o2_main_arg22, o2_main_arg23, o2_main_arg24⟩ := seg2_val (after (seg1 (F := F)) (after (seg0 (F := F)) V0)) x0 x1 x2 x3 x4 x5 x6 x7 x8 x9 x10 x11 x12 x13 x14 x15 x16 x17 x18 x19 x20 x21 x22 x23 x24 o1_main_v66 o1_main_arg5 o1_main_v1 o1_main_v3 o1_main_arg6 o1_main_arg15 o1_main_arg16 o1_main_arg13 o1_main_arg14 o1_main_arg7 o1_main_arg8 o1_main_arg19 o1_main_arg20 o1_main_arg17 o1_main_arg18 o1_main_arg2 o1_main_arg21 o1_main_arg22 o1_main_arg23 o1_main_arg24
  obtain ⟨o3_main_v130, o3_main_arg7, o3_main_v1, o3_main_v3, o3_main_arg8, o3_main_arg19, o3_main_arg20, o3_main_arg17, o3_main_arg18, o3_main_arg2, o3_main_arg21, o3_main_arg22, o3_main_arg23, o3_main_arg24⟩ := seg3_val (after (seg2 (F := F)) (after (seg1 (F := F)) (after (seg0 (F := F)) V0))) x0 x1 x2 x3 x4 x5 x6 x7 x8 x9 x10 x11 x12 x13 x14 x15 x16 x17 x18 x19 x20 x21 x22 x23 x24 o2_main_v124 o2_main_v66 o2_main_arg7 o2_main_v1 o2_main_v3 o2_main_arg8 o2_main_arg19 o2_main_arg20 o2_main_arg17 o2_main_arg18 o2_main_arg2 o2_main_arg21 o2_main_arg22 o2_main_arg23 o2_main_arg24
  obtain ⟨o4_main_v188, o4_main_v130, o4_main_arg2, o4_main_arg21, o4_main_arg22, o4_main_arg23, o4_main_arg24⟩ := seg4_val (after (seg3 (F := F)) (after (seg2 (F := F)) (after (seg1 (F := F)) (after (seg0 (F := F)) V0)))) x0 x1 x2 x3 x4 x5 x6 x7 x8 x9 x10 x11 x12 x13 x14 x15 x16 x17 x18 x19 x20 x21 x22 x23 x24 o3_main_v130 o3_main_arg7 o3_main_v1 o3_main_v3 o3_main_arg8 o3_main_arg19 o3_main_arg20 o3_main_arg17 o3_main_arg18 o3_main_arg2 o3_main_arg21 o3_main_arg22 o3_main_arg23 o3_main_arg24
  obtain ⟨o5_main_arg2, o5_main_v194, o5_main_arg21, o5_main_arg22, o5_main_arg23, o5_main_arg24⟩ := seg5_val (after (seg4 (F := F)) (after (seg3 (F := F)) (after (seg2 (F := F)) (after (seg1 (F := F)) (after (seg0 (F := F)) V0))))) x0 x1 x2 x3 x4 x5 x6 x7 x8 x9 x10 x11 x12 x13 x14 x15 x16 x17 x18 x19 x20 x21 x22 x23 x24 o4_main_v188 o4_main_v130 o4_main_arg2 o4_main_arg21 o4_main_arg22 o4_main_arg23 o4_main_arg24
  obtain ⟨o6_main_v210, o6_main_arg23, o6_main_arg24⟩ := seg6_val (after (seg5 (F := F)) (after (seg4 (F := F)) (after (seg3 (F := F)) (after (seg2 (F := F)) (after (seg1 (F := F)) (after (seg0 (F := F)) V0)))))) x0 x1 x2 x3 x4 x5 x6 x7 x8 x9 x10 x11 x12 x13 x14 x15 x16 x17 x18 x19 x20 x21 x22 x23 x24 o5_main_arg2 o5_main_v194 o5_main_arg21 o5_main_arg22 o5_main_arg23 o5_main_arg24
  have o7_main_v219 := seg7_val (after (seg6 (F := F)) (after (seg5 (F := F)) (after (seg4 (F := F)) (after (seg3 (F := F)) (after (seg2 (F := F)) (after (seg1 (F := F)) (after (seg0 (F := F)) V0))))))) x0 x1 x2 x3 x4 x5 x6 x7 x8 x9 x10 x11 x12 x13 x14 x15 x16 x17 x18 x19 x20 x21 x22 x23 x24 o6_main_v210 o6_main_arg23 o6_main_arg24
  exact seg8_val (after (seg7 (F := F)) (after (seg6 (F := F)) (after (seg5 (F := F)) (after (seg4 (F := F)) (after (seg3 (F := F)) (after (seg2 (F := F)) (after (seg1 (F := F)) (after (seg0 (F := F)) V0)))))))) x0 x1 x2 x3 x4 x5 x6 x7 x8 x9 x10 x11 x12 x13 x14 x15 x16 x17 x18 x19 x20 x21 x22 x23 x24 o7_main_v219

/-- The fold of the whole line from the launch contents, read at the result buffer: the composed stage value of the
    arguments' launch contents. -/
theorem fold_value (m : (ℓ : Loc nD τ sig) → Buf (Elt F) ℓ) (c : Dev nD) :
    after (Value.ops (F := F)) (launchContents m c) (Proc.devRef .tc main_v224)
      = Read.val_main_v224 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) :=
  fold_value_gen (launchContents m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24))
    rfl rfl rfl rfl rfl rfl rfl rfl rfl rfl rfl rfl rfl rfl rfl rfl rfl rfl rfl rfl rfl rfl rfl rfl rfl

set_option maxRecDepth 8192 in
/-- On every device, from any memory with zero counters: every weakly fair execution of the reference's main function
    terminates with the result buffer at the fold of its operations over the launch contents and the arguments unchanged. -/
theorem run_fold (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v224) = after (Value.ops (F := F)) (launchContents m c) (Proc.devRef .tc main_v224)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24) :=
  (θ_run defs _ _).mono (fun _ h c => ⟨h c main_v224,
      (h c main_arg0).trans (ops_keep (launchContents m c) main_arg0 (by decide) (by decide) (by decide) (by decide) (by decide) (by decide) (by decide) (by decide) (by decide)),
      (h c main_arg1).trans (ops_keep (launchContents m c) main_arg1 (by decide) (by decide) (by decide) (by decide) (by decide) (by decide) (by decide) (by decide) (by decide)),
      (h c main_arg2).trans (ops_keep (launchContents m c) main_arg2 (by decide) (by decide) (by decide) (by decide) (by decide) (by decide) (by decide) (by decide) (by decide)),
      (h c main_arg3).trans (ops_keep (launchContents m c) main_arg3 (by decide) (by decide) (by decide) (by decide) (by decide) (by decide) (by decide) (by decide) (by decide)),
      (h c main_arg4).trans (ops_keep (launchContents m c) main_arg4 (by decide) (by decide) (by decide) (by decide) (by decide) (by decide) (by decide) (by decide) (by decide)),
      (h c main_arg5).trans (ops_keep (launchContents m c) main_arg5 (by decide) (by decide) (by decide) (by decide) (by decide) (by decide) (by decide) (by decide) (by decide)),
      (h c main_arg6).trans (ops_keep (launchContents m c) main_arg6 (by decide) (by decide) (by decide) (by decide) (by decide) (by decide) (by decide) (by decide) (by decide)),
      (h c main_arg7).trans (ops_keep (launchContents m c) main_arg7 (by decide) (by decide) (by decide) (by decide) (by decide) (by decide) (by decide) (by decide) (by decide)),
      (h c main_arg8).trans (ops_keep (launchContents m c) main_arg8 (by decide) (by decide) (by decide) (by decide) (by decide) (by decide) (by decide) (by decide) (by decide)),
      (h c main_arg9).trans (ops_keep (launchContents m c) main_arg9 (by decide) (by decide) (by decide) (by decide) (by decide) (by decide) (by decide) (by decide) (by decide)),
      (h c main_arg10).trans (ops_keep (launchContents m c) main_arg10 (by decide) (by decide) (by decide) (by decide) (by decide) (by decide) (by decide) (by decide) (by decide)),
      (h c main_arg11).trans (ops_keep (launchContents m c) main_arg11 (by decide) (by decide) (by decide) (by decide) (by decide) (by decide) (by decide) (by decide) (by decide)),
      (h c main_arg12).trans (ops_keep (launchContents m c) main_arg12 (by decide) (by decide) (by decide) (by decide) (by decide) (by decide) (by decide) (by decide) (by decide)),
      (h c main_arg13).trans (ops_keep (launchContents m c) main_arg13 (by decide) (by decide) (by decide) (by decide) (by decide) (by decide) (by decide) (by decide) (by decide)),
      (h c main_arg14).trans (ops_keep (launchContents m c) main_arg14 (by decide) (by decide) (by decide) (by decide) (by decide) (by decide) (by decide) (by decide) (by decide)),
      (h c main_arg15).trans (ops_keep (launchContents m c) main_arg15 (by decide) (by decide) (by decide) (by decide) (by decide) (by decide) (by decide) (by decide) (by decide)),
      (h c main_arg16).trans (ops_keep (launchContents m c) main_arg16 (by decide) (by decide) (by decide) (by decide) (by decide) (by decide) (by decide) (by decide) (by decide)),
      (h c main_arg17).trans (ops_keep (launchContents m c) main_arg17 (by decide) (by decide) (by decide) (by decide) (by decide) (by decide) (by decide) (by decide) (by decide)),
      (h c main_arg18).trans (ops_keep (launchContents m c) main_arg18 (by decide) (by decide) (by decide) (by decide) (by decide) (by decide) (by decide) (by decide) (by decide)),
      (h c main_arg19).trans (ops_keep (launchContents m c) main_arg19 (by decide) (by decide) (by decide) (by decide) (by decide) (by decide) (by decide) (by decide) (by decide)),
      (h c main_arg20).trans (ops_keep (launchContents m c) main_arg20 (by decide) (by decide) (by decide) (by decide) (by decide) (by decide) (by decide) (by decide) (by decide)),
      (h c main_arg21).trans (ops_keep (launchContents m c) main_arg21 (by decide) (by decide) (by decide) (by decide) (by decide) (by decide) (by decide) (by decide) (by decide)),
      (h c main_arg22).trans (ops_keep (launchContents m c) main_arg22 (by decide) (by decide) (by decide) (by decide) (by decide) (by decide) (by decide) (by decide) (by decide)),
      (h c main_arg23).trans (ops_keep (launchContents m c) main_arg23 (by decide) (by decide) (by decide) (by decide) (by decide) (by decide) (by decide) (by decide) (by decide)),
      (h c main_arg24).trans (ops_keep (launchContents m c) main_arg24 (by decide) (by decide) (by decide) (by decide) (by decide) (by decide) (by decide) (by decide) (by decide))⟩)
    (run_seq Value.scopedRefs_eq Value.scopedSems_eq defs main (fun _ => Value.ops) Value.main_eq (fun _ => Value.ops_sub) m ρ)

/-- The run with the result buffer at the composed stage value of the arguments' launch contents. -/
theorem run_value (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v224)
        = Read.val_main_v224 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24) :=
  (θ_run defs _ _).mono (fun _ h c => ⟨((h c).1).trans (fold_value m c), (h c).2⟩) (run_fold m ρ)

end Cert.ReferenceIdeal.Fold

end
-- ==== Proof.PreDecode.lean ====
/-
  The precondition, read back at single entries.

  The printed precondition is a conjunction of "all entries satisfy p" tests, one per float input:
  |x| < +∞ for every float input, and x ≥ 0 for the three variance vectors. A test "all p" that holds
  gives p at every entry; an extended real with |x| < +∞ is a real; an extended real at or above the
  zero pattern is nonnegative. Only the fifteen parameter vectors of length 128 are decoded here.
-/
import proofs.«142631_j15247133901708_1_alg».proof.Pre_finite_inputs
import proofs.«142631_j15247133901708_1_alg».proof.Proof.Gen.Pre_finite_inputs
import Idealize.ShloMosaic.Lib.ReduceAll
import Idealize.ShloMosaic.Lib.ValueIdx
import Idealize.ShloMosaic.PureOps.Ideal
import Idealize.ShloMosaic.PureOps.Ideal.Laws

set_option maxRecDepth 16384

open Idealize.ShloMosaic
open Cert.Pre_finite_inputs

namespace Cert.PreDecode

instance : Subsingleton S_.Idx := ⟨fun a b => funext fun d => d.elim0⟩

/-- An extended real whose absolute value is below +∞ is a real. -/
theorem real_of_abs_lt (x : EReal)
    (h : FloatOps.cmpf (F := Ideal) (φ := .f32) .olt (FloatOps.hostAbsf (F := Ideal) (φ := .f32) x)
        (FloatOps.ofBits (F := Ideal) .f32 0x7F800000#32) = 1#1) : ∃ r : ℝ, x = ((r : ℝ) : EReal) := by
  have h' : Ideal.cmp .olt (max x (-x)) (Ideal.ofBits .f32 0x7F800000#32) = 1#1 := h
  induction x using EReal.rec with
  | bot => exfalso; revert h'; simp [Ideal.cmp, Ideal.ofBits, Ideal.ieee]
  | coe r => exact ⟨r, rfl⟩
  | top => exfalso; revert h'; simp [Ideal.cmp, Ideal.ofBits, Ideal.ieee]

/-- An extended real at or above the zero pattern is nonnegative. -/
theorem nonneg_of_ge (x : EReal)
    (h : FloatOps.cmpf (F := Ideal) (φ := .f32) .oge x (FloatOps.ofBits (F := Ideal) .f32 0x00000000#32) = 1#1) :
    0 ≤ x := by
  have h' : Ideal.cmp .oge x (Ideal.ofBits .f32 0x00000000#32) = 1#1 := h
  revert h'
  simp [Ideal.cmp, Ideal.ofBits, Ideal.ieee]
  intro hb
  by_contra hn
  rw [decide_eq_false hn] at hb
  exact absurd hb (by decide)

/-- "All entries have |x| < +∞", read at an entry. -/
theorem finite_of_all {s : Shape} {axes : List (Fin s.rank)} (x : FVec Ideal s .f32)
    (bc : S_.BroadcastsInDim s (![] : Fin 0 → Fin s.rank)) (hr : s.ReducesTo axes S_) (hu : 0 < S_.numel) (c : IVec S_ 1)
    (e : Host.reduce IntOp.andi (cmpf .olt (Host.absf x) (broadcastInDim s ![] bc (constant S_ .f32 0x7F800000#32))) c hr hu
          ValueIdx.ix0 = 1#1) (i : s.Idx) : ∃ r : ℝ, x i = ((r : ℝ) : EReal) :=
  real_of_abs_lt (x i) (Host.reduce_andi_all _ _ hr hu _ e i)

/-- "All entries are ≥ 0", read at an entry. -/
theorem nonneg_of_all {s : Shape} {axes : List (Fin s.rank)} (x : FVec Ideal s .f32)
    (bc : S_.BroadcastsInDim s (![] : Fin 0 → Fin s.rank)) (hr : s.ReducesTo axes S_) (hu : 0 < S_.numel) (c : IVec S_ 1)
    (e : Host.reduce IntOp.andi (cmpf .oge x (broadcastInDim s ![] bc (constant S_ .f32 0x00000000#32))) c hr hu
          ValueIdx.ix0 = 1#1) (i : s.Idx) : 0 ≤ x i :=
  nonneg_of_ge (x i) (Host.reduce_andi_all _ _ hr hu _ e i)

/-- A vector of extended reals whose entries are all real is the image of a vector of reals. -/
theorem real_vec {ι : Type} (x : ι → EReal) (h : ∀ j, ∃ r : ℝ, x j = ((r : ℝ) : EReal)) :
    ∃ f : ι → ℝ, x = fun j => ((f j : ℝ) : EReal) :=
  ⟨fun j => (h j).choose, funext fun j => (h j).choose_spec⟩

variable [Cert.Pre_finite_inputs.Facts]

/-- What the precondition says of the fifteen parameter vectors: every entry is a real, and the three
    variance vectors are nonnegative. -/
structure Decoded (x4 x6 x8 x9 x10 x11 x12 x13 x14 x15 x16 x17 x18 x19 x20 : FVec Ideal S128 .f32) : Prop where
  f4 : ∀ j, ∃ r : ℝ, x4 j = ((r : ℝ) : EReal)
  f6 : ∀ j, ∃ r : ℝ, x6 j = ((r : ℝ) : EReal)
  f8 : ∀ j, ∃ r : ℝ, x8 j = ((r : ℝ) : EReal)
  f9 : ∀ j, ∃ r : ℝ, x9 j = ((r : ℝ) : EReal)
  f10 : ∀ j, ∃ r : ℝ, x10 j = ((r : ℝ) : EReal)
  f11 : ∀ j, ∃ r : ℝ, x11 j = ((r : ℝ) : EReal)
  f12 : ∀ j, ∃ r : ℝ, x12 j = ((r : ℝ) : EReal)
  f13 : ∀ j, ∃ r : ℝ, x13 j = ((r : ℝ) : EReal)
  f14 : ∀ j, ∃ r : ℝ, x14 j = ((r : ℝ) : EReal)
  f15 : ∀ j, ∃ r : ℝ, x15 j = ((r : ℝ) : EReal)
  f16 : ∀ j, ∃ r : ℝ, x16 j = ((r : ℝ) : EReal)
  f17 : ∀ j, ∃ r : ℝ, x17 j = ((r : ℝ) : EReal)
  f18 : ∀ j, ∃ r : ℝ, x18 j = ((r : ℝ) : EReal)
  f19 : ∀ j, ∃ r : ℝ, x19 j = ((r : ℝ) : EReal)
  f20 : ∀ j, ∃ r : ℝ, x20 j = ((r : ℝ) : EReal)
  n12 : ∀ j, 0 ≤ x12 j
  n16 : ∀ j, 0 ≤ x16 j
  n20 : ∀ j, 0 ≤ x20 j

variable (x0 : FVec Ideal S100000x128 .f32) (x1 : IVec S2x1600000 32) (x2 : IVec S100000 32) (x3 : FVec Ideal S128x128 .f32) (x4 : FVec Ideal S128 .f32) (x5 : FVec Ideal S128x128 .f32) (x6 : FVec Ideal S128 .f32) (x7 : FVec Ideal S128x128 .f32) (x8 : FVec Ideal S128 .f32) (x9 : FVec Ideal S128 .f32) (x10 : FVec Ideal S128 .f32) (x11 : FVec Ideal S128 .f32) (x12 : FVec Ideal S128 .f32) (x13 : FVec Ideal S128 .f32) (x14 : FVec Ideal S128 .f32) (x15 : FVec Ideal S128 .f32) (x16 : FVec Ideal S128 .f32) (x17 : FVec Ideal S128 .f32) (x18 : FVec Ideal S128 .f32) (x19 : FVec Ideal S128 .f32) (x20 : FVec Ideal S128 .f32) (x21 : FVec Ideal S128x128 .f32) (x22 : FVec Ideal S128 .f32) (x23 : FVec Ideal S128x64 .f32) (x24 : FVec Ideal S64 .f32)

theorem decode (h : Cert.Pre_finite_inputs.fn (F := Ideal) x0 x1 x2 x3 x4 x5 x6 x7 x8 x9 x10 x11 x12 x13 x14 x15 x16 x17 x18 x19 x20 x21 x22 x23 x24 = fun _ => 1#1) :
    Decoded x4 x6 x8 x9 x10 x11 x12 x13 x14 x15 x16 x17 x18 x19 x20 := by
  have e := congrFun h ValueIdx.ix0
  dsimp only [fn, fn_part1, fn_part2, fn_part3, fn_part4, fn_part5, fn_part6, fn_part7] at e
  obtain ⟨e25, g20⟩ := IntOp.andi_eq_one.1 e
  obtain ⟨e24, g16⟩ := IntOp.andi_eq_one.1 e25
  obtain ⟨e23, g12⟩ := IntOp.andi_eq_one.1 e24
  obtain ⟨e22, c24⟩ := IntOp.andi_eq_one.1 e23
  obtain ⟨e21, c23⟩ := IntOp.andi_eq_one.1 e22
  obtain ⟨e20, c22⟩ := IntOp.andi_eq_one.1 e21
  obtain ⟨e19, c21⟩ := IntOp.andi_eq_one.1 e20
  obtain ⟨e18, c20⟩ := IntOp.andi_eq_one.1 e19
  obtain ⟨e17, c19⟩ := IntOp.andi_eq_one.1 e18
  obtain ⟨e16, c18⟩ := IntOp.andi_eq_one.1 e17
  obtain ⟨e15, c17⟩ := IntOp.andi_eq_one.1 e16
  obtain ⟨e14, c16⟩ := IntOp.andi_eq_one.1 e15
  obtain ⟨e13, c15⟩ := IntOp.andi_eq_one.1 e14
  obtain ⟨e12, c14⟩ := IntOp.andi_eq_one.1 e13
  obtain ⟨e11, c13⟩ := IntOp.andi_eq_one.1 e12
  obtain ⟨e10, c12⟩ := IntOp.andi_eq_one.1 e11
  obtain ⟨e9, c11⟩ := IntOp.andi_eq_one.1 e10
  obtain ⟨e8, c10⟩ := IntOp.andi_eq_one.1 e9
  obtain ⟨e7, c9⟩ := IntOp.andi_eq_one.1 e8
  obtain ⟨e6, c8⟩ := IntOp.andi_eq_one.1 e7
  obtain ⟨e5, c7⟩ := IntOp.andi_eq_one.1 e6
  obtain ⟨e4, c6⟩ := IntOp.andi_eq_one.1 e5
  obtain ⟨e3, c5⟩ := IntOp.andi_eq_one.1 e4
  obtain ⟨e2, c4⟩ := IntOp.andi_eq_one.1 e3
  obtain ⟨c0, c3⟩ := IntOp.andi_eq_one.1 e2
  exact {
    f4 := fun j => finite_of_all x4 _ _ _ _ c4 j
    f6 := fun j => finite_of_all x6 _ _ _ _ c6 j
    f8 := fun j => finite_of_all x8 _ _ _ _ c8 j
    f9 := fun j => finite_of_all x9 _ _ _ _ c9 j
    f10 := fun j => finite_of_all x10 _ _ _ _ c10 j
    f11 := fun j => finite_of_all x11 _ _ _ _ c11 j
    f12 := fun j => finite_of_all x12 _ _ _ _ c12 j
    f13 := fun j => finite_of_all x13 _ _ _ _ c13 j
    f14 := fun j => finite_of_all x14 _ _ _ _ c14 j
    f15 := fun j => finite_of_all x15 _ _ _ _ c15 j
    f16 := fun j => finite_of_all x16 _ _ _ _ c16 j
    f17 := fun j => finite_of_all x17 _ _ _ _ c17 j
    f18 := fun j => finite_of_all x18 _ _ _ _ c18 j
    f19 := fun j => finite_of_all x19 _ _ _ _ c19 j
    f20 := fun j => finite_of_all x20 _ _ _ _ c20 j
    n12 := fun j => nonneg_of_all x12 _ _ _ _ g12 j
    n16 := fun j => nonneg_of_all x16 _ _ _ _ g16 j
    n20 := fun j => nonneg_of_all x20 _ _ _ _ g20 j }

theorem finite_params (h : Cert.Pre_finite_inputs.fn (F := Ideal) x0 x1 x2 x3 x4 x5 x6 x7 x8 x9 x10 x11 x12 x13 x14 x15 x16 x17 x18 x19 x20 x21 x22 x23 x24 = fun _ => 1#1) :
    (∀ j, ∃ r : ℝ, x4 j = ((r : ℝ) : EReal)) ∧
    (∀ j, ∃ r : ℝ, x6 j = ((r : ℝ) : EReal)) ∧
    (∀ j, ∃ r : ℝ, x8 j = ((r : ℝ) : EReal)) ∧
    (∀ j, ∃ r : ℝ, x9 j = ((r : ℝ) : EReal)) ∧
    (∀ j, ∃ r : ℝ, x10 j = ((r : ℝ) : EReal)) ∧
    (∀ j, ∃ r : ℝ, x11 j = ((r : ℝ) : EReal)) ∧
    (∀ j, ∃ r : ℝ, x12 j = ((r : ℝ) : EReal)) ∧
    (∀ j, ∃ r : ℝ, x13 j = ((r : ℝ) : EReal)) ∧
    (∀ j, ∃ r : ℝ, x14 j = ((r : ℝ) : EReal)) ∧
    (∀ j, ∃ r : ℝ, x15 j = ((r : ℝ) : EReal)) ∧
    (∀ j, ∃ r : ℝ, x16 j = ((r : ℝ) : EReal)) ∧
    (∀ j, ∃ r : ℝ, x17 j = ((r : ℝ) : EReal)) ∧
    (∀ j, ∃ r : ℝ, x18 j = ((r : ℝ) : EReal)) ∧
    (∀ j, ∃ r : ℝ, x19 j = ((r : ℝ) : EReal)) ∧
    (∀ j, ∃ r : ℝ, x20 j = ((r : ℝ) : EReal)) :=
  have d := decode x0 x1 x2 x3 x4 x5 x6 x7 x8 x9 x10 x11 x12 x13 x14 x15 x16 x17 x18 x19 x20 x21 x22 x23 x24 h
  ⟨d.f4, d.f6, d.f8, d.f9, d.f10, d.f11, d.f12, d.f13, d.f14, d.f15, d.f16, d.f17, d.f18, d.f19, d.f20⟩

theorem var_nonneg (h : Cert.Pre_finite_inputs.fn (F := Ideal) x0 x1 x2 x3 x4 x5 x6 x7 x8 x9 x10 x11 x12 x13 x14 x15 x16 x17 x18 x19 x20 x21 x22 x23 x24 = fun _ => 1#1) :
    (∀ j, 0 ≤ x12 j) ∧ (∀ j, 0 ≤ x16 j) ∧ (∀ j, 0 ≤ x20 j) :=
  have d := decode x0 x1 x2 x3 x4 x5 x6 x7 x8 x9 x10 x11 x12 x13 x14 x15 x16 x17 x18 x19 x20 x21 x22 x23 x24 h
  ⟨d.n12, d.n16, d.n20⟩

end Cert.PreDecode
-- ==== Proof.ChainFold.lean ====
/-
  The contents of the idealized kernel's buffers at the boundaries of @main's segments, read back through the host
  stretches between the regions, for any float instance.

  Between a projection region and the affine region of the same layer the kernel runs, operation for operation, the
  reference's own aggregation (self-loops appended to the edge list; degrees by a scatter-add of ones; the inverse
  square root of the positive degrees; each gathered row scaled by the product of its two end nodes' factors; a
  scatter-add per target node), and folds the batch-norm parameters into one scale row g·rsqrt(v+ε) and one shift row
  (be − mu·scale) + b·scale. So, given that the projection region's array is the reference's product stage, the
  aggregate the affine region receives is the reference's aggregate stage; the scale and shift rows are the stated
  terms of the launched parameter vectors; a buffer no operation in between writes is carried unchanged; and after the
  last region the pooling, the two-layer head and the row normalisation are again the reference's own operations.
-/
import proofs.«142631_j15247133901708_1_alg».proof.Proof.Gen.KernelIdeal.Frame
import Idealize.ShloMosaic.PureOps.Ideal
import Idealize.ShloMosaic.Lib.StableHlo.Run
import proofs.«142631_j15247133901708_1_alg».proof.Proof.RefRead

set_option maxRecDepth 16384
noncomputable section
namespace Cert.KernelIdeal.Chain
open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg) (c : Dev nD)

/-- Walk a buffer's contents back through the fold of segment boundaries: through a host stretch by reading the
    operations' results, through a region that does not hold the buffer among its arrays by the region's frame. -/
macro "walk1" : tactic =>
  `(tactic| (first
      | (rw [W2_of_ne]; rotate_left; decide)
      | (rw [W6_of_ne]; rotate_left; decide)
      | (rw [W7_of_ne]; rotate_left; decide)
      | (rw [W11_of_ne]; rotate_left; decide)
      | (rw [W12_of_ne]; rotate_left; decide)
      | (rw [W16_of_ne]; rotate_left; decide)
      | after_results_simp
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

/-- `walk1` as far as it goes. -/
macro "walk" : tactic => `(tactic| repeat walk1)

/-- The launch contents of one buffer of the kernel's memory. -/
abbrev arg (b : Ref sig .tc) : Buf (Elt F) ((c.tc : Thread nD τ).loc b) := m ((c.tc : Thread nD τ).loc b)

open Cert.ReferenceIdeal.Read

/-! ## The fold of segment boundaries, for any float instance -/

/-- The first projection's operands reach it as launched. -/
theorem in0_x : W1 m ρ c (Proc.devRef .tc main_arg0) = (arg m c main_arg0) := by walk
theorem in0_w : W1 m ρ c (Proc.devRef .tc main_arg3) = (arg m c main_arg3) := by walk

/-- An input array of a projection region is left as the region found it. -/
theorem W7_in0 : W7 m ρ c (Proc.devRef .tc main_v54) = W6 m ρ c (Proc.devRef .tc main_v54) :=
  (W7_arr m ρ c 0).trans (((dat2 (V6 m ρ) c).arrAt_in 0 rfl _).trans (A_eq2 (V6 m ρ) c 0))
theorem W12_in0 : W12 m ρ c (Proc.devRef .tc main_v105) = W11 m ρ c (Proc.devRef .tc main_v105) :=
  (W12_arr m ρ c 0).trans (((dat4 (V11 m ρ) c).arrAt_in 0 rfl _).trans (A_eq4 (V11 m ρ) c 0))

/-! ### Layer 1: the host operations between the projection and the affine region -/

set_option maxHeartbeats 4000000 in
/-- From the projected features to the degree-normalised neighbourhood sums (self-loops added, each message scaled by
    the inverse square roots of its two end degrees, summed per target node): the kernel's host operations are the
    reference's own, one for one. -/
theorem agg1 (h : W2 m ρ c (Proc.devRef .tc main_v4) = val_main_v4 (F := F) (arg m c main_arg0) (arg m c main_arg3)) :
    W5 m ρ c (Proc.devRef .tc main_v43) = val_main_v43 (F := F) (arg m c main_arg0) (arg m c main_arg1) (arg m c main_arg3) := by
  repeat (first | rw [h] | walk1)
  rfl

set_option maxHeartbeats 2000000 in
/-- The folded scale row `g · rsqrt(v + ε)`, a `[128]` vector reshaped to `[1,128]`, as the affine region receives it. -/
theorem sc1 : W5 m ρ c (Proc.devRef .tc main_v52) = shapeCast S1x128 (mulf (arg m c main_arg9) (Host.rsqrt (addf (arg m c main_arg12) (broadcastInDim S128 ![] bcast_S_S128 (constant (F := F) S_ .f32 0x3727C5AC#32))))) shapeCasts_S128_S1x128 := by
  walk; rfl

set_option maxHeartbeats 2000000 in
/-- The folded shift row `(be − mu·scale) + b·scale`, reshaped to `[1,128]`, as the affine region receives it. -/
theorem sh1 : W5 m ρ c (Proc.devRef .tc main_v53) = shapeCast S1x128 (addf (subf (arg m c main_arg10) (mulf (arg m c main_arg11) (mulf (arg m c main_arg9) (Host.rsqrt (addf (arg m c main_arg12) (broadcastInDim S128 ![] bcast_S_S128 (constant (F := F) S_ .f32 0x3727C5AC#32))))))) (mulf (arg m c main_arg4) (mulf (arg m c main_arg9) (Host.rsqrt (addf (arg m c main_arg12) (broadcastInDim S128 ![] bcast_S_S128 (constant (F := F) S_ .f32 0x3727C5AC#32))))))) shapeCasts_S128_S1x128 := by
  walk; rfl

/-! ### Layer 2: the host operations between the projection and the affine region -/

set_option maxHeartbeats 4000000 in
/-- From the projected features to the degree-normalised neighbourhood sums (self-loops added, each message scaled by
    the inverse square roots of its two end degrees, summed per target node): the kernel's host operations are the
    reference's own, one for one. -/
theorem agg2 (h : W7 m ρ c (Proc.devRef .tc main_v55) = val_main_v67 (F := F) (arg m c main_arg0) (arg m c main_arg1) (arg m c main_arg3) (arg m c main_arg4) (arg m c main_arg5) (arg m c main_arg9) (arg m c main_arg10) (arg m c main_arg11) (arg m c main_arg12)) :
    W10 m ρ c (Proc.devRef .tc main_v94) = val_main_v106 (F := F) (arg m c main_arg0) (arg m c main_arg1) (arg m c main_arg3) (arg m c main_arg4) (arg m c main_arg5) (arg m c main_arg9) (arg m c main_arg10) (arg m c main_arg11) (arg m c main_arg12) := by
  repeat (first | rw [h] | walk1)
  rfl

set_option maxHeartbeats 2000000 in
/-- The folded scale row `g · rsqrt(v + ε)`, a `[128]` vector reshaped to `[1,128]`, as the affine region receives it. -/
theorem sc2 : W10 m ρ c (Proc.devRef .tc main_v103) = shapeCast S1x128 (mulf (arg m c main_arg13) (Host.rsqrt (addf (arg m c main_arg16) (broadcastInDim S128 ![] bcast_S_S128 (constant (F := F) S_ .f32 0x3727C5AC#32))))) shapeCasts_S128_S1x128 := by
  walk; rfl

set_option maxHeartbeats 2000000 in
/-- The folded shift row `(be − mu·scale) + b·scale`, reshaped to `[1,128]`, as the affine region receives it. -/
theorem sh2 : W10 m ρ c (Proc.devRef .tc main_v104) = shapeCast S1x128 (addf (subf (arg m c main_arg14) (mulf (arg m c main_arg15) (mulf (arg m c main_arg13) (Host.rsqrt (addf (arg m c main_arg16) (broadcastInDim S128 ![] bcast_S_S128 (constant (F := F) S_ .f32 0x3727C5AC#32))))))) (mulf (arg m c main_arg6) (mulf (arg m c main_arg13) (Host.rsqrt (addf (arg m c main_arg16) (broadcastInDim S128 ![] bcast_S_S128 (constant (F := F) S_ .f32 0x3727C5AC#32))))))) shapeCasts_S128_S1x128 := by
  walk; rfl

set_option maxHeartbeats 2000000 in
/-- The previous layer's output reaches the affine region unchanged: it is an input array of the projection region in
    between, and no host operation writes it. -/
theorem res2 : W10 m ρ c (Proc.devRef .tc main_v54) = W6 m ρ c (Proc.devRef .tc main_v54) := by
  repeat (first | rw [W7_in0] | walk1)

set_option maxHeartbeats 2000000 in
/-- The layer's weight matrix reaches the projection region as launched. -/
theorem wgt2 : W6 m ρ c (Proc.devRef .tc main_arg5) = (arg m c main_arg5) := by
  walk

/-! ### Layer 3: the host operations between the projection and the affine region -/

set_option maxHeartbeats 2000000 in
/-- The folded scale row `g · rsqrt(v + ε)`, a `[128]` vector reshaped to `[1,128]`, as the affine region receives it. -/
theorem sc3 : W15 m ρ c (Proc.devRef .tc main_v154) = shapeCast S1x128 (mulf (arg m c main_arg17) (Host.rsqrt (addf (arg m c main_arg20) (broadcastInDim S128 ![] bcast_S_S128 (constant (F := F) S_ .f32 0x3727C5AC#32))))) shapeCasts_S128_S1x128 := by
  walk; rfl

set_option maxHeartbeats 2000000 in
/-- The folded shift row `(be − mu·scale) + b·scale`, reshaped to `[1,128]`, as the affine region receives it. -/
theorem sh3 : W15 m ρ c (Proc.devRef .tc main_v155) = shapeCast S1x128 (addf (subf (arg m c main_arg18) (mulf (arg m c main_arg19) (mulf (arg m c main_arg17) (Host.rsqrt (addf (arg m c main_arg20) (broadcastInDim S128 ![] bcast_S_S128 (constant (F := F) S_ .f32 0x3727C5AC#32))))))) (mulf (arg m c main_arg8) (mulf (arg m c main_arg17) (Host.rsqrt (addf (arg m c main_arg20) (broadcastInDim S128 ![] bcast_S_S128 (constant (F := F) S_ .f32 0x3727C5AC#32))))))) shapeCasts_S128_S1x128 := by
  walk; rfl

set_option maxHeartbeats 2000000 in
/-- The previous layer's output reaches the affine region unchanged: it is an input array of the projection region in
    between, and no host operation writes it. -/
theorem res3 : W15 m ρ c (Proc.devRef .tc main_v105) = W11 m ρ c (Proc.devRef .tc main_v105) := by
  repeat (first | rw [W12_in0] | walk1)

set_option maxHeartbeats 2000000 in
/-- The layer's weight matrix reaches the projection region as launched. -/
theorem wgt3 : W11 m ρ c (Proc.devRef .tc main_arg7) = (arg m c main_arg7) := by
  walk

/-! ### After the third layer: pooling, the two-layer head and the row normalisation -/

set_option maxHeartbeats 4000000 in
/-- Mean pooling per graph (a scatter-add of the node rows over the graph ids, divided by the clamped counts), the
    head's two affine maps with the rectifier between them, and the division of each row by its clamped Euclidean
    norm: the kernel's host operations after its last region are the reference's own, one for one. -/
theorem tail (h : W16 m ρ c (Proc.devRef .tc main_v156) = val_main_v194 (F := F) (arg m c main_arg0) (arg m c main_arg1) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17) (arg m c main_arg18) (arg m c main_arg19) (arg m c main_arg20)) :
    W21 m ρ c (Proc.devRef .tc main_v186) = val_main_v224 (F := F) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17) (arg m c main_arg18) (arg m c main_arg19) (arg m c main_arg20) (arg m c main_arg21) (arg m c main_arg22) (arg m c main_arg23) (arg m c main_arg24) := by
  repeat (first | rw [h] | walk1)
  rfl

end Cert.KernelIdeal.Chain
end
-- ==== Proof.ChainFold3.lean ====
/-
  Layer 3's aggregation, read back through the host stretch between the third projection region and the third affine
  region, for any float instance.

  The stretch reads the two rows of the edge list (each a slice of the edge-index argument, reshaped to a vector),
  which the first host stretch of @main wrote and nothing later overwrites. They are carried to the third layer
  unchanged — through every region, because a region replaces only its own arrays, and through every host stretch,
  because no operation there writes them. With the two rows and the third projection named as the reference's stages,
  the stretch is the reference's own aggregation, operation for operation.
-/
import proofs.«142631_j15247133901708_1_alg».proof.Proof.ChainFold

set_option maxRecDepth 16384
noncomputable section
namespace Cert.KernelIdeal.Chain
open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg) (c : Dev nD)

open Cert.ReferenceIdeal.Read

/-! ### The two rows of the edge list reach the third layer as the first host stretch wrote them -/

set_option maxHeartbeats 2000000 in
/-- The source row of the edge list: a slice of the edge-index argument, reshaped to a vector. -/
theorem src_at12 : W12 m ρ c (Proc.devRef .tc main_v1) = val_main_v1 (F := F) (arg m c main_arg1) := by
  walk; rfl

set_option maxHeartbeats 2000000 in
/-- The target row of the edge list: the other slice of the edge-index argument, reshaped to a vector. -/
theorem tgt_at12 : W12 m ρ c (Proc.devRef .tc main_v3) = val_main_v3 (F := F) (arg m c main_arg1) := by
  walk; rfl

/-! ### Layer 3: the host operations between the projection and the affine region -/

set_option maxHeartbeats 4000000 in
/-- From the projected features to the degree-normalised neighbourhood sums (self-loops added, each message scaled by
    the inverse square roots of its two end degrees, summed per target node): the kernel's host operations are the
    reference's own, one for one. -/
theorem agg3 (h : W12 m ρ c (Proc.devRef .tc main_v106) = val_main_v131 (F := F) (arg m c main_arg0) (arg m c main_arg1) (arg m c main_arg3) (arg m c main_arg4) (arg m c main_arg5) (arg m c main_arg6) (arg m c main_arg7) (arg m c main_arg9) (arg m c main_arg10) (arg m c main_arg11) (arg m c main_arg12) (arg m c main_arg13) (arg m c main_arg14) (arg m c main_arg15) (arg m c main_arg16)) :
    W15 m ρ c (Proc.devRef .tc main_v145) = val_main_v170 (F := F) (arg m c main_arg0) (arg m c main_arg1) (arg m c main_arg3) (arg m c main_arg4) (arg m c main_arg5) (arg m c main_arg6) (arg m c main_arg7) (arg m c main_arg9) (arg m c main_arg10) (arg m c main_arg11) (arg m c main_arg12) (arg m c main_arg13) (arg m c main_arg14) (arg m c main_arg15) (arg m c main_arg16) := by
  repeat (first | rw [h] | rw [src_at12] | rw [tgt_at12] | walk1)
  rfl

end Cert.KernelIdeal.Chain
end
-- ==== Proof.BnLayer.lean ====
/-
  One batch-norm layer, kernel side against reference side, at one entry.

  The kernel folds the layer into an affine map per column: scale = g * rsqrt(v + eps) and
  shift = (be - mu * scale) + b * scale, both vectors of length 128 reshaped to a [1, 128] row; at an
  entry (row, column) it computes agg * scale[column] + shift[column]. The reference broadcasts each
  vector of length 128 along the rows of a [100000, 128] array and computes
  (((agg + b) - mu) * rsqrt(v + eps)) * g + be entrywise. With real parameters and nonnegative v the two
  agree at every entry, for any extended-real agg: read both sides at the entry, name the reals, and the
  rest is the scalar law of the folded affine map.
-/
import proofs.«142631_j15247133901708_1_alg».proof.KernelIdeal
import proofs.«142631_j15247133901708_1_alg».proof.ReferenceIdeal
import Idealize.ShloMosaic.Lib.Pipeline.Value
import Idealize.ShloMosaic.Lib.ValueIdx
import Idealize.ShloMosaic.PureOps.Ideal
import Idealize.ShloMosaic.PureOps.Ideal.Laws

noncomputable section

open Idealize.ShloMosaic

namespace Cert.BnLayer

/-! ### The scalar law -/

/-- The f32 pattern 0x3727C5AC is the positive real 10995116 * 2^(-40) (about 1e-5). -/
private theorem eps_eq : Ideal.ofBits .f32 0x3727C5AC#32 = (((10995116 : ℝ) * (2 : ℝ) ^ (-40 : ℤ) : ℝ) : EReal) := by
  simp [Ideal.ofBits, Ideal.ieee]

private theorem eps_pos : ∃ e : ℝ, 0 < e ∧ Ideal.ofBits .f32 0x3727C5AC#32 = ((e : ℝ) : EReal) :=
  ⟨_, by positivity, eps_eq⟩

/-- The reciprocal square root of a nonnegative real plus the positive constant is a positive real. -/
private theorem rsqrt_pos (v : ℝ) (hv : 0 ≤ v) :
    ∃ r : ℝ, 0 < r ∧ Ideal.rsqrt ((v : EReal) + Ideal.ofBits .f32 0x3727C5AC#32) = ((r : ℝ) : EReal) := by
  obtain ⟨e, he, heq⟩ := eps_pos
  have hpos : 0 < v + e := by linarith
  refine ⟨(Real.sqrt (v + e))⁻¹, inv_pos.2 (Real.sqrt_pos.2 hpos), ?_⟩
  rw [heq, ← EReal.coe_add, Ideal.rsqrt_coe, if_neg (not_lt.2 hpos.le), if_neg hpos.ne']

/-- The same, in the spelling of the host's operations at the ideal instance. -/
private theorem rsqrt_pos_host (v : ℝ) (hv : 0 ≤ v) :
    ∃ r : ℝ, 0 < r ∧
      FloatOps.hostUnary (F := Ideal) .rsqrt (φ := .f32)
        (FloatOps.addf (F := Ideal) (φ := .f32) ((v : EReal) : Ideal .f32) (FloatOps.ofBits (F := Ideal) .f32 0x3727C5AC#32))
        = ((r : ℝ) : EReal) :=
  rsqrt_pos v hv

private theorem bn_fold (a : EReal) (g be mu b r : ℝ) (hr : 0 < r) :
    a * ((g : EReal) * (r : EReal)) + (((be : EReal) - (mu : EReal) * ((g : EReal) * (r : EReal))) + (b : EReal) * ((g : EReal) * (r : EReal)))
  = (((a + (b : EReal)) - (mu : EReal)) * (r : EReal)) * (g : EReal) + (be : EReal) := by
  have hc : ((be : EReal) - (mu : EReal) * ((g : EReal) * (r : EReal))) + (b : EReal) * ((g : EReal) * (r : EReal))
      = ((be - mu * (g * r) + b * (g * r) : ℝ) : EReal) := by
    simp only [EReal.coe_add, EReal.coe_sub, EReal.coe_mul]
  rw [hc, ← EReal.coe_mul g r]
  induction a using EReal.rec with
  | bot =>
    rw [EReal.bot_add, EReal.bot_sub, EReal.bot_mul_coe_of_pos hr]
    rcases lt_trichotomy g 0 with hg | hg | hg
    · have hs : g * r < 0 := mul_neg_of_neg_of_pos hg hr
      rw [EReal.bot_mul_coe_of_neg hs, EReal.bot_mul_coe_of_neg hg, EReal.top_add_coe, EReal.top_add_coe]
    · subst hg
      simp
    · have hs : 0 < g * r := mul_pos hg hr
      rw [EReal.bot_mul_coe_of_pos hs, EReal.bot_mul_coe_of_pos hg, EReal.bot_add, EReal.bot_add]
  | coe a =>
    rw [← EReal.coe_mul, ← EReal.coe_add, ← EReal.coe_add, ← EReal.coe_sub, ← EReal.coe_mul, ← EReal.coe_mul,
      ← EReal.coe_add]
    congr 1
    ring
  | top =>
    rw [EReal.top_add_coe, EReal.top_sub_coe, EReal.top_mul_coe_of_pos hr]
    rcases lt_trichotomy g 0 with hg | hg | hg
    · have hs : g * r < 0 := mul_neg_of_neg_of_pos hg hr
      rw [EReal.top_mul_coe_of_neg hs, EReal.top_mul_coe_of_neg hg, EReal.bot_add, EReal.bot_add]
    · subst hg
      simp
    · have hs : 0 < g * r := mul_pos hg hr
      rw [EReal.top_mul_coe_of_pos hs, EReal.top_mul_coe_of_pos hg, EReal.top_add_coe, EReal.top_add_coe]

/-! ### The two sides -/

variable [Cert.KernelIdeal.Facts₀] [Cert.ReferenceIdeal.Facts₀]

/-- The kernel's folded scale g * rsqrt(v + eps). -/
def kScale (g v : FVec Ideal Cert.KernelIdeal.S128 .f32) : FVec Ideal Cert.KernelIdeal.S128 .f32 :=
  mulf g (Host.rsqrt (addf v (broadcastInDim Cert.KernelIdeal.S128 ![] Cert.KernelIdeal.Facts₀.bcast_S_S128 (constant (F := Ideal) Cert.KernelIdeal.S_ .f32 0x3727C5AC#32))))

/-- The kernel's folded shift (be - mu * scale) + b * scale. -/
def kShift (g be mu v b : FVec Ideal Cert.KernelIdeal.S128 .f32) : FVec Ideal Cert.KernelIdeal.S128 .f32 :=
  addf (subf be (mulf mu (kScale g v))) (mulf b (kScale g v))

/-- A vector of length 128 as every row of a [100000, 128] array. -/
def refRow (x : FVec Ideal Cert.ReferenceIdeal.S128 .f32) : FVec Ideal Cert.ReferenceIdeal.S100000x128 .f32 :=
  broadcastInDim Cert.ReferenceIdeal.S100000x128 ![0, 1] Cert.ReferenceIdeal.Facts₀.bcast_S1x128_S100000x128_0_1
    (broadcastInDim Cert.ReferenceIdeal.S1x128 ![1] Cert.ReferenceIdeal.Facts₀.bcast_S128_S1x128_1 x)

/-- The reference's (((agg + b) - mu) * rsqrt(v + eps)) * g + be. -/
def refPre (agg : FVec Ideal Cert.ReferenceIdeal.S100000x128 .f32) (g be mu v b : FVec Ideal Cert.ReferenceIdeal.S128 .f32) :
    FVec Ideal Cert.ReferenceIdeal.S100000x128 .f32 :=
  addf (mulf (mulf (subf (addf agg (refRow b)) (refRow mu))
    (refRow (Host.rsqrt (addf v (broadcastInDim Cert.ReferenceIdeal.S128 ![] Cert.ReferenceIdeal.Facts₀.bcast_S_S128 (constant (F := Ideal) Cert.ReferenceIdeal.S_ .f32 0x3727C5AC#32))))))
    (refRow g)) (refRow be)

/-! ### Reading a row vector at an entry -/

/-- The column of an entry of a [100000, 128] array, as an index of a vector of length 128. -/
abbrev colR (i : Cert.ReferenceIdeal.S100000x128.Idx) : Cert.ReferenceIdeal.S128.Idx := fun a => match a with
  | ⟨0, _⟩ => ⟨(i 1).val, (i 1).isLt⟩

/-- The column of an entry of a [1, 128] row, as an index of a vector of length 128. -/
abbrev colK (y : Cert.KernelIdeal.S1x128.Idx) : Cert.KernelIdeal.S128.Idx := fun a => match a with
  | ⟨0, _⟩ => ⟨(y 1).val, (y 1).isLt⟩

/-- The middle index: the entry's column in the [1, 128] row. -/
abbrev midR (i : Cert.ReferenceIdeal.S100000x128.Idx) : Cert.ReferenceIdeal.S1x128.Idx := fun a => match a with
  | ⟨0, _⟩ => ⟨0, Nat.one_pos⟩
  | ⟨1, _⟩ => ⟨(i 1).val, (i 1).isLt⟩

/-- A vector broadcast along the rows reads, at an entry, the vector at the entry's column. -/
theorem refRow_apply (x : FVec Ideal Cert.ReferenceIdeal.S128 .f32) (i : Cert.ReferenceIdeal.S100000x128.Idx) : refRow x i = x (colR i) := by
  unfold refRow
  refine (broadcastInDim_apply _ Cert.ReferenceIdeal.Facts₀.bcast_S1x128_S100000x128_0_1 _ i (midR i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])).trans ?_
  exact broadcastInDim_apply _ Cert.ReferenceIdeal.Facts₀.bcast_S128_S1x128_1 x (midR i) (colR i) (fun a => match a with
    | ⟨0, _⟩ => by show (i 1).val = if (128 : Nat) = 1 then 0 else (i 1).val; rw [if_neg (by decide)])

/-- A vector reshaped to a [1, 128] row reads, at an entry of the row, the vector at the entry's column. -/
theorem row_apply (w : FVec Ideal Cert.KernelIdeal.S128 .f32) (y : Cert.KernelIdeal.S1x128.Idx) :
    shapeCast Cert.KernelIdeal.S1x128 w Cert.KernelIdeal.Facts₀.shapeCasts_S128_S1x128 y = w (colK y) := by
  refine shapeCast_apply w _ y (colK y) ?_
  rw [Shape.rowMajor_val_two, Shape.rowMajor_val_one]
  have h0 : (y 0).val < 1 := ValueIdx.idx2_lt0 y
  show (y 1).val = (y 0).val * 128 + (y 1).val
  omega

/-! ### The layer at an entry -/

theorem bn_layer (agg : FVec Ideal Cert.ReferenceIdeal.S100000x128 .f32) (g be mu v b : FVec Ideal Cert.ReferenceIdeal.S128 .f32)
    (hg : ∀ j, ∃ r : ℝ, g j = ((r : ℝ) : EReal)) (hbe : ∀ j, ∃ r : ℝ, be j = ((r : ℝ) : EReal))
    (hmu : ∀ j, ∃ r : ℝ, mu j = ((r : ℝ) : EReal)) (hv : ∀ j, ∃ r : ℝ, v j = ((r : ℝ) : EReal))
    (hb : ∀ j, ∃ r : ℝ, b j = ((r : ℝ) : EReal)) (hv0 : ∀ j, 0 ≤ v j)
    (i : Cert.ReferenceIdeal.S100000x128.Idx) (y : Cert.KernelIdeal.S1x128.Idx) (hy : (y 1).val = (i 1).val) :
    FloatOps.addf (F := Ideal) (φ := .f32)
      (FloatOps.mulf (F := Ideal) (φ := .f32) (agg i)
        (shapeCast Cert.KernelIdeal.S1x128 (kScale g v) Cert.KernelIdeal.Facts₀.shapeCasts_S128_S1x128 y))
      (shapeCast Cert.KernelIdeal.S1x128 (kShift g be mu v b) Cert.KernelIdeal.Facts₀.shapeCasts_S128_S1x128 y)
    = refPre agg g be mu v b i := by
  have hj : colK y = colR i := by
    funext a
    match a with
    | ⟨0, _⟩ => exact Fin.ext hy
  obtain ⟨gr, hgr⟩ := hg (colR i)
  obtain ⟨ber, hber⟩ := hbe (colR i)
  obtain ⟨mur, hmur⟩ := hmu (colR i)
  obtain ⟨vr, hvr⟩ := hv (colR i)
  obtain ⟨br, hbr⟩ := hb (colR i)
  have hvr0 : 0 ≤ vr := by
    have := hv0 (colR i)
    rw [hvr] at this
    exact EReal.coe_nonneg.1 this
  obtain ⟨r, hr0, hr⟩ := rsqrt_pos vr hvr0
  rw [row_apply (kScale g v) y, row_apply (kShift g be mu v b) y, hj]
  have hs : kScale g v (colR i) = (gr : EReal) * (r : EReal) := by
    show g (colR i) * Ideal.rsqrt (v (colR i) + Ideal.ofBits .f32 0x3727C5AC#32) = _
    rw [hgr, hvr, hr]
  have hsh : kShift g be mu v b (colR i)
      = ((ber : EReal) - (mur : EReal) * ((gr : EReal) * (r : EReal))) + (br : EReal) * ((gr : EReal) * (r : EReal)) := by
    show (be (colR i) - mu (colR i) * kScale g v (colR i)) + b (colR i) * kScale g v (colR i) = _
    rw [hs, hber, hmur, hbr]
  have hR : refPre agg g be mu v b i
      = (((agg i + (br : EReal)) - (mur : EReal)) * (r : EReal)) * (gr : EReal) + (ber : EReal) := by
    show (((agg i + refRow b i) - refRow mu i) * refRow (Host.rsqrt (addf v (broadcastInDim Cert.ReferenceIdeal.S128 ![] Cert.ReferenceIdeal.Facts₀.bcast_S_S128
        (constant (F := Ideal) Cert.ReferenceIdeal.S_ .f32 0x3727C5AC#32)))) i) * refRow g i + refRow be i = _
    rw [refRow_apply b i, refRow_apply mu i, refRow_apply g i, refRow_apply be i, refRow_apply _ i, hbr, hmur, hgr, hber]
    show (((agg i + (br : EReal)) - (mur : EReal)) * Ideal.rsqrt (v (colR i) + Ideal.ofBits .f32 0x3727C5AC#32)) * (gr : EReal)
        + (ber : EReal) = _
    rw [hvr, hr]
  rw [hs, hsh, hR]
  exact bn_fold (agg i) gr ber mur br r hr0

/-! ### The leaky rectifier on top of the layer -/

/-- y if y ≥ 0, else c * y with c the f32 pattern 0x3C23D70A (about 0.01), at one entry. -/
def lreluE (y : EReal) : EReal :=
  Scalar.select (FloatOps.cmpf (F := Ideal) (φ := .f32) .oge y (Scalar.ofBits (F := Ideal) .f32 0x00000000#32)) y
    (FloatOps.mulf (F := Ideal) (φ := .f32) (Scalar.ofBits (F := Ideal) .f32 0x3C23D70A#32) y)

/-- The reference's layer: the leaky rectifier of the unfolded batch-norm, entrywise. -/
def refLayer (agg : FVec Ideal Cert.ReferenceIdeal.S100000x128 .f32) (g be mu v b : FVec Ideal Cert.ReferenceIdeal.S128 .f32) :
    FVec Ideal Cert.ReferenceIdeal.S100000x128 .f32 :=
  select
    (cmpf .oge (refPre agg g be mu v b)
      (broadcastInDim Cert.ReferenceIdeal.S100000x128 ![] Cert.ReferenceIdeal.Facts₀.bcast_S_S100000x128 (constant (F := Ideal) Cert.ReferenceIdeal.S_ .f32 0x00000000#32)))
    (refPre agg g be mu v b)
    (mulf (broadcastInDim Cert.ReferenceIdeal.S100000x128 ![] Cert.ReferenceIdeal.Facts₀.bcast_S_S100000x128 (constant (F := Ideal) Cert.ReferenceIdeal.S_ .f32 0x3C23D70A#32))
      (refPre agg g be mu v b))

/-- A broadcast scalar reads the scalar at every entry, so the reference's layer is the rectifier of its entry. -/
theorem refLayer_apply (agg : FVec Ideal Cert.ReferenceIdeal.S100000x128 .f32) (g be mu v b : FVec Ideal Cert.ReferenceIdeal.S128 .f32)
    (i : Cert.ReferenceIdeal.S100000x128.Idx) : refLayer agg g be mu v b i = lreluE (refPre agg g be mu v b i) := rfl

/-- One whole layer at an entry: the rectifier of the kernel's folded affine map is the reference's layer. -/
theorem layer_eq (agg : FVec Ideal Cert.ReferenceIdeal.S100000x128 .f32) (g be mu v b : FVec Ideal Cert.ReferenceIdeal.S128 .f32)
    (hg : ∀ j, ∃ r : ℝ, g j = ((r : ℝ) : EReal)) (hbe : ∀ j, ∃ r : ℝ, be j = ((r : ℝ) : EReal))
    (hmu : ∀ j, ∃ r : ℝ, mu j = ((r : ℝ) : EReal)) (hv : ∀ j, ∃ r : ℝ, v j = ((r : ℝ) : EReal))
    (hb : ∀ j, ∃ r : ℝ, b j = ((r : ℝ) : EReal)) (hv0 : ∀ j, 0 ≤ v j)
    (i : Cert.ReferenceIdeal.S100000x128.Idx) (y : Cert.KernelIdeal.S1x128.Idx) (hy : (y 1).val = (i 1).val) :
    lreluE (FloatOps.addf (F := Ideal) (φ := .f32)
        (FloatOps.mulf (F := Ideal) (φ := .f32) (agg i)
          (shapeCast Cert.KernelIdeal.S1x128 (kScale g v) Cert.KernelIdeal.Facts₀.shapeCasts_S128_S1x128 y))
        (shapeCast Cert.KernelIdeal.S1x128 (kShift g be mu v b) Cert.KernelIdeal.Facts₀.shapeCasts_S128_S1x128 y))
    = refLayer agg g be mu v b i :=
  (congrArg lreluE (bn_layer agg g be mu v b hg hbe hmu hv hb hv0 i y hy)).trans (refLayer_apply agg g be mu v b i).symm

/-- The same with the previous layer's output added (the residual layers). -/
theorem layer_res_eq (agg : FVec Ideal Cert.ReferenceIdeal.S100000x128 .f32) (g be mu v b : FVec Ideal Cert.ReferenceIdeal.S128 .f32)
    (hg : ∀ j, ∃ r : ℝ, g j = ((r : ℝ) : EReal)) (hbe : ∀ j, ∃ r : ℝ, be j = ((r : ℝ) : EReal))
    (hmu : ∀ j, ∃ r : ℝ, mu j = ((r : ℝ) : EReal)) (hv : ∀ j, ∃ r : ℝ, v j = ((r : ℝ) : EReal))
    (hb : ∀ j, ∃ r : ℝ, b j = ((r : ℝ) : EReal)) (hv0 : ∀ j, 0 ≤ v j)
    (i : Cert.ReferenceIdeal.S100000x128.Idx) (y : Cert.KernelIdeal.S1x128.Idx) (hy : (y 1).val = (i 1).val) (res : FVec Ideal Cert.ReferenceIdeal.S100000x128 .f32) :
    FloatOps.addf (F := Ideal) (φ := .f32) (lreluE (FloatOps.addf (F := Ideal) (φ := .f32)
        (FloatOps.mulf (F := Ideal) (φ := .f32) (agg i)
          (shapeCast Cert.KernelIdeal.S1x128 (kScale g v) Cert.KernelIdeal.Facts₀.shapeCasts_S128_S1x128 y))
        (shapeCast Cert.KernelIdeal.S1x128 (kShift g be mu v b) Cert.KernelIdeal.Facts₀.shapeCasts_S128_S1x128 y))) (res i)
    = addf (refLayer agg g be mu v b) res i :=
  congrArg (fun t => FloatOps.addf (F := Ideal) (φ := .f32) t (res i)) (layer_eq agg g be mu v b hg hbe hmu hv hb hv0 i y hy)

end Cert.BnLayer
-- ==== Proof.RegionMM.lean ====
/- What the three matmul regions of the kernel leave in their result arrays at the ideal
   instance, as ONE function of the arrays each region reads, stated at a parameter `V` (the buffer contents when the
   region is entered). Each region has ten grid points; point `t` multiplies row block `t` (10000 rows) of the
   [100000,128] left array by the whole [128,128] weight into a zero accumulator and writes the result to row block `t`
   of the result array. At the extended reals the format change on the operands is the identity and the block product's
   entry (r, q) is the sum over k of left (r, k) times weight (k, q); row 10000 t + r of the array is row r of block t, so the
   ten blocks together are the whole product `matProd`. -/
import proofs.«142631_j15247133901708_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)

/-! ## The whole product, and the body's product at an index -/

theorem hz : (![0, 0] : Fin 2 → Nat) = fun _ => 0 := funext fun a => by fin_cases a <;> rfl

/-- Index (r, k) of a 10000-row block. -/
abbrev rowIdx (r : Fin 10000) (k : Fin 128) : S10000x128.Idx := ValueIdx.ix2 r k
/-- Index (k, q) of the weight matrix. -/
abbrev colIdx (k : Fin 128) (q : Fin 128) : S128x128.Idx := ValueIdx.ix2 k q

/-- The left factor's index of entry `i` of the product at contraction index `k`: (row of `i`, `k`). -/
abbrev leftIdx (i : S100000x128.Idx) (k : Fin 128) : S100000x128.Idx := fun a => match a with
  | ⟨0, _⟩ => ⟨(i 0).val, (i 0).isLt⟩
  | ⟨1, _⟩ => ⟨k.val, k.isLt⟩
/-- The right factor's index: (`k`, column of `i`). -/
abbrev rightIdx (i : S100000x128.Idx) (k : Fin 128) : S128x128.Idx := fun a => match a with
  | ⟨0, _⟩ => ⟨k.val, k.isLt⟩
  | ⟨1, _⟩ => ⟨(i 1).val, (i 1).isLt⟩

/-- The product of a [100000,128] array and a [128,128] matrix over the extended reals: entry (r, q) is the sum
    over k of x (r, k) * w (k, q). -/
def matProd (x : S100000x128.Idx → Ideal .f32) (w : S128x128.Idx → Ideal .f32) : S100000x128.Idx → Ideal .f32 :=
  fun i => ∑ k : Fin 128, x (leftIdx i k) * w (rightIdx i k)

theorem matProd_apply (x : S100000x128.Idx → Ideal .f32) (w : S128x128.Idx → Ideal .f32) (i : S100000x128.Idx) :
    matProd x w i = ∑ k : Fin 128, x (leftIdx i k) * w (rightIdx i k) := rfl

theorem lhs_0 (j : S10000x128.Idx) (q : dot_S10000x128_S128x128_S10000x128_1_0_0_1_n_n.contr.Idx) : (dot_S10000x128_S128x128_S10000x128_1_0_0_1_n_n.lhsIdx j q 0).val = (j 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs_1 (j : S10000x128.Idx) (q : dot_S10000x128_S128x128_S10000x128_1_0_0_1_n_n.contr.Idx) : (dot_S10000x128_S128x128_S10000x128_1_0_0_1_n_n.lhsIdx j q 1).val = (q ⟨0, by decide⟩).val :=
  dot_S10000x128_S128x128_S10000x128_1_0_0_1_n_n.lhsIdx_val_of_single rfl j q
theorem rhs_0 (j : S10000x128.Idx) (q : dot_S10000x128_S128x128_S10000x128_1_0_0_1_n_n.contr.Idx) : (dot_S10000x128_S128x128_S10000x128_1_0_0_1_n_n.rhsIdx j q 0).val = (q ⟨0, by decide⟩).val :=
  dot_S10000x128_S128x128_S10000x128_1_0_0_1_n_n.rhsIdx_val_of_single rfl j q
theorem rhs_1 (j : S10000x128.Idx) (q : dot_S10000x128_S128x128_S10000x128_1_0_0_1_n_n.contr.Idx) : (dot_S10000x128_S128x128_S10000x128_1_0_0_1_n_n.rhsIdx j q 1).val = (j 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The block matmul into a zero accumulator, read at (r, q): the sum over k of the left block at (r, k) times the
    weight at (k, q); the format change of the operands is the identity on extended reals. -/
theorem matmul_at (x : FVec Ideal S10000x128 .bf16) (w : FVec Ideal S128x128 .bf16) (j : S10000x128.Idx) :
    matmul dot_S10000x128_S128x128_S10000x128_1_0_0_1_n_n none x w (constant (F := Ideal) S10000x128 .f32 0x00000000#32) j
      = ∑ k : Fin 128, x (rowIdx (j 0) k) * w (colIdx k (j 1)) := by
  simp only [matmul]
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx j ((ValueIdx.contrEquiv1 dot_S10000x128_S128x128_S10000x128_1_0_0_1_n_n 128 rfl rfl).symm k) = rowIdx (j 0) k := funext fun a => Fin.ext (by
    match a with
    | ⟨0, _⟩ => exact lhs_0 _ _
    | ⟨1, _⟩ => exact (lhs_1 _ _).trans hk)
  have er : dot_S10000x128_S128x128_S10000x128_1_0_0_1_n_n.rhsIdx j ((ValueIdx.contrEquiv1 dot_S10000x128_S128x128_S10000x128_1_0_0_1_n_n 128 rfl rfl).symm k) = colIdx k (j 1) := funext fun a => Fin.ext (by
    match a with
    | ⟨0, _⟩ => exact (rhs_0 _ _).trans hk
    | ⟨1, _⟩ => exact rhs_1 _ _)
  rw [el, er]

/-- The product at array index `i` from the block product at block index `j`, when row `j 0` of the block is row
    `i 0` of the array and the columns agree. -/
theorem prod_at (X : S100000x128.Idx → Ideal .f32) (W : S128x128.Idx → Ideal .f32)
    (x : S10000x128.Idx → Ideal .f32) (w : S128x128.Idx → Ideal .f32) (j : S10000x128.Idx) (i : S100000x128.Idx)
    (hx : ∀ k : Fin 128, x (rowIdx (j 0) k) = X (leftIdx i k)) (hw : ∀ k : Fin 128, w (colIdx k (j 1)) = W (rightIdx i k)) :
    (∑ k : Fin 128, x (rowIdx (j 0) k) * w (colIdx k (j 1))) = matProd X W i := by
  rw [matProd_apply]
  exact Finset.sum_congr rfl fun k _ => by rw [hx k, hw k]

/-- Region 0's payload at a block index is the product's entry at the array index under it. -/
theorem pay0_at (x : Vec Ideal S10000x128 .f32) (w : Vec Ideal S128x128 .f32) (X : S100000x128.Idx → Ideal .f32) (W : S128x128.Idx → Ideal .f32)
    (j : S10000x128.Idx) (i : S100000x128.Idx)
    (hx : ∀ k : Fin 128, x (rowIdx (j 0) k) = X (leftIdx i k)) (hw : ∀ k : Fin 128, w (colIdx k (j 1)) = W (rightIdx i k)) :
    k0_pay1 (F := Ideal) x w j = matProd X W i := by
  unfold k0_pay1
  refine (matmul_at _ _ j).trans ?_
  exact prod_at X W x w j i hx hw

/-- Regions 2 and 4: the same, the left block first passed through a reshape to its own shape. -/
theorem pay2_at (x : Vec Ideal S10000x128 .f32) (w : Vec Ideal S128x128 .f32) (X : S100000x128.Idx → Ideal .f32) (W : S128x128.Idx → Ideal .f32)
    (j : S10000x128.Idx) (i : S100000x128.Idx)
    (hx : ∀ k : Fin 128, x (rowIdx (j 0) k) = X (leftIdx i k)) (hw : ∀ k : Fin 128, w (colIdx k (j 1)) = W (rightIdx i k)) :
    k2_pay1 (F := Ideal) x w j = matProd X W i := by
  unfold k2_pay1
  rw [shapeCast_self]
  refine (matmul_at _ _ j).trans ?_
  exact prod_at X W x w j i hx hw

theorem pay4_at (x : Vec Ideal S10000x128 .f32) (w : Vec Ideal S128x128 .f32) (X : S100000x128.Idx → Ideal .f32) (W : S128x128.Idx → Ideal .f32)
    (j : S10000x128.Idx) (i : S100000x128.Idx)
    (hx : ∀ k : Fin 128, x (rowIdx (j 0) k) = X (leftIdx i k)) (hw : ∀ k : Fin 128, w (colIdx k (j 1)) = W (rightIdx i k)) :
    k4_pay1 (F := Ideal) x w j = matProd X W i := by
  unfold k4_pay1
  rw [shapeCast_self]
  refine (matmul_at _ _ j).trans ?_
  exact prod_at X W x w j i hx hw

variable (V : (c : Dev nD) → (b : Ref sig .tc) → Buf (Elt Ideal) ((c : Thread nD τ).loc b))

/-! ## Region 0: the row blocks of the product -/

/-- The printed index maps at a grid point: the left operand's and the result's blocks are row block `t`,
    the weight's block is the whole matrix. -/
theorem blockIdx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is row block `t` of the whole product of the two arrays the region reads: entry
    (r, q) of the block is the product's entry (10000 t + r, q), whose left factors are row r of the left block and
    whose right factors are column q of the weight. -/
theorem flushed0_eq (c : Dev nD) (t : Fin cfg0.N) :
    (dat0 (F := Ideal) V c).flushed 2 t = ((cfg0.win 2).blk t).view.read (Elt Ideal)
      (matProd (V c (Pipeline.arrRef spec0 0)) (V c (Pipeline.arrRef spec0 1))) := by
  show (cfg0.win 2).cut (grid0.coords t) ((dat0 (F := Ideal) V c).after 2 t) = _
  rw [after0_2]
  unfold out0_2
  rw [View.canon_unit_zero hz]
  simp only [View.ld_unit_zero (S := S10000x128) hz, View.ld_unit_zero (S := S128x128) hz]
  obtain ⟨e0, e1, e2, e3, e4, e5⟩ := blockIdx0 t
  funext j
  rw [View.read_apply]
  refine Eq.trans ?_ (cast_eq rfl _).symm
  refine pay0_at (iblk0 V c 0 t) (iblk0 V c 1 t) (V c (Pipeline.arrRef spec0 0)) (V c (Pipeline.arrRef spec0 1)) _ _ (fun k => ?_) (fun k => ?_)
  · show V c (Pipeline.arrRef spec0 0) (((cfg0.win 0).blk t).view.emb (rowIdx (j 0) k)) = _
    refine congrArg _ (funext fun a => Fin.ext ?_)
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  · show V c (Pipeline.arrRef spec0 1) (((cfg0.win 1).blk t).view.emb (colIdx k (j 1))) = _
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega

/-- An index of the result array is in point `t`'s block iff each coordinate is in the block's range on its axis. -/
theorem mem_blk0 (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v4).slice (win0_2.rect t)).set ↔ _
  rw [View.set_slice_whole, Rect.mem_set_unit]
  exact Iff.rfl

/-- Every row of the result lies in the block of the point numbered by the row divided by the block height. -/
theorem cover0 (i : S100000x128.Idx) :
    ∃ t : Fin cfg0.N, (cfg0.win 2).flush t = true ∧ i ∈ ((cfg0.win 2).blk t).view.set := by
  have hN : grid0.N = 10 := N_0
  have hi0 : (i 0).val < 100000 := (i 0).isLt
  have hi1 : (i 1).val < 128 := (i 1).isLt
  have hlt : (i 0).val / 10000 < cfg0.N := by show (i 0).val / 10000 < grid0.N; omega
  obtain ⟨e0, e1, e2, e3, e4, e5⟩ := blockIdx0 ⟨(i 0).val / 10000, hlt⟩
  have e4' : win0_2.index ⟨(i 0).val / 10000, hlt⟩ (0 : Fin 2) = (i 0).val / 10000 := e4
  refine ⟨⟨(i 0).val / 10000, hlt⟩, flush0_2 _, ?_⟩
  rw [mem_blk0]
  intro a
  match a with
  | ⟨0, _⟩ => show win0_2.index ⟨(i 0).val / 10000, hlt⟩ (0 : Fin 2) * 10000 ≤ (i 0).val ∧ (i 0).val < win0_2.index ⟨(i 0).val / 10000, hlt⟩ (0 : Fin 2) * 10000 + 10000; omega
  | ⟨1, _⟩ => show win0_2.index ⟨(i 0).val / 10000, hlt⟩ (1 : Fin 2) * 128 ≤ (i 1).val ∧ (i 1).val < win0_2.index ⟨(i 0).val / 10000, hlt⟩ (1 : Fin 2) * 128 + 128; omega

/-- THE ARRAY region 0 leaves: the whole product of the two arrays it reads, entry (r, q) the sum over k of left (r, k) times weight (k, q). -/
theorem mm0 (c : Dev nD) :
    (dat0 (F := Ideal) V c).arrAt 2 cfg0.N
      = matProd (V c (Pipeline.arrRef spec0 0)) (V c (Pipeline.arrRef spec0 1)) :=
  (dat0 (F := Ideal) V c).arrAt_eq_of_cover 2 _ (fun t _ => flushed0_eq V c t) (cover0)

/-- The same entry by entry (`matProd_apply` spells the entry as the sum). -/
theorem mm0_apply (c : Dev nD) (i : S100000x128.Idx) :
    (dat0 (F := Ideal) V c).arrAt 2 cfg0.N i
      = matProd (V c (Pipeline.arrRef spec0 0)) (V c (Pipeline.arrRef spec0 1)) i :=
  congrFun (mm0 V c) i

/-! ## Region 2: the row blocks of the product -/

/-- The printed index maps at a grid point: the left operand's and the result's blocks are row block `t`,
    the weight's block is the whole matrix. -/
theorem blockIdx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is row block `t` of the whole product of the two arrays the region reads: entry
    (r, q) of the block is the product's entry (10000 t + r, q), whose left factors are row r of the left block and
    whose right factors are column q of the weight. -/
theorem flushed2_eq (c : Dev nD) (t : Fin cfg2.N) :
    (dat2 (F := Ideal) V c).flushed 2 t = ((cfg2.win 2).blk t).view.read (Elt Ideal)
      (matProd (V c (Pipeline.arrRef spec2 0)) (V c (Pipeline.arrRef spec2 1))) := by
  show (cfg2.win 2).cut (grid2.coords t) ((dat2 (F := Ideal) V c).after 2 t) = _
  rw [after2_2]
  unfold out2_2
  rw [View.canon_unit_zero hz]
  simp only [View.ld_unit_zero (S := S10000x128) hz, View.ld_unit_zero (S := S128x128) hz]
  obtain ⟨e0, e1, e2, e3, e4, e5⟩ := blockIdx2 t
  funext j
  rw [View.read_apply]
  refine Eq.trans ?_ (cast_eq rfl _).symm
  refine pay2_at (iblk2 V c 0 t) (iblk2 V c 1 t) (V c (Pipeline.arrRef spec2 0)) (V c (Pipeline.arrRef spec2 1)) _ _ (fun k => ?_) (fun k => ?_)
  · show V c (Pipeline.arrRef spec2 0) (((cfg2.win 0).blk t).view.emb (rowIdx (j 0) k)) = _
    refine congrArg _ (funext fun a => Fin.ext ?_)
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 128 + 1 * k.val = k.val; omega
  · show V c (Pipeline.arrRef spec2 1) (((cfg2.win 1).blk t).view.emb (colIdx k (j 1))) = _
    refine congrArg _ (funext fun a => Fin.ext ?_)
    match a with
    | ⟨0, _⟩ => show win2_1.index t (0 : Fin 2) * 128 + 1 * k.val = k.val; omega
    | ⟨1, _⟩ => show win2_1.index t (1 : Fin 2) * 128 + 1 * (j 1).val = win2_2.index t (1 : Fin 2) * 128 + 1 * (j 1).val; omega

/-- An index of the result array is in point `t`'s block iff each coordinate is in the block's range on its axis. -/
theorem mem_blk2 (t : Fin cfg2.N) (i : S100000x128.Idx) :
    i ∈ ((cfg2.win 2).blk t).view.set ↔ ∀ a : Fin 2, win2_2.index t a * S10000x128.size a ≤ (i a).val ∧ (i a).val < win2_2.index t a * S10000x128.size a + S10000x128.size a := by
  show i ∈ ((View.whole main_v55).slice (win2_2.rect t)).set ↔ _
  rw [View.set_slice_whole, Rect.mem_set_unit]
  exact Iff.rfl

/-- Every row of the result lies in the block of the point numbered by the row divided by the block height. -/
theorem cover2 (i : S100000x128.Idx) :
    ∃ t : Fin cfg2.N, (cfg2.win 2).flush t = true ∧ i ∈ ((cfg2.win 2).blk t).view.set := by
  have hN : grid2.N = 10 := N_2
  have hi0 : (i 0).val < 100000 := (i 0).isLt
  have hi1 : (i 1).val < 128 := (i 1).isLt
  have hlt : (i 0).val / 10000 < cfg2.N := by show (i 0).val / 10000 < grid2.N; omega
  obtain ⟨e0, e1, e2, e3, e4, e5⟩ := blockIdx2 ⟨(i 0).val / 10000, hlt⟩
  have e4' : win2_2.index ⟨(i 0).val / 10000, hlt⟩ (0 : Fin 2) = (i 0).val / 10000 := e4
  refine ⟨⟨(i 0).val / 10000, hlt⟩, flush2_2 _, ?_⟩
  rw [mem_blk2]
  intro a
  match a with
  | ⟨0, _⟩ => show win2_2.index ⟨(i 0).val / 10000, hlt⟩ (0 : Fin 2) * 10000 ≤ (i 0).val ∧ (i 0).val < win2_2.index ⟨(i 0).val / 10000, hlt⟩ (0 : Fin 2) * 10000 + 10000; omega
  | ⟨1, _⟩ => show win2_2.index ⟨(i 0).val / 10000, hlt⟩ (1 : Fin 2) * 128 ≤ (i 1).val ∧ (i 1).val < win2_2.index ⟨(i 0).val / 10000, hlt⟩ (1 : Fin 2) * 128 + 128; omega

/-- THE ARRAY region 2 leaves: the whole product of the two arrays it reads, entry (r, q) the sum over k of left (r, k) times weight (k, q). -/
theorem mm2 (c : Dev nD) :
    (dat2 (F := Ideal) V c).arrAt 2 cfg2.N
      = matProd (V c (Pipeline.arrRef spec2 0)) (V c (Pipeline.arrRef spec2 1)) :=
  (dat2 (F := Ideal) V c).arrAt_eq_of_cover 2 _ (fun t _ => flushed2_eq V c t) (cover2)

/-- The same entry by entry (`matProd_apply` spells the entry as the sum). -/
theorem mm2_apply (c : Dev nD) (i : S100000x128.Idx) :
    (dat2 (F := Ideal) V c).arrAt 2 cfg2.N i
      = matProd (V c (Pipeline.arrRef spec2 0)) (V c (Pipeline.arrRef spec2 1)) i :=
  congrFun (mm2 V c) i

/-! ## Region 4: the row blocks of the product -/

/-- The printed index maps at a grid point: the left operand's and the result's blocks are row block `t`,
    the weight's block is the whole matrix. -/
theorem blockIdx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point `t` writes back is row block `t` of the whole product of the two arrays the region reads: entry
    (r, q) of the block is the product's entry (10000 t + r, q), whose left factors are row r of the left block and
    whose right factors are column q of the weight. -/
theorem flushed4_eq (c : Dev nD) (t : Fin cfg4.N) :
    (dat4 (F := Ideal) V c).flushed 2 t = ((cfg4.win 2).blk t).view.read (Elt Ideal)
      (matProd (V c (Pipeline.arrRef spec4 0)) (V c (Pipeline.arrRef spec4 1))) := by
  show (cfg4.win 2).cut (grid4.coords t) ((dat4 (F := Ideal) V c).after 2 t) = _
  rw [after4_2]
  unfold out4_2
  rw [View.canon_unit_zero hz]
  simp only [View.ld_unit_zero (S := S10000x128) hz, View.ld_unit_zero (S := S128x128) hz]
  obtain ⟨e0, e1, e2, e3, e4, e5⟩ := blockIdx4 t
  funext j
  rw [View.read_apply]
  refine Eq.trans ?_ (cast_eq rfl _).symm
  refine pay4_at (iblk4 V c 0 t) (iblk4 V c 1 t) (V c (Pipeline.arrRef spec4 0)) (V c (Pipeline.arrRef spec4 1)) _ _ (fun k => ?_) (fun k => ?_)
  · show V c (Pipeline.arrRef spec4 0) (((cfg4.win 0).blk t).view.emb (rowIdx (j 0) k)) = _
    refine congrArg _ (funext fun a => Fin.ext ?_)
    match a with
    | ⟨0, _⟩ => show win4_0.index t (0 : Fin 2) * 10000 + 1 * (j 0).val = win4_2.index t (0 : Fin 2) * 10000 + 1 * (j 0).val; omega
    | ⟨1, _⟩ => show win4_0.index t (1 : Fin 2) * 128 + 1 * k.val = k.val; omega
  · show V c (Pipeline.arrRef spec4 1) (((cfg4.win 1).blk t).view.emb (colIdx k (j 1))) = _
    refine congrArg _ (funext fun a => Fin.ext ?_)
    match a with
    | ⟨0, _⟩ => show win4_1.index t (0 : Fin 2) * 128 + 1 * k.val = k.val; omega
    | ⟨1, _⟩ => show win4_1.index t (1 : Fin 2) * 128 + 1 * (j 1).val = win4_2.index t (1 : Fin 2) * 128 + 1 * (j 1).val; omega

/-- An index of the result array is in point `t`'s block iff each coordinate is in the block's range on its axis. -/
theorem mem_blk4 (t : Fin cfg4.N) (i : S100000x128.Idx) :
    i ∈ ((cfg4.win 2).blk t).view.set ↔ ∀ a : Fin 2, win4_2.index t a * S10000x128.size a ≤ (i a).val ∧ (i a).val < win4_2.index t a * S10000x128.size a + S10000x128.size a := by
  show i ∈ ((View.whole main_v106).slice (win4_2.rect t)).set ↔ _
  rw [View.set_slice_whole, Rect.mem_set_unit]
  exact Iff.rfl

/-- Every row of the result lies in the block of the point numbered by the row divided by the block height. -/
theorem cover4 (i : S100000x128.Idx) :
    ∃ t : Fin cfg4.N, (cfg4.win 2).flush t = true ∧ i ∈ ((cfg4.win 2).blk t).view.set := by
  have hN : grid4.N = 10 := N_4
  have hi0 : (i 0).val < 100000 := (i 0).isLt
  have hi1 : (i 1).val < 128 := (i 1).isLt
  have hlt : (i 0).val / 10000 < cfg4.N := by show (i 0).val / 10000 < grid4.N; omega
  obtain ⟨e0, e1, e2, e3, e4, e5⟩ := blockIdx4 ⟨(i 0).val / 10000, hlt⟩
  have e4' : win4_2.index ⟨(i 0).val / 10000, hlt⟩ (0 : Fin 2) = (i 0).val / 10000 := e4
  refine ⟨⟨(i 0).val / 10000, hlt⟩, flush4_2 _, ?_⟩
  rw [mem_blk4]
  intro a
  match a with
  | ⟨0, _⟩ => show win4_2.index ⟨(i 0).val / 10000, hlt⟩ (0 : Fin 2) * 10000 ≤ (i 0).val ∧ (i 0).val < win4_2.index ⟨(i 0).val / 10000, hlt⟩ (0 : Fin 2) * 10000 + 10000; omega
  | ⟨1, _⟩ => show win4_2.index ⟨(i 0).val / 10000, hlt⟩ (1 : Fin 2) * 128 ≤ (i 1).val ∧ (i 1).val < win4_2.index ⟨(i 0).val / 10000, hlt⟩ (1 : Fin 2) * 128 + 128; omega

/-- THE ARRAY region 4 leaves: the whole product of the two arrays it reads, entry (r, q) the sum over k of left (r, k) times weight (k, q). -/
theorem mm4 (c : Dev nD) :
    (dat4 (F := Ideal) V c).arrAt 2 cfg4.N
      = matProd (V c (Pipeline.arrRef spec4 0)) (V c (Pipeline.arrRef spec4 1)) :=
  (dat4 (F := Ideal) V c).arrAt_eq_of_cover 2 _ (fun t _ => flushed4_eq V c t) (cover4)

/-- The same entry by entry (`matProd_apply` spells the entry as the sum). -/
theorem mm4_apply (c : Dev nD) (i : S100000x128.Idx) :
    (dat4 (F := Ideal) V c).arrAt 2 cfg4.N i
      = matProd (V c (Pipeline.arrRef spec4 0)) (V c (Pipeline.arrRef spec4 1)) i :=
  congrFun (mm4 V c) i

end Cert.KernelIdeal.RegionValue

end
-- ==== Proof.RegionAff.lean ====
/- What the three scale-shift-rectify regions of the kernel leave in their result arrays at
   the ideal instance, as ONE function of the arrays each region reads, stated at a parameter `V` (the buffer contents
   when the region is entered). Each region has twenty grid points; point `t` takes row block `t` (5000 rows) of a
   [100000,128] array, multiplies column q by s (0, q), adds t (0, q) — the two [1,128] row vectors are read whole at every
   point —, applies the leaky rectifier (y where y ≥ 0, the slope literal times y elsewhere), in regions 3 and 5 adds row
   block `t` of a residual array, and writes row block `t` of the result. Every operation is entry by entry and row
   5000 t + r of an array is row r of its block t, so the twenty blocks together are the law applied to the whole
   arrays: `affLrelu`, `affLreluRes`. -/
import proofs.«142631_j15247133901708_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)

/-! ## The elementwise law -/

theorem offs_zero : (![0, 0] : Fin 2 → Nat) = fun _ => 0 := funext fun a => by fin_cases a <;> rfl

/-- Index (0, q) of a [1,128] row vector. -/
abbrev vecIdx (q : Fin 128) : S1x128.Idx := ValueIdx.ix2 (0 : Fin 1) q

/-- The leaky rectifier of slope 0.01 (the f32 literal nearest it) on an extended real: `y` where `y ≥ 0`, the literal
    times `y` elsewhere. -/
def lrelu (y : Ideal .f32) : Ideal .f32 :=
  Scalar.select (FloatOps.cmpf (F := Ideal) .oge y (FloatOps.ofBits (F := Ideal) .f32 0x00000000#32)) y
    (FloatOps.mulf (F := Ideal) (FloatOps.ofBits (F := Ideal) .f32 0x3C23D70A#32) y)

/-- Per-column scale and shift of a [100000,128] array, then the leaky rectifier: entry (r, q) is
    `lrelu (a (r, q) * s (0, q) + t (0, q))`. -/
def affLrelu (a : S100000x128.Idx → Ideal .f32) (s t : S1x128.Idx → Ideal .f32) : S100000x128.Idx → Ideal .f32 :=
  fun i => lrelu (FloatOps.addf (F := Ideal) (FloatOps.mulf (F := Ideal) (a i) (s (vecIdx (i 1)))) (t (vecIdx (i 1))))

/-- The same with a residual array added entry by entry at the end. -/
def affLreluRes (a : S100000x128.Idx → Ideal .f32) (s t : S1x128.Idx → Ideal .f32) (res : S100000x128.Idx → Ideal .f32) :
    S100000x128.Idx → Ideal .f32 :=
  fun i => FloatOps.addf (F := Ideal) (affLrelu a s t i) (res i)

/-- A [1,128] row vector broadcast down the 5000 rows of a block reads, at (r, q), the vector at (0, q). -/
theorem rowBroadcast_at (s : S1x128.Idx → Ideal .f32) (j : S5000x128.Idx) :
    broadcastTo S5000x128 s broadcasts_S1x128_S5000x128 j = s (vecIdx (j 1)) :=
  broadcastTo_apply s broadcasts_S1x128_S5000x128 j (vecIdx (j 1)) (fun a => match a with
    | ⟨0, _⟩ => by show (0 : Nat) = if (1 : Nat) = 1 then 0 else (j 0).val; rw [if_pos rfl]
    | ⟨1, _⟩ => by show (j 1).val = if (128 : Nat) = 1 then 0 else (j 1).val; rw [if_neg (by decide)])

/-- The body of the scale-shift-rectify regions at a block index: the law at that entry of the block and the two
    row vectors. -/
theorem pay1_at (a : Vec Ideal S5000x128 .f32) (s t : Vec Ideal S1x128 .f32) (j : S5000x128.Idx) :
    k1_pay1 (F := Ideal) a s t j
      = lrelu (FloatOps.addf (F := Ideal) (FloatOps.mulf (F := Ideal) (a j) (s (vecIdx (j 1)))) (t (vecIdx (j 1)))) := by
  unfold k1_pay1
  simp only [shapeCast_self]
  show lrelu (FloatOps.addf (F := Ideal) (FloatOps.mulf (F := Ideal) (a j) (broadcastTo S5000x128 s broadcasts_S1x128_S5000x128 j))
    (broadcastTo S5000x128 t broadcasts_S1x128_S5000x128 j)) = _
  rw [rowBroadcast_at, rowBroadcast_at]

/-- The same body with the residual block added. -/
theorem pay3_at (a : Vec Ideal S5000x128 .f32) (s t : Vec Ideal S1x128 .f32) (res : Vec Ideal S5000x128 .f32) (j : S5000x128.Idx) :
    k3_pay1 (F := Ideal) a s t res j
      = FloatOps.addf (F := Ideal) (lrelu (FloatOps.addf (F := Ideal) (FloatOps.mulf (F := Ideal) (a j) (s (vecIdx (j 1)))) (t (vecIdx (j 1))))) (res j) := by
  unfold k3_pay1
  simp only [shapeCast_self]
  show FloatOps.addf (F := Ideal) (lrelu (FloatOps.addf (F := Ideal) (FloatOps.mulf (F := Ideal) (a j) (broadcastTo S5000x128 s broadcasts_S1x128_S5000x128 j))
    (broadcastTo S5000x128 t broadcasts_S1x128_S5000x128 j))) (res j) = _
  rw [rowBroadcast_at, rowBroadcast_at]

theorem pay5_at (a : Vec Ideal S5000x128 .f32) (s t : Vec Ideal S1x128 .f32) (res : Vec Ideal S5000x128 .f32) (j : S5000x128.Idx) :
    k5_pay1 (F := Ideal) a s t res j
      = FloatOps.addf (F := Ideal) (lrelu (FloatOps.addf (F := Ideal) (FloatOps.mulf (F := Ideal) (a j) (s (vecIdx (j 1)))) (t (vecIdx (j 1))))) (res j) := by
  unfold k5_pay1
  simp only [shapeCast_self]
  show FloatOps.addf (F := Ideal) (lrelu (FloatOps.addf (F := Ideal) (FloatOps.mulf (F := Ideal) (a j) (broadcastTo S5000x128 s broadcasts_S1x128_S5000x128 j))
    (broadcastTo S5000x128 t broadcasts_S1x128_S5000x128 j))) (res j) = _
  rw [rowBroadcast_at, rowBroadcast_at]

/-- The block entry as the array law's entry, when the block's entries are the arrays' entries under it. -/
theorem aff_at (a : S5000x128.Idx → Ideal .f32) (s t : S1x128.Idx → Ideal .f32)
    (A : S100000x128.Idx → Ideal .f32) (S T : S1x128.Idx → Ideal .f32) (j : S5000x128.Idx) (i : S100000x128.Idx)
    (ha : a j = A i) (hs : s (vecIdx (j 1)) = S (vecIdx (i 1))) (ht : t (vecIdx (j 1)) = T (vecIdx (i 1))) :
    lrelu (FloatOps.addf (F := Ideal) (FloatOps.mulf (F := Ideal) (a j) (s (vecIdx (j 1)))) (t (vecIdx (j 1)))) = affLrelu A S T i := by
  unfold affLrelu
  rw [ha, hs, ht]

/-- Region 1's payload at a block index is the array law's entry under it, when the block's entries are the arrays'. -/
theorem pay1_arr (a : Vec Ideal S5000x128 .f32) (s t : Vec Ideal S1x128 .f32)
    (A : S100000x128.Idx → Ideal .f32) (S T : S1x128.Idx → Ideal .f32) (j : S5000x128.Idx) (i : S100000x128.Idx)
    (ha : a j = A i) (hs : s (vecIdx (j 1)) = S (vecIdx (i 1))) (ht : t (vecIdx (j 1)) = T (vecIdx (i 1))) :
    k1_pay1 (F := Ideal) a s t j = affLrelu A S T i :=
  (pay1_at a s t j).trans (aff_at a s t A S T j i ha hs ht)

/-- Regions 3 and 5: the same with the residual block's entry the residual array's. -/
theorem pay3_arr (a : Vec Ideal S5000x128 .f32) (s t : Vec Ideal S1x128 .f32) (res : Vec Ideal S5000x128 .f32)
    (A : S100000x128.Idx → Ideal .f32) (S T : S1x128.Idx → Ideal .f32) (R : S100000x128.Idx → Ideal .f32) (j : S5000x128.Idx) (i : S100000x128.Idx)
    (ha : a j = A i) (hs : s (vecIdx (j 1)) = S (vecIdx (i 1))) (ht : t (vecIdx (j 1)) = T (vecIdx (i 1))) (hr : res j = R i) :
    k3_pay1 (F := Ideal) a s t res j = affLreluRes A S T R i := by
  refine (pay3_at a s t res j).trans ?_
  unfold affLreluRes
  rw [aff_at a s t A S T j i ha hs ht, hr]

theorem pay5_arr (a : Vec Ideal S5000x128 .f32) (s t : Vec Ideal S1x128 .f32) (res : Vec Ideal S5000x128 .f32)
    (A : S100000x128.Idx → Ideal .f32) (S T : S1x128.Idx → Ideal .f32) (R : S100000x128.Idx → Ideal .f32) (j : S5000x128.Idx) (i : S100000x128.Idx)
    (ha : a j = A i) (hs : s (vecIdx (j 1)) = S (vecIdx (i 1))) (ht : t (vecIdx (j 1)) = T (vecIdx (i 1))) (hr : res j = R i) :
    k5_pay1 (F := Ideal) a s t res j = affLreluRes A S T R i := by
  refine (pay5_at a s t res j).trans ?_
  unfold affLreluRes
  rw [aff_at a s t A S T j i ha hs ht, hr]

variable (V : (c : Dev nD) → (b : Ref sig .tc) → Buf (Elt Ideal) ((c : Thread nD τ).loc b))

/-! ## Region 1: the row blocks of the law -/

/-- The printed index maps at a grid point: the array windows' blocks are row block `t`, the row vectors' blocks
    are the whole vectors. -/
theorem blockIdx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

set_option maxHeartbeats 800000 in
/-- What point `t` writes back is row block `t` of the law applied to the whole arrays the region reads: entry
    (r, q) of the block is the law's entry (5000 t + r, q). -/
theorem flushed1_eq (c : Dev nD) (t : Fin cfg1.N) :
    (dat1 (F := Ideal) V c).flushed 3 t = ((cfg1.win 3).blk t).view.read (Elt Ideal)
      (affLrelu (V c (Pipeline.arrRef spec1 0)) (V c (Pipeline.arrRef spec1 1)) (V c (Pipeline.arrRef spec1 2))) := by
  show (cfg1.win 3).cut (grid1.coords t) ((dat1 (F := Ideal) V c).after 3 t) = _
  rw [after1_3]
  unfold out1_3
  rw [View.canon_unit_zero offs_zero]
  simp only [View.ld_unit_zero (S := S5000x128) offs_zero, View.ld_unit_zero (S := S1x128) offs_zero]
  obtain ⟨e0, e1, e2, e3, e4, e5, e6, e7⟩ := blockIdx1 t
  funext j
  rw [View.read_apply]
  refine Eq.trans ?_ (cast_eq rfl _).symm
  refine pay1_arr (iblk1 V c 0 t) (iblk1 V c 1 t) (iblk1 V c 2 t) (V c (Pipeline.arrRef spec1 0)) (V c (Pipeline.arrRef spec1 1)) (V c (Pipeline.arrRef spec1 2)) _ _ ?_ ?_ ?_
  · show V c (Pipeline.arrRef spec1 0) (((cfg1.win 0).blk t).view.emb j) = _
    refine congrArg _ (funext fun a => Fin.ext ?_)
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 128 + 1 * (j 1).val = win1_3.index t (1 : Fin 2) * 128 + 1 * (j 1).val; omega
  · show V c (Pipeline.arrRef spec1 1) (((cfg1.win 1).blk t).view.emb (vecIdx (j 1))) = _
    refine congrArg _ (funext fun a => Fin.ext ?_)
    match a with
    | ⟨0, _⟩ => show win1_1.index t (0 : Fin 2) * 1 + 1 * 0 = 0; omega
    | ⟨1, _⟩ => show win1_1.index t (1 : Fin 2) * 128 + 1 * (j 1).val = win1_3.index t (1 : Fin 2) * 128 + 1 * (j 1).val; omega
  · show V c (Pipeline.arrRef spec1 2) (((cfg1.win 2).blk t).view.emb (vecIdx (j 1))) = _
    refine congrArg _ (funext fun a => Fin.ext ?_)
    match a with
    | ⟨0, _⟩ => show win1_2.index t (0 : Fin 2) * 1 + 1 * 0 = 0; omega
    | ⟨1, _⟩ => show win1_2.index t (1 : Fin 2) * 128 + 1 * (j 1).val = win1_3.index t (1 : Fin 2) * 128 + 1 * (j 1).val; omega

/-- An index of the result array is in point `t`'s block iff each coordinate is in the block's range on its axis. -/
theorem mem_blk1 (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v54).slice (win1_3.rect t)).set ↔ _
  rw [View.set_slice_whole, Rect.mem_set_unit]
  exact Iff.rfl

/-- Every row of the result lies in the block of the point numbered by the row divided by the block height. -/
theorem cover1 (i : S100000x128.Idx) :
    ∃ t : Fin cfg1.N, (cfg1.win 3).flush t = true ∧ i ∈ ((cfg1.win 3).blk t).view.set := by
  have hN : grid1.N = 20 := N_1
  have hi0 : (i 0).val < 100000 := (i 0).isLt
  have hi1 : (i 1).val < 128 := (i 1).isLt
  have hlt : (i 0).val / 5000 < cfg1.N := by show (i 0).val / 5000 < grid1.N; omega
  obtain ⟨e0, e1, e2, e3, e4, e5, e6, e7⟩ := blockIdx1 ⟨(i 0).val / 5000, hlt⟩
  have eo : win1_3.index ⟨(i 0).val / 5000, hlt⟩ (0 : Fin 2) = (i 0).val / 5000 := e6
  refine ⟨⟨(i 0).val / 5000, hlt⟩, flush1_3 _, ?_⟩
  rw [mem_blk1]
  intro a
  match a with
  | ⟨0, _⟩ => show win1_3.index ⟨(i 0).val / 5000, hlt⟩ (0 : Fin 2) * 5000 ≤ (i 0).val ∧ (i 0).val < win1_3.index ⟨(i 0).val / 5000, hlt⟩ (0 : Fin 2) * 5000 + 5000; omega
  | ⟨1, _⟩ => show win1_3.index ⟨(i 0).val / 5000, hlt⟩ (1 : Fin 2) * 128 ≤ (i 1).val ∧ (i 1).val < win1_3.index ⟨(i 0).val / 5000, hlt⟩ (1 : Fin 2) * 128 + 128; omega

/-- THE ARRAY region 1 leaves: the law applied to the whole arrays it reads. -/
theorem aff1 (c : Dev nD) :
    (dat1 (F := Ideal) V c).arrAt 3 cfg1.N
      = affLrelu (V c (Pipeline.arrRef spec1 0)) (V c (Pipeline.arrRef spec1 1)) (V c (Pipeline.arrRef spec1 2)) :=
  (dat1 (F := Ideal) V c).arrAt_eq_of_cover 3 _ (fun t _ => flushed1_eq V c t) (cover1)

/-! ## Region 3: the row blocks of the law -/

/-- The printed index maps at a grid point: the array windows' blocks are row block `t`, the row vectors' blocks
    are the whole vectors. -/
theorem blockIdx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0 :=
  (by decide +kernel : ∀ t : Fin grid3.N, _)

set_option maxHeartbeats 800000 in
/-- What point `t` writes back is row block `t` of the law applied to the whole arrays the region reads: entry
    (r, q) of the block is the law's entry (5000 t + r, q). -/
theorem flushed3_eq (c : Dev nD) (t : Fin cfg3.N) :
    (dat3 (F := Ideal) V c).flushed 4 t = ((cfg3.win 4).blk t).view.read (Elt Ideal)
      (affLreluRes (V c (Pipeline.arrRef spec3 0)) (V c (Pipeline.arrRef spec3 1)) (V c (Pipeline.arrRef spec3 2)) (V c (Pipeline.arrRef spec3 3))) := by
  show (cfg3.win 4).cut (grid3.coords t) ((dat3 (F := Ideal) V c).after 4 t) = _
  rw [after3_4]
  unfold out3_4
  rw [View.canon_unit_zero offs_zero]
  simp only [View.ld_unit_zero (S := S5000x128) offs_zero, View.ld_unit_zero (S := S1x128) offs_zero]
  obtain ⟨e0, e1, e2, e3, e4, e5, e6, e7, e8, e9⟩ := blockIdx3 t
  funext j
  rw [View.read_apply]
  refine Eq.trans ?_ (cast_eq rfl _).symm
  refine pay3_arr (iblk3 V c 0 t) (iblk3 V c 1 t) (iblk3 V c 2 t) (iblk3 V c 3 t) (V c (Pipeline.arrRef spec3 0)) (V c (Pipeline.arrRef spec3 1)) (V c (Pipeline.arrRef spec3 2)) (V c (Pipeline.arrRef spec3 3)) _ _ ?_ ?_ ?_ ?_
  · show V c (Pipeline.arrRef spec3 0) (((cfg3.win 0).blk t).view.emb j) = _
    refine congrArg _ (funext fun a => Fin.ext ?_)
    match a with
    | ⟨0, _⟩ => show win3_0.index t (0 : Fin 2) * 5000 + 1 * (j 0).val = win3_4.index t (0 : Fin 2) * 5000 + 1 * (j 0).val; omega
    | ⟨1, _⟩ => show win3_0.index t (1 : Fin 2) * 128 + 1 * (j 1).val = win3_4.index t (1 : Fin 2) * 128 + 1 * (j 1).val; omega
  · show V c (Pipeline.arrRef spec3 1) (((cfg3.win 1).blk t).view.emb (vecIdx (j 1))) = _
    refine congrArg _ (funext fun a => Fin.ext ?_)
    match a with
    | ⟨0, _⟩ => show win3_1.index t (0 : Fin 2) * 1 + 1 * 0 = 0; omega
    | ⟨1, _⟩ => show win3_1.index t (1 : Fin 2) * 128 + 1 * (j 1).val = win3_4.index t (1 : Fin 2) * 128 + 1 * (j 1).val; omega
  · show V c (Pipeline.arrRef spec3 2) (((cfg3.win 2).blk t).view.emb (vecIdx (j 1))) = _
    refine congrArg _ (funext fun a => Fin.ext ?_)
    match a with
    | ⟨0, _⟩ => show win3_2.index t (0 : Fin 2) * 1 + 1 * 0 = 0; omega
    | ⟨1, _⟩ => show win3_2.index t (1 : Fin 2) * 128 + 1 * (j 1).val = win3_4.index t (1 : Fin 2) * 128 + 1 * (j 1).val; omega
  · show V c (Pipeline.arrRef spec3 3) (((cfg3.win 3).blk t).view.emb j) = _
    refine congrArg _ (funext fun a => Fin.ext ?_)
    match a with
    | ⟨0, _⟩ => show win3_3.index t (0 : Fin 2) * 5000 + 1 * (j 0).val = win3_4.index t (0 : Fin 2) * 5000 + 1 * (j 0).val; omega
    | ⟨1, _⟩ => show win3_3.index t (1 : Fin 2) * 128 + 1 * (j 1).val = win3_4.index t (1 : Fin 2) * 128 + 1 * (j 1).val; omega

/-- An index of the result array is in point `t`'s block iff each coordinate is in the block's range on its axis. -/
theorem mem_blk3 (t : Fin cfg3.N) (i : S100000x128.Idx) :
    i ∈ ((cfg3.win 4).blk t).view.set ↔ ∀ a : Fin 2, win3_4.index t a * S5000x128.size a ≤ (i a).val ∧ (i a).val < win3_4.index t a * S5000x128.size a + S5000x128.size a := by
  show i ∈ ((View.whole main_v105).slice (win3_4.rect t)).set ↔ _
  rw [View.set_slice_whole, Rect.mem_set_unit]
  exact Iff.rfl

/-- Every row of the result lies in the block of the point numbered by the row divided by the block height. -/
theorem cover3 (i : S100000x128.Idx) :
    ∃ t : Fin cfg3.N, (cfg3.win 4).flush t = true ∧ i ∈ ((cfg3.win 4).blk t).view.set := by
  have hN : grid3.N = 20 := N_3
  have hi0 : (i 0).val < 100000 := (i 0).isLt
  have hi1 : (i 1).val < 128 := (i 1).isLt
  have hlt : (i 0).val / 5000 < cfg3.N := by show (i 0).val / 5000 < grid3.N; omega
  obtain ⟨e0, e1, e2, e3, e4, e5, e6, e7, e8, e9⟩ := blockIdx3 ⟨(i 0).val / 5000, hlt⟩
  have eo : win3_4.index ⟨(i 0).val / 5000, hlt⟩ (0 : Fin 2) = (i 0).val / 5000 := e8
  refine ⟨⟨(i 0).val / 5000, hlt⟩, flush3_4 _, ?_⟩
  rw [mem_blk3]
  intro a
  match a with
  | ⟨0, _⟩ => show win3_4.index ⟨(i 0).val / 5000, hlt⟩ (0 : Fin 2) * 5000 ≤ (i 0).val ∧ (i 0).val < win3_4.index ⟨(i 0).val / 5000, hlt⟩ (0 : Fin 2) * 5000 + 5000; omega
  | ⟨1, _⟩ => show win3_4.index ⟨(i 0).val / 5000, hlt⟩ (1 : Fin 2) * 128 ≤ (i 1).val ∧ (i 1).val < win3_4.index ⟨(i 0).val / 5000, hlt⟩ (1 : Fin 2) * 128 + 128; omega

/-- THE ARRAY region 3 leaves: the law applied to the whole arrays it reads. -/
theorem aff3 (c : Dev nD) :
    (dat3 (F := Ideal) V c).arrAt 4 cfg3.N
      = affLreluRes (V c (Pipeline.arrRef spec3 0)) (V c (Pipeline.arrRef spec3 1)) (V c (Pipeline.arrRef spec3 2)) (V c (Pipeline.arrRef spec3 3)) :=
  (dat3 (F := Ideal) V c).arrAt_eq_of_cover 4 _ (fun t _ => flushed3_eq V c t) (cover3)

/-! ## Region 5: the row blocks of the law -/

/-- The printed index maps at a grid point: the array windows' blocks are row block `t`, the row vectors' blocks
    are the whole vectors. -/
theorem blockIdx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0
    ∧ win5_4.index t (0 : Fin 2) = t.val ∧ win5_4.index t (1 : Fin 2) = 0 :=
  (by decide +kernel : ∀ t : Fin grid5.N, _)

set_option maxHeartbeats 800000 in
/-- What point `t` writes back is row block `t` of the law applied to the whole arrays the region reads: entry
    (r, q) of the block is the law's entry (5000 t + r, q). -/
theorem flushed5_eq (c : Dev nD) (t : Fin cfg5.N) :
    (dat5 (F := Ideal) V c).flushed 4 t = ((cfg5.win 4).blk t).view.read (Elt Ideal)
      (affLreluRes (V c (Pipeline.arrRef spec5 0)) (V c (Pipeline.arrRef spec5 1)) (V c (Pipeline.arrRef spec5 2)) (V c (Pipeline.arrRef spec5 3))) := by
  show (cfg5.win 4).cut (grid5.coords t) ((dat5 (F := Ideal) V c).after 4 t) = _
  rw [after5_4]
  unfold out5_4
  rw [View.canon_unit_zero offs_zero]
  simp only [View.ld_unit_zero (S := S5000x128) offs_zero, View.ld_unit_zero (S := S1x128) offs_zero]
  obtain ⟨e0, e1, e2, e3, e4, e5, e6, e7, e8, e9⟩ := blockIdx5 t
  funext j
  rw [View.read_apply]
  refine Eq.trans ?_ (cast_eq rfl _).symm
  refine pay5_arr (iblk5 V c 0 t) (iblk5 V c 1 t) (iblk5 V c 2 t) (iblk5 V c 3 t) (V c (Pipeline.arrRef spec5 0)) (V c (Pipeline.arrRef spec5 1)) (V c (Pipeline.arrRef spec5 2)) (V c (Pipeline.arrRef spec5 3)) _ _ ?_ ?_ ?_ ?_
  · show V c (Pipeline.arrRef spec5 0) (((cfg5.win 0).blk t).view.emb j) = _
    refine congrArg _ (funext fun a => Fin.ext ?_)
    match a with
    | ⟨0, _⟩ => show win5_0.index t (0 : Fin 2) * 5000 + 1 * (j 0).val = win5_4.index t (0 : Fin 2) * 5000 + 1 * (j 0).val; omega
    | ⟨1, _⟩ => show win5_0.index t (1 : Fin 2) * 128 + 1 * (j 1).val = win5_4.index t (1 : Fin 2) * 128 + 1 * (j 1).val; omega
  · show V c (Pipeline.arrRef spec5 1) (((cfg5.win 1).blk t).view.emb (vecIdx (j 1))) = _
    refine congrArg _ (funext fun a => Fin.ext ?_)
    match a with
    | ⟨0, _⟩ => show win5_1.index t (0 : Fin 2) * 1 + 1 * 0 = 0; omega
    | ⟨1, _⟩ => show win5_1.index t (1 : Fin 2) * 128 + 1 * (j 1).val = win5_4.index t (1 : Fin 2) * 128 + 1 * (j 1).val; omega
  · show V c (Pipeline.arrRef spec5 2) (((cfg5.win 2).blk t).view.emb (vecIdx (j 1))) = _
    refine congrArg _ (funext fun a => Fin.ext ?_)
    match a with
    | ⟨0, _⟩ => show win5_2.index t (0 : Fin 2) * 1 + 1 * 0 = 0; omega
    | ⟨1, _⟩ => show win5_2.index t (1 : Fin 2) * 128 + 1 * (j 1).val = win5_4.index t (1 : Fin 2) * 128 + 1 * (j 1).val; omega
  · show V c (Pipeline.arrRef spec5 3) (((cfg5.win 3).blk t).view.emb j) = _
    refine congrArg _ (funext fun a => Fin.ext ?_)
    match a with
    | ⟨0, _⟩ => show win5_3.index t (0 : Fin 2) * 5000 + 1 * (j 0).val = win5_4.index t (0 : Fin 2) * 5000 + 1 * (j 0).val; omega
    | ⟨1, _⟩ => show win5_3.index t (1 : Fin 2) * 128 + 1 * (j 1).val = win5_4.index t (1 : Fin 2) * 128 + 1 * (j 1).val; omega

/-- An index of the result array is in point `t`'s block iff each coordinate is in the block's range on its axis. -/
theorem mem_blk5 (t : Fin cfg5.N) (i : S100000x128.Idx) :
    i ∈ ((cfg5.win 4).blk t).view.set ↔ ∀ a : Fin 2, win5_4.index t a * S5000x128.size a ≤ (i a).val ∧ (i a).val < win5_4.index t a * S5000x128.size a + S5000x128.size a := by
  show i ∈ ((View.whole main_v156).slice (win5_4.rect t)).set ↔ _
  rw [View.set_slice_whole, Rect.mem_set_unit]
  exact Iff.rfl

/-- Every row of the result lies in the block of the point numbered by the row divided by the block height. -/
theorem cover5 (i : S100000x128.Idx) :
    ∃ t : Fin cfg5.N, (cfg5.win 4).flush t = true ∧ i ∈ ((cfg5.win 4).blk t).view.set := by
  have hN : grid5.N = 20 := N_5
  have hi0 : (i 0).val < 100000 := (i 0).isLt
  have hi1 : (i 1).val < 128 := (i 1).isLt
  have hlt : (i 0).val / 5000 < cfg5.N := by show (i 0).val / 5000 < grid5.N; omega
  obtain ⟨e0, e1, e2, e3, e4, e5, e6, e7, e8, e9⟩ := blockIdx5 ⟨(i 0).val / 5000, hlt⟩
  have eo : win5_4.index ⟨(i 0).val / 5000, hlt⟩ (0 : Fin 2) = (i 0).val / 5000 := e8
  refine ⟨⟨(i 0).val / 5000, hlt⟩, flush5_4 _, ?_⟩
  rw [mem_blk5]
  intro a
  match a with
  | ⟨0, _⟩ => show win5_4.index ⟨(i 0).val / 5000, hlt⟩ (0 : Fin 2) * 5000 ≤ (i 0).val ∧ (i 0).val < win5_4.index ⟨(i 0).val / 5000, hlt⟩ (0 : Fin 2) * 5000 + 5000; omega
  | ⟨1, _⟩ => show win5_4.index ⟨(i 0).val / 5000, hlt⟩ (1 : Fin 2) * 128 ≤ (i 1).val ∧ (i 1).val < win5_4.index ⟨(i 0).val / 5000, hlt⟩ (1 : Fin 2) * 128 + 128; omega

/-- THE ARRAY region 5 leaves: the law applied to the whole arrays it reads. -/
theorem aff5 (c : Dev nD) :
    (dat5 (F := Ideal) V c).arrAt 4 cfg5.N
      = affLreluRes (V c (Pipeline.arrRef spec5 0)) (V c (Pipeline.arrRef spec5 1)) (V c (Pipeline.arrRef spec5 2)) (V c (Pipeline.arrRef spec5 3)) :=
  (dat5 (F := Ideal) V c).arrAt_eq_of_cover 4 _ (fun t _ => flushed5_eq V c t) (cover5)

end Cert.KernelIdeal.RegionValue

end
-- ==== Proof.Chain.lean ====
/-
  The idealized kernel's result, read back through @main's twenty-one segments, is the reference's result as a function
  of the argument arrays.

  Each graph-convolution layer of the kernel is a projection region (a matrix product, block of rows by block of rows),
  a stretch of host operations (self-loops appended to the edge list; degrees by a scatter-add of ones; the inverse square
  root of the positive degrees; each gathered row scaled by the product of its two end nodes' factors; a scatter-add per
  target node; and the batch-norm parameters folded into one scale row g·rsqrt(v+ε) and one shift row
  (be − mu·scale) + b·scale), and an affine region (y = a·scale + shift, then y if y ≥ 0 else 0.01·y, plus the previous
  layer's output in layers 2 and 3). The reference computes the same projection as one dot_general, the SAME host
  operations for the aggregation, and then ((a + b) − mu)·rsqrt(v+ε)·g + be and the same rectifier.

  So the contents of the kernel's buffers at the segment boundaries are matched, layer by layer, with the reference's
  stage functions (`Read.val_main_vN`: each operation's value as a function of @main's arguments): the aggregation chain
  is the reference's own chain, operation for operation (read off the fold of host operations, for any float instance);
  the projection region's array is the reference's product at the ideal instance; and the affine region's array is the
  reference's batch-norm and rectifier by the one law that joins the two arrangements on the extended reals, which needs
  the batch-norm parameters finite and the variances nonnegative (so that rsqrt(v+ε) is a positive real) and holds for
  any extended-real aggregate. After the third layer both programs apply the same pooling, two-layer head and row
  normalisation, again operation for operation.
-/
import proofs.«142631_j15247133901708_1_alg».proof.Proof.ChainFold
import proofs.«142631_j15247133901708_1_alg».proof.Proof.ChainFold3
import proofs.«142631_j15247133901708_1_alg».proof.Proof.BnLayer
import proofs.«142631_j15247133901708_1_alg».proof.Proof.RegionMM
import proofs.«142631_j15247133901708_1_alg».proof.Proof.RegionAff
import proofs.«142631_j15247133901708_1_alg».proof.Proof.PreDecode

set_option maxRecDepth 16384
noncomputable section
namespace Cert.KernelIdeal.Chain
open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg) (c : Dev nD)

open Cert.ReferenceIdeal.Read

/-! ## At the ideal instance -/

section AtIdeal

variable (m : (ℓ : Loc nD τ sig) → Buf (Elt Ideal) ℓ) (ρ : Dev nD → PrngReg) (c : Dev nD)

/-- A projection region's array, entry by entry the sum over the contracted axis, is the reference's `dot_general` of
    the same operands at the ideal instance. -/
theorem mm_bridge (x : FVec Ideal S100000x128 .f32) (w : FVec Ideal S128x128 .f32) :
    RegionValue.matProd x w = val_main_v4 (F := Ideal) x w := by
  funext i; rw [val_main_v4_apply]; rfl

/-- The first region leaves the projected features `x · W1`. -/
theorem h1 : W2 m ρ c (Proc.devRef .tc main_v4) = val_main_v4 (F := Ideal) (arg m c main_arg0) (arg m c main_arg3) := by
  rw [show W2 m ρ c (Proc.devRef .tc main_v4) = (dat0 (V1 m ρ) c).arrAt 2 cfg0.N from W2_arr m ρ c 2, RegionValue.mm0, mm_bridge]
  show val_main_v4 (F := Ideal) (W1 m ρ c (Proc.devRef .tc main_arg0)) (W1 m ρ c (Proc.devRef .tc main_arg3)) = _
  rw [in0_x, in0_w]

/-- Layer 1's output: the affine region's scale, shift and rectifier on the aggregate is the reference's bias,
    batch-norm and rectifier on it (finite parameters, nonnegative variance). -/
theorem x1 (hd : Cert.PreDecode.Decoded (arg m c main_arg4) (arg m c main_arg6) (arg m c main_arg8) (arg m c main_arg9) (arg m c main_arg10) (arg m c main_arg11) (arg m c main_arg12) (arg m c main_arg13) (arg m c main_arg14) (arg m c main_arg15) (arg m c main_arg16) (arg m c main_arg17) (arg m c main_arg18) (arg m c main_arg19) (arg m c main_arg20)) :
    W6 m ρ c (Proc.devRef .tc main_v54) = val_main_v66 (F := Ideal) (arg m c main_arg0) (arg m c main_arg1) (arg m c main_arg3) (arg m c main_arg4) (arg m c main_arg9) (arg m c main_arg10) (arg m c main_arg11) (arg m c main_arg12) := by
  rw [show W6 m ρ c (Proc.devRef .tc main_v54) = (dat1 (V5 m ρ) c).arrAt 3 cfg1.N from W6_arr m ρ c 3, RegionValue.aff1]
  funext i
  show RegionValue.lrelu (FloatOps.addf (FloatOps.mulf (W5 m ρ c (Proc.devRef .tc main_v43) i)
      (W5 m ρ c (Proc.devRef .tc main_v52) (RegionValue.vecIdx (i 1)))) (W5 m ρ c (Proc.devRef .tc main_v53) (RegionValue.vecIdx (i 1)))) = _
  rw [agg1 m ρ c (h1 m ρ c), sc1, sh1]
  refine (BnLayer.layer_eq _ (arg m c main_arg9) (arg m c main_arg10) (arg m c main_arg11) (arg m c main_arg12) (arg m c main_arg4) hd.f9 hd.f10 hd.f11 hd.f12 hd.f4 hd.n12 i _ rfl).trans ?_
  rfl

/-- Layer 2's projection of the previous layer's output. -/
theorem h2 (hd : Cert.PreDecode.Decoded (arg m c main_arg4) (arg m c main_arg6) (arg m c main_arg8) (arg m c main_arg9) (arg m c main_arg10) (arg m c main_arg11) (arg m c main_arg12) (arg m c main_arg13) (arg m c main_arg14) (arg m c main_arg15) (arg m c main_arg16) (arg m c main_arg17) (arg m c main_arg18) (arg m c main_arg19) (arg m c main_arg20)) :
    W7 m ρ c (Proc.devRef .tc main_v55) = val_main_v67 (F := Ideal) (arg m c main_arg0) (arg m c main_arg1) (arg m c main_arg3) (arg m c main_arg4) (arg m c main_arg5) (arg m c main_arg9) (arg m c main_arg10) (arg m c main_arg11) (arg m c main_arg12) := by
  rw [show W7 m ρ c (Proc.devRef .tc main_v55) = (dat2 (V6 m ρ) c).arrAt 2 cfg2.N from W7_arr m ρ c 2, RegionValue.mm2, mm_bridge]
  show val_main_v4 (F := Ideal) (W6 m ρ c (Proc.devRef .tc main_v54)) (W6 m ρ c (Proc.devRef .tc main_arg5)) = _
  rw [x1 m ρ c hd, wgt2]
  rfl

/-- Layer 2's output: scale, shift and rectifier on the aggregate, plus the previous layer's output. -/
theorem x2 (hd : Cert.PreDecode.Decoded (arg m c main_arg4) (arg m c main_arg6) (arg m c main_arg8) (arg m c main_arg9) (arg m c main_arg10) (arg m c main_arg11) (arg m c main_arg12) (arg m c main_arg13) (arg m c main_arg14) (arg m c main_arg15) (arg m c main_arg16) (arg m c main_arg17) (arg m c main_arg18) (arg m c main_arg19) (arg m c main_arg20)) :
    W11 m ρ c (Proc.devRef .tc main_v105) = val_main_v130 (F := Ideal) (arg m c main_arg0) (arg m c main_arg1) (arg m c main_arg3) (arg m c main_arg4) (arg m c main_arg5) (arg m c main_arg6) (arg m c main_arg9) (arg m c main_arg10) (arg m c main_arg11) (arg m c main_arg12) (arg m c main_arg13) (arg m c main_arg14) (arg m c main_arg15) (arg m c main_arg16) := by
  rw [show W11 m ρ c (Proc.devRef .tc main_v105) = (dat3 (V10 m ρ) c).arrAt 4 cfg3.N from W11_arr m ρ c 4, RegionValue.aff3]
  funext i
  show FloatOps.addf (RegionValue.lrelu (FloatOps.addf (FloatOps.mulf (W10 m ρ c (Proc.devRef .tc main_v94) i)
      (W10 m ρ c (Proc.devRef .tc main_v103) (RegionValue.vecIdx (i 1)))) (W10 m ρ c (Proc.devRef .tc main_v104) (RegionValue.vecIdx (i 1)))))
      (W10 m ρ c (Proc.devRef .tc main_v54) i) = _
  rw [agg2 m ρ c (h2 m ρ c hd), sc2, sh2, res2, x1 m ρ c hd]
  refine (BnLayer.layer_res_eq _ (arg m c main_arg13) (arg m c main_arg14) (arg m c main_arg15) (arg m c main_arg16) (arg m c main_arg6) hd.f13 hd.f14 hd.f15 hd.f16 hd.f6 hd.n16 i _ rfl _).trans ?_
  rfl

/-- Layer 3's projection of the previous layer's output. -/
theorem h3 (hd : Cert.PreDecode.Decoded (arg m c main_arg4) (arg m c main_arg6) (arg m c main_arg8) (arg m c main_arg9) (arg m c main_arg10) (arg m c main_arg11) (arg m c main_arg12) (arg m c main_arg13) (arg m c main_arg14) (arg m c main_arg15) (arg m c main_arg16) (arg m c main_arg17) (arg m c main_arg18) (arg m c main_arg19) (arg m c main_arg20)) :
    W12 m ρ c (Proc.devRef .tc main_v106) = val_main_v131 (F := Ideal) (arg m c main_arg0) (arg m c main_arg1) (arg m c main_arg3) (arg m c main_arg4) (arg m c main_arg5) (arg m c main_arg6) (arg m c main_arg7) (arg m c main_arg9) (arg m c main_arg10) (arg m c main_arg11) (arg m c main_arg12) (arg m c main_arg13) (arg m c main_arg14) (arg m c main_arg15) (arg m c main_arg16) := by
  rw [show W12 m ρ c (Proc.devRef .tc main_v106) = (dat4 (V11 m ρ) c).arrAt 2 cfg4.N from W12_arr m ρ c 2, RegionValue.mm4, mm_bridge]
  show val_main_v4 (F := Ideal) (W11 m ρ c (Proc.devRef .tc main_v105)) (W11 m ρ c (Proc.devRef .tc main_arg7)) = _
  rw [x2 m ρ c hd, wgt3]
  rfl

/-- Layer 3's output: scale, shift and rectifier on the aggregate, plus the previous layer's output. -/
theorem x3 (hd : Cert.PreDecode.Decoded (arg m c main_arg4) (arg m c main_arg6) (arg m c main_arg8) (arg m c main_arg9) (arg m c main_arg10) (arg m c main_arg11) (arg m c main_arg12) (arg m c main_arg13) (arg m c main_arg14) (arg m c main_arg15) (arg m c main_arg16) (arg m c main_arg17) (arg m c main_arg18) (arg m c main_arg19) (arg m c main_arg20)) :
    W16 m ρ c (Proc.devRef .tc main_v156) = val_main_v194 (F := Ideal) (arg m c main_arg0) (arg m c main_arg1) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17) (arg m c main_arg18) (arg m c main_arg19) (arg m c main_arg20) := by
  rw [show W16 m ρ c (Proc.devRef .tc main_v156) = (dat5 (V15 m ρ) c).arrAt 4 cfg5.N from W16_arr m ρ c 4, RegionValue.aff5]
  funext i
  show FloatOps.addf (RegionValue.lrelu (FloatOps.addf (FloatOps.mulf (W15 m ρ c (Proc.devRef .tc main_v145) i)
      (W15 m ρ c (Proc.devRef .tc main_v154) (RegionValue.vecIdx (i 1)))) (W15 m ρ c (Proc.devRef .tc main_v155) (RegionValue.vecIdx (i 1)))))
      (W15 m ρ c (Proc.devRef .tc main_v105) i) = _
  rw [agg3 m ρ c (h3 m ρ c hd), sc3, sh3, res3, x2 m ρ c hd]
  refine (BnLayer.layer_res_eq _ (arg m c main_arg17) (arg m c main_arg18) (arg m c main_arg19) (arg m c main_arg20) (arg m c main_arg8) hd.f17 hd.f18 hd.f19 hd.f20 hd.f8 hd.n20 i _ rfl _).trans ?_
  rfl

/-- The kernel's result is the reference's last stage of the same arguments. -/
theorem result (hd : Cert.PreDecode.Decoded (arg m c main_arg4) (arg m c main_arg6) (arg m c main_arg8) (arg m c main_arg9) (arg m c main_arg10) (arg m c main_arg11) (arg m c main_arg12) (arg m c main_arg13) (arg m c main_arg14) (arg m c main_arg15) (arg m c main_arg16) (arg m c main_arg17) (arg m c main_arg18) (arg m c main_arg19) (arg m c main_arg20)) :
    W21 m ρ c (Proc.devRef .tc main_v186) = val_main_v224 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17) (arg m c main_arg18) (arg m c main_arg19) (arg m c main_arg20) (arg m c main_arg21) (arg m c main_arg22) (arg m c main_arg23) (arg m c main_arg24) :=
  tail m ρ c (x3 m ρ c hd)

end AtIdeal

end Cert.KernelIdeal.Chain
end
-- ==== Proof.lean ====
/-
  The proof of the certificate's claim: three frames, the (empty) idealization ledger, and the algebraic equality of the
  idealized kernel and the idealized reference.

  Frames. The kernel as printed and its idealization are each six pipelined regions among stretches of host operations;
  their generated frame certificates give termination without a fault with the argument arrays unchanged. The reference
  is a straight line of host operations; its run ends with every buffer at the fold of the operations over the launch
  contents, and no operation writes an argument.

  Ledger. The ideal pass rewrote nothing, so the idealization claim is the true proposition.

  Algebraic equality. Both programs run from memories that agree on the arguments. The kernel's run ends with its result
  buffer at the contents of the last segment boundary, a fold through its host stretches and its regions' write-backs;
  the reference's run ends with its result buffer at the composed value of its stage functions of the arguments. Under
  the precondition (every float input finite, the three variance vectors nonnegative) the kernel's boundary contents
  equal that composed value: a batch-norm folded into an affine map per column agrees with the unfolded batch-norm at
  every entry when the parameters are real and the variances nonnegative. The common value, read at the kernel's
  arguments, is the witness; the reference's side is rewritten to it by the agreement of the arguments.
-/
import proofs.«142631_j15247133901708_1_alg».proof.Defs
import proofs.«142631_j15247133901708_1_alg».proof.Proof.Gen.Kernel
import proofs.«142631_j15247133901708_1_alg».proof.Proof.Gen.Kernel.Frame
import proofs.«142631_j15247133901708_1_alg».proof.Proof.Gen.KernelIdeal
import proofs.«142631_j15247133901708_1_alg».proof.Proof.Gen.KernelIdeal.Frame
import proofs.«142631_j15247133901708_1_alg».proof.Proof.Gen.ReferenceIdeal
import proofs.«142631_j15247133901708_1_alg».proof.Proof.Gen.Pre_finite_inputs
import proofs.«142631_j15247133901708_1_alg».proof.Proof.RunValue
import proofs.«142631_j15247133901708_1_alg».proof.Proof.RefFold
import proofs.«142631_j15247133901708_1_alg».proof.Proof.PreDecode
import proofs.«142631_j15247133901708_1_alg».proof.Proof.Chain
import Idealize.ShloMosaic.Adequacy
import Idealize.ShloMosaic.Init

noncomputable section

open Idealize.ShloMosaic Idealize.SL.Sem

namespace Cert.Proof

/-- The kernel as printed runs and leaves its arguments unchanged: its generated frame certificate. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments unchanged: the run of its straight line, the result forgotten. -/
theorem frame_ri : Cert.frame_ReferenceIdeal := fun m ρ _ =>
  (θ_run Cert.ReferenceIdeal.defs _ _).mono (fun _ h c => (h c).2) (Cert.ReferenceIdeal.Fold.run_value (F := Ideal) m ρ)

/-- The ideal pass rewrote no operation. -/
theorem preserves : Cert.preserves_Kernel_KernelIdeal := trivial

/-- Both idealized programs end with their result at the reference's composed value of the kernel's arguments. -/
theorem algebraic : Cert.algebraic_KernelIdeal_ReferenceIdeal := by
  intro m ρ m' ρ' hpre hagree
  refine ⟨fun c => Cert.ReferenceIdeal.Read.val_main_v224 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)), ?_, ?_⟩
  · exact (θ_run Cert.KernelIdeal.defs _ _).mono
      (fun r h c => ⟨(h c).1.trans (Cert.KernelIdeal.Chain.result m ρ c
          (Cert.PreDecode.decode _ _ _ _ _ _ _ _ _ _ _ _ _ _ _ _ _ _ _ _ _ _ _ _ _ (hpre c))), (h c).2⟩)
      (Cert.KernelIdeal.RunValue.run_value (F := Ideal) m ρ)
  · refine (θ_run Cert.ReferenceIdeal.defs _ _).mono (fun _ h c => ⟨(h c).1.trans ?_, (h c).2⟩)
      (Cert.ReferenceIdeal.Fold.run_value (F := Ideal) m' ρ')
    obtain ⟨a0, a1, a2, a3, a4, a5, a6, a7, a8, a9, a10, a11, a12, a13, a14, a15, a16, a17, a18, a19, a20, a21, a22, a23, a24⟩ := hagree c
    beta_reduce
    rw [a0, a1, a2, a3, a4, a5, a6, a7, a8, a9, a10, a11, a12, a13, a14, a15, a16, a17, a18, a19, a20, a21, a22, a23, a24]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
